-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S8192 .f32) (main_arg5 : FVec F S4096x8192 .f32) (main_arg6 : FVec F S4096 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S8192x4096 .f32) (main_arg2 : FVec F S8192 .f32) (main_arg3 : FVec F S8192x8192 .f32) (main_arg4 : FVec F S8192 .f32) (main_arg5 : FVec F S4096x8192 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_v13 main_v16
-- ==== Kernel.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩
abbrev S1x1 : Shape := ⟨2, ![1, 1]⟩
abbrev S1x8192 : Shape := ⟨2, ![1, 8192]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 83
  | .vmem => 30
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S4096x8192, .f32⟩
  | .hbm, ⟨6, _⟩ => ⟨S4096, .f32⟩
  | .hbm, ⟨7, _⟩ => ⟨S8192x4096, .bf16⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x4096, .f32⟩
  | .hbm, ⟨16, _⟩ => ⟨S8192x4096, .i1⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .bf16⟩
  | .hbm, ⟨29, _⟩ => ⟨S1x1, .f32⟩
  | .hbm, ⟨30, _⟩ => ⟨S4096x8192, .bf16⟩
  | .hbm, ⟨31, _⟩ => ⟨S1x8192, .f32⟩
  | .hbm, ⟨32, _⟩ => ⟨S8192x8192, .bf16⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .i1⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .bf16⟩
  | .hbm, ⟨54, _⟩ => ⟨S1x1, .f32⟩
  | .hbm, ⟨55, _⟩ => ⟨S8192x8192, .bf16⟩
  | .hbm, ⟨56, _⟩ => ⟨S1x8192, .f32⟩
  | .hbm, ⟨57, _⟩ => ⟨S8192x8192, .bf16⟩
  | .hbm, ⟨58, _⟩ => ⟨S4096x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x8192, .f32⟩
  | .hbm, ⟨66, _⟩ => ⟨S4096x8192, .i1⟩
  | .hbm, ⟨67, _⟩ => ⟨S4096x8192, .f32⟩
  | .hbm, ⟨68, _⟩ => ⟨S4096x8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096x8192, .f32⟩
  | .hbm, ⟨77, _⟩ => ⟨S4096x8192, .f32⟩
  | .hbm, ⟨78, _⟩ => ⟨S4096x8192, .bf16⟩
  | .hbm, ⟨79, _⟩ => ⟨S1x1, .f32⟩
  | .hbm, ⟨80, _⟩ => ⟨S8192x4096, .bf16⟩
  | .hbm, ⟨81, _⟩ => ⟨S1x4096, .f32⟩
  | .hbm, ⟨82, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .f32⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1, .f32⟩
  | .local _ .vmem, ⟨17, _⟩ => ⟨S2048x1024, .bf16⟩
  | .local _ .vmem, ⟨18, _⟩ => ⟨S2048x1024, .bf16⟩
  | .local _ .vmem, ⟨19, _⟩ => ⟨S2048x1024, .f32⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_cst_1 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_cst_2 : Ref sig .tc := ⟨.hbm, 19, rfl⟩
abbrev main_call0_v9 : Ref sig .tc := ⟨.hbm, 20, rfl⟩
abbrev main_call0_cst_3 : Ref sig .tc := ⟨.hbm, 21, rfl⟩
abbrev main_call0_v10 : Ref sig .tc := ⟨.hbm, 22, rfl⟩
abbrev main_call0_cst_4 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_cst_5 : Ref sig .tc := ⟨.hbm, 34, rfl⟩
abbrev main_call0_v21 : Ref sig .tc := ⟨.hbm, 35, rfl⟩
abbrev main_call0_cst_6 : Ref sig .tc := ⟨.hbm, 36, rfl⟩
abbrev main_call0_v22 : Ref sig .tc := ⟨.hbm, 37, rfl⟩
abbrev main_call0_cst_7 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_cst_8 : Ref sig .tc := ⟨.hbm, 44, rfl⟩
abbrev main_call0_v28 : Ref sig .tc := ⟨.hbm, 45, rfl⟩
abbrev main_call0_cst_9 : Ref sig .tc := ⟨.hbm, 46, rfl⟩
abbrev main_call0_v29 : Ref sig .tc := ⟨.hbm, 47, rfl⟩
abbrev main_call0_cst_10 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_cst_11 : Ref sig .tc := ⟨.hbm, 59, rfl⟩
abbrev main_call0_v40 : Ref sig .tc := ⟨.hbm, 60, rfl⟩
abbrev main_call0_cst_12 : Ref sig .tc := ⟨.hbm, 61, rfl⟩
abbrev main_call0_v41 : Ref sig .tc := ⟨.hbm, 62, rfl⟩
abbrev main_call0_cst_13 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_cst_14 : Ref sig .tc := ⟨.hbm, 69, rfl⟩
abbrev main_call0_v47 : Ref sig .tc := ⟨.hbm, 70, rfl⟩
abbrev main_call0_cst_15 : Ref sig .tc := ⟨.hbm, 71, rfl⟩
abbrev main_call0_v48 : Ref sig .tc := ⟨.hbm, 72, rfl⟩
abbrev main_call0_cst_16 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_v0 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  bitsLt_bf16_f32 : FTy.bits .bf16 < FTy.bits .f32
  reducesTo_S8192x4096_S_d0_1 : S8192x4096.ReducesTo [0, 1] S_
  h_S_ : 0 < S_.numel
  bcast_S_S8192x4096 : S_.BroadcastsInDim S8192x4096 (![] : Fin 0 → Fin S8192x4096.rank)
  shapeCasts_S_S1x1 : S_.ShapeCasts S1x1
  transposes_S8192x4096_S4096x8192_1_0 : S8192x4096.Transposes [1, 0] S4096x8192
  shapeCasts_S8192_S1x8192 : S8192.ShapeCasts S1x8192
  reducesTo_S8192x8192_S_d0_1 : S8192x8192.ReducesTo [0, 1] S_
  bcast_S_S8192x8192 : S_.BroadcastsInDim S8192x8192 (![] : Fin 0 → Fin S8192x8192.rank)
  transposes_S8192x8192_S8192x8192_1_0 : S8192x8192.Transposes [1, 0] S8192x8192
  reducesTo_S4096x8192_S_d0_1 : S4096x8192.ReducesTo [0, 1] S_
  bcast_S_S4096x8192 : S_.BroadcastsInDim S4096x8192 (![] : Fin 0 → Fin S4096x8192.rank)
  transposes_S4096x8192_S8192x4096_1_0 : S4096x8192.Transposes [1, 0] S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1024 : S1x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x8192.size a
  hwx0_1 : ∀ i : grid0.Coords, EltTy.bits .bf16 = 32 ∨ (Rect.block (s := S4096x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x8192.size a
  hwx0_4 : ∀ i : grid0.Coords, EltTy.bits .bf16 = 32 ∨ (Rect.block (s := S8192x8192) S2048x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x8192.size a
  hwx1_4 : ∀ i : grid1.Coords, EltTy.bits .bf16 = 32 ∨ (Rect.block (s := S8192x8192) S2048x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x4096.size a
  hwx2_1 : ∀ i : grid2.Coords, EltTy.bits .bf16 = 32 ∨ (Rect.block (s := S8192x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x4096.size a
  hwx2_4 : ∀ i : grid2.Coords, EltTy.bits .f32 = 32 ∨ (Rect.block (s := S8192x4096) S2048x1024.size (cc2_transform_4 i) (hinb2_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_call0_v19) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v36) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v37) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v35) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v38) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_call0_v38) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v55) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v56) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v54) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩
abbrev S1x8192 : Shape := ⟨2, ![1, 8192]⟩
abbrev S1x4096 : Shape := ⟨2, ![1, 4096]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S4096x8192, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S4096x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S4096x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096x8192, .f32⟩
  | .hbm, ⟨75, _⟩ => ⟨S4096x8192, .i1⟩
  | .hbm, ⟨76, _⟩ => ⟨S4096x8192, .f32⟩
  | .hbm, ⟨77, _⟩ => ⟨S4096x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4096x8192, .f32⟩
  | .hbm, ⟨86, _⟩ => ⟨S4096x8192, .f32⟩
  | .hbm, ⟨87, _⟩ => ⟨S4096x8192, .f32⟩
  | .hbm, ⟨88, _⟩ => ⟨S4096x8192, .f32⟩
  | .hbm, ⟨89, _⟩ => ⟨S8192x4096, .f32⟩
  | .hbm, ⟨90, _⟩ => ⟨S8192x4096, .f32⟩
  | .hbm, ⟨91, _⟩ => ⟨S1x4096, .f32⟩
  | .hbm, ⟨92, _⟩ => ⟨S8192x4096, .f32⟩
  | .hbm, ⟨93, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S8192x4096 : S_.BroadcastsInDim S8192x4096 (![] : Fin 0 → Fin S8192x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  transposes_S8192x8192_S8192x8192_1_0 : S8192x8192.Transposes [1, 0] S8192x8192
  reducesTo_S4096x8192_S_d0_1 : S4096x8192.ReducesTo [0, 1] S_
  bcast_S_S4096x8192 : S_.BroadcastsInDim S4096x8192 (![] : Fin 0 → Fin S4096x8192.rank)
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x8192_S8192x8192_1_0_0_1_n_n_wf : DotDims.WF S8192x4096 S4096x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x4096_S8192x4096_1_0_0_1_n_n_wf : DotDims.WF S8192x8192 S8192x4096 S8192x4096 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.K0Base.lean ====
/-
  Region 0 of the network (layer 1): what the three runs of its kernel body are stated over.

  The grid is (row block, column block, reduction block) in row-major order, so the reduction block of point `t` is
  `t mod 4`. The body zeroes its accumulator on the first reduction block, adds one block product on every block, and on
  the last one (`t mod 4 = 3`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.Kernel.Launch
import proofs.«109880_j20693152432262_2_alg».proof.Proof.Gen.Kernel.Skeleton
import proofs.«109880_j20693152432262_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid0.Coords) : Prop :=
  (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last reduction block": the body's second `if`. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are live -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
/-- Off the last reduction block the output window is idle, -/
theorem idle_4 : ∀ t : Fin cfg0.N, ¬condLast (grid0.coords t) → cfg0.idle 4 (grid0.coords t) = true := by decide +kernel
/-- and is not written back there; -/
theorem noFlush_4 : ∀ t : Fin cfg0.N, ¬condLast (grid0.coords t) → (cfg0.win 4).flush t = false := by decide +kernel
/-- on it the window is live. -/
theorem live_4 : ∀ t : Fin cfg0.N, condLast (grid0.coords t) → cfg0.idle 4 (grid0.coords t) = false := by decide +kernel

/-! ## The memrefs the body is called with -/

/-- One staging buffer of the output window, through which its contents are stated. -/
abbrev VO : View sig .tc .vmem S2048x1024 .bf16 := (Memref.whole cc0_stg4_0 : Memref sig .tc .vmem S2048x1024 .bf16).view
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S2048x1024 .f32 := Memref.whole cc0_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec0 c [cc0_scratch0]

/-- The region's plain invariant, with the accumulator singled out as a memref owned at some contents. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA
  rw [Pipeline.scopedRest_split_of_list spec0 c [cc0_scratch0] (by decide) (by decide)]
  simp only [bigSepL_singleton, scM, owns_whole]; rfl

end Cert.Kernel.Reg0

end
-- ==== Proof.K0RunA.lean ====
/-
  Region 0: the kernel body run whole in one of its three control cases (case A), on whole staging memrefs holding
  the point's input blocks. The run is symbolic: it leaves each buffer the body stores into with the list of those
  stores, each store's value a pure function of what the body loaded.
-/
import proofs.«109880_j20693152432262_2_alg».proof.Proof.K0Base

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg0

end
-- ==== Proof.K0RunB.lean ====
/-
  Region 0: the kernel body run whole in one of its three control cases (case B), on whole staging memrefs holding
  the point's input blocks. The run is symbolic: it leaves each buffer the body stores into with the list of those
  stores, each store's value a pure function of what the body loaded.
-/
import proofs.«109880_j20693152432262_2_alg».proof.Proof.K0Base

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg0

end
-- ==== Proof.K0RunC.lean ====
/-
  Region 0: the kernel body run whole in one of its three control cases (case C), on whole staging memrefs holding
  the point's input blocks. The run is symbolic: it leaves each buffer the body stores into with the list of those
  stores, each store's value a pure function of what the body loaded.
-/
import proofs.«109880_j20693152432262_2_alg».proof.Proof.K0Base

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Reg0

end
-- ==== Proof.K0Frame.lean ====
/-
  Region 0 of the network (layer 1): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.K0RunA
import proofs.«109880_j20693152432262_2_alg».proof.Proof.K0RunB
import proofs.«109880_j20693152432262_2_alg».proof.Proof.K0RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg0.N) (h0 : t.val % 4 = 0) : ¬condLast (grid0.coords t) := fun h => by
  have := (hcondLast t).mp h; omega

/-- The first-block run at point `t`, on the point's staging memrefs and input blocks. -/
def runA (c : Dev nD) (t : Fin cfg0.N) (h0 : t.val % 4 = 0) :=
  kernelRunA (F := F) c (grid0.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg0.N) (h0 : ¬t.val % 4 = 0) (h1 : ¬t.val % 4 = 3) (xs : Vec F S2048x1024 .f32) :=
  kernelRunB (F := F) c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg0.N) (h0 : ¬t.val % 4 = 0) (h1 : t.val % 4 = 3) (xs : Vec F S2048x1024 .f32) :=
  kernelRunC (F := F) c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg0.N) (h0 : t.val % 4 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg0.N) (h0 : t.val % 4 = 0) : Vec F S2048x1024 .f32 :=
  VS.read (Elt F) (VS.writes (Elt F) VS.junk (runA V c t h0).1)

theorem scoverB (c : Dev nD) (t : Fin cfg0.N) (h0 : ¬t.val % 4 = 0) (h1 : ¬t.val % 4 = 3) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg0.N) (h0 : ¬t.val % 4 = 0) (h1 : ¬t.val % 4 = 3) (xs : Vec F S2048x1024 .f32) : Vec F S2048x1024 .f32 :=
  VS.read (Elt F) (VS.writes (Elt F) VS.junk (runB V c t h0 h1 xs).1)

theorem coverC (c : Dev nD) (t : Fin cfg0.N) (h0 : ¬t.val % 4 = 0) (h1 : t.val % 4 = 3) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg0.N) (h0 : ¬t.val % 4 = 0) (h1 : t.val % 4 = 3) (xs : Vec F S2048x1024 .f32) : Vec F S2048x1024 .bf16 :=
  VO.read (Elt F) (VO.writes (Elt F) VO.junk (runC V c t h0 h1 xs).1)
theorem scoverC (c : Dev nD) (t : Fin cfg0.N) (h0 : ¬t.val % 4 = 0) (h1 : t.val % 4 = 3) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg0.N) (h0 : ¬t.val % 4 = 0) (h1 : t.val % 4 = 3) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .bf16 := VO.read (Elt F) VO.junk

/-- One point: (output buffer, accumulator) after the body at `t`, the accumulator found at `prev`. -/
def stepAt (c : Dev nD) (t : Fin cfg0.N) (prev : Vec F S2048x1024 .f32) : Vec F S2048x1024 .bf16 × Vec F S2048x1024 .f32 :=
  if h0 : t.val % 4 = 0 then (junkO, soutA V c t h0)
  else if h1 : t.val % 4 = 3 then (outC V c t h0 h1 prev, soutC V c t h0 h1 prev)
  else (junkO, soutB V c t h0 h1 prev)

/-- All points in order, each handed the accumulator the one before left. -/
def outsAt (c : Dev nD) : (n : ℕ) → n < cfg0.N → Vec F S2048x1024 .bf16 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg0.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg0.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg0.N) (prev : Vec F S2048x1024 .f32) (h0 : t.val % 4 = 0) :
    stepAt V c t prev = (junkO, soutA V c t h0) := dif_pos h0
theorem stepAt_B (c : Dev nD) (t : Fin cfg0.N) (prev : Vec F S2048x1024 .f32) (h0 : ¬t.val % 4 = 0) (h1 : ¬t.val % 4 = 3) :
    stepAt V c t prev = (junkO, soutB V c t h0 h1 prev) := (dif_neg h0).trans (dif_neg h1)
theorem stepAt_C (c : Dev nD) (t : Fin cfg0.N) (prev : Vec F S2048x1024 .f32) (h0 : ¬t.val % 4 = 0) (h1 : t.val % 4 = 3) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Rest c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 4`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 4 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 128 := N_0; omega)

end Frame

end Cert.Kernel.Reg0

end
-- ==== Proof.K1Base.lean ====
/-
  Region 1 of the network (layer 2): what the three runs of its kernel body are stated over.

  The grid is (row block, column block, reduction block) in row-major order, so the reduction block of point `t` is
  `t mod 8`. The body zeroes its accumulator on the first reduction block, adds one block product on every block, and on
  the last one (`t mod 8 = 7`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.Kernel.Launch
import proofs.«109880_j20693152432262_2_alg».proof.Proof.Gen.Kernel.Skeleton
import proofs.«109880_j20693152432262_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid1.Coords) : Prop :=
  (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last reduction block": the body's second `if`. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are live -/

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
/-- Off the last reduction block the output window is idle, -/
theorem idle_4 : ∀ t : Fin cfg1.N, ¬condLast (grid1.coords t) → cfg1.idle 4 (grid1.coords t) = true := by decide +kernel
/-- and is not written back there; -/
theorem noFlush_4 : ∀ t : Fin cfg1.N, ¬condLast (grid1.coords t) → (cfg1.win 4).flush t = false := by decide +kernel
/-- on it the window is live. -/
theorem live_4 : ∀ t : Fin cfg1.N, condLast (grid1.coords t) → cfg1.idle 4 (grid1.coords t) = false := by decide +kernel

/-! ## The memrefs the body is called with -/

/-- One staging buffer of the output window, through which its contents are stated. -/
abbrev VO : View sig .tc .vmem S2048x1024 .bf16 := (Memref.whole cc1_stg4_0 : Memref sig .tc .vmem S2048x1024 .bf16).view
abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x1024 .bf16 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S2048x1024 .f32 := Memref.whole cc1_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec1 c [cc1_scratch0]

/-- The region's plain invariant, with the accumulator singled out as a memref owned at some contents. -/
theorem PhiA_eq (c : Dev nD) :
    (Pipeline.ΦA spec1 c : sProp 𝕄)
      = iprop(iprop((∃ d, owns (c : Thread nD τ) scM fullShare d) ∗ Rest c) ∗ (∃ r, prngReg c r)) := by
  unfold Pipeline.ΦA
  rw [Pipeline.scopedRest_split_of_list spec1 c [cc1_scratch0] (by decide) (by decide)]
  simp only [bigSepL_singleton, scM, owns_whole]; rfl

end Cert.Kernel.Reg1

end
-- ==== Proof.K1RunA.lean ====
/-
  Region 1: the kernel body run whole in one of its three control cases (case A), on whole staging memrefs holding
  the point's input blocks. The run is symbolic: it leaves each buffer the body stores into with the list of those
  stores, each store's value a pure function of what the body loaded.
-/
import proofs.«109880_j20693152432262_2_alg».proof.Proof.K1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, fun xi4 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg1

end
-- ==== Proof.K1RunB.lean ====
/-
  Region 1: the kernel body run whole in one of its three control cases (case B), on whole staging memrefs holding
  the point's input blocks. The run is symbolic: it leaves each buffer the body stores into with the list of those
  stores, each store's value a pure function of what the body loaded.
-/
import proofs.«109880_j20693152432262_2_alg».proof.Proof.K1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, fun xi4 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg1

end
-- ==== Proof.K1RunC.lean ====
/-
  Region 1: the kernel body run whole in one of its three control cases (case C), on whole staging memrefs holding
  the point's input blocks. The run is symbolic: it leaves each buffer the body stores into with the list of those
  stores, each store's value a pure function of what the body loaded.
-/
import proofs.«109880_j20693152432262_2_alg».proof.Proof.K1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, ?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Reg1

end
-- ==== Proof.K1Frame.lean ====
/-
  Region 1 of the network (layer 2): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.K1RunA
import proofs.«109880_j20693152432262_2_alg».proof.Proof.K1RunB
import proofs.«109880_j20693152432262_2_alg».proof.Proof.K1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg1.N) (h0 : t.val % 8 = 0) : ¬condLast (grid1.coords t) := fun h => by
  have := (hcondLast t).mp h; omega

/-- The first-block run at point `t`, on the point's staging memrefs and input blocks. -/
def runA (c : Dev nD) (t : Fin cfg1.N) (h0 : t.val % 8 = 0) :=
  kernelRunA (F := F) c (grid1.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg1.N) (h0 : ¬t.val % 8 = 0) (h1 : ¬t.val % 8 = 7) (xs : Vec F S2048x1024 .f32) :=
  kernelRunB (F := F) c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg1.N) (h0 : ¬t.val % 8 = 0) (h1 : t.val % 8 = 7) (xs : Vec F S2048x1024 .f32) :=
  kernelRunC (F := F) c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg1.N) (h0 : t.val % 8 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg1.N) (h0 : t.val % 8 = 0) : Vec F S2048x1024 .f32 :=
  VS.read (Elt F) (VS.writes (Elt F) VS.junk (runA V c t h0).1)

theorem scoverB (c : Dev nD) (t : Fin cfg1.N) (h0 : ¬t.val % 8 = 0) (h1 : ¬t.val % 8 = 7) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg1.N) (h0 : ¬t.val % 8 = 0) (h1 : ¬t.val % 8 = 7) (xs : Vec F S2048x1024 .f32) : Vec F S2048x1024 .f32 :=
  VS.read (Elt F) (VS.writes (Elt F) VS.junk (runB V c t h0 h1 xs).1)

theorem coverC (c : Dev nD) (t : Fin cfg1.N) (h0 : ¬t.val % 8 = 0) (h1 : t.val % 8 = 7) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg1.N) (h0 : ¬t.val % 8 = 0) (h1 : t.val % 8 = 7) (xs : Vec F S2048x1024 .f32) : Vec F S2048x1024 .bf16 :=
  VO.read (Elt F) (VO.writes (Elt F) VO.junk (runC V c t h0 h1 xs).1)
theorem scoverC (c : Dev nD) (t : Fin cfg1.N) (h0 : ¬t.val % 8 = 0) (h1 : t.val % 8 = 7) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg1.N) (h0 : ¬t.val % 8 = 0) (h1 : t.val % 8 = 7) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .bf16 := VO.read (Elt F) VO.junk

/-- One point: (output buffer, accumulator) after the body at `t`, the accumulator found at `prev`. -/
def stepAt (c : Dev nD) (t : Fin cfg1.N) (prev : Vec F S2048x1024 .f32) : Vec F S2048x1024 .bf16 × Vec F S2048x1024 .f32 :=
  if h0 : t.val % 8 = 0 then (junkO, soutA V c t h0)
  else if h1 : t.val % 8 = 7 then (outC V c t h0 h1 prev, soutC V c t h0 h1 prev)
  else (junkO, soutB V c t h0 h1 prev)

/-- All points in order, each handed the accumulator the one before left. -/
def outsAt (c : Dev nD) : (n : ℕ) → n < cfg1.N → Vec F S2048x1024 .bf16 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg1.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg1.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg1.N) (prev : Vec F S2048x1024 .f32) (h0 : t.val % 8 = 0) :
    stepAt V c t prev = (junkO, soutA V c t h0) := dif_pos h0
theorem stepAt_B (c : Dev nD) (t : Fin cfg1.N) (prev : Vec F S2048x1024 .f32) (h0 : ¬t.val % 8 = 0) (h1 : ¬t.val % 8 = 7) :
    stepAt V c t prev = (junkO, soutB V c t h0 h1 prev) := (dif_neg h0).trans (dif_neg h1)
theorem stepAt_C (c : Dev nD) (t : Fin cfg1.N) (prev : Vec F S2048x1024 .f32) (h0 : ¬t.val % 8 = 0) (h1 : t.val % 8 = 7) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Rest c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 8`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 8 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 256 := N_1; omega)

end Frame

end Cert.Kernel.Reg1

end
-- ==== Proof.K2Base.lean ====
/-
  Region 2 of the network (layer 3): what the three runs of its kernel body are stated over.

  The grid is (row block, column block, reduction block) in row-major order, so the reduction block of point `t` is
  `t mod 8`. The body zeroes its accumulator on the first reduction block, adds one block product on every block, and on
  the last one (`t mod 8 = 7`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.Kernel.Launch
import proofs.«109880_j20693152432262_2_alg».proof.Proof.Gen.Kernel.Skeleton
import proofs.«109880_j20693152432262_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid2.Coords) : Prop :=
  (Scalar.cmpi .ne (Scalar.extui (Scalar.cmpi .eq (BitVec.ofNat 32 (i 2).val) 0#32)) 0#32) = 1#1
theorem hcondFirst : ∀ t : Fin cfg2.N, condFirst (grid2.coords t) ↔ t.val % 8 = 0 :=
  (by decide +kernel : ∀ t : Fin grid2.N, condFirst (grid2.coords t) ↔ t.val % 8 = 0)

/-- "This is the last reduction block": the body's second `if`. -/
abbrev condLast (i : grid2.Coords) : Prop := k2_cond2 i = 1#1
theorem hcondLast : ∀ t : Fin cfg2.N, condLast (grid2.coords t) ↔ t.val % 8 = 7 :=
  (by decide +kernel : ∀ t : Fin grid2.N, condLast (grid2.coords t) ↔ t.val % 8 = 7)

/-! ## Where the windows are live -/

theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
theorem live_3 : ∀ t : Fin cfg2.N, cfg2.idle 3 (grid2.coords t) = false := fun _ => rfl
/-- Off the last reduction block the output window is idle, -/
theorem idle_4 : ∀ t : Fin cfg2.N, ¬condLast (grid2.coords t) → cfg2.idle 4 (grid2.coords t) = true := by decide +kernel
/-- and is not written back there; -/
theorem noFlush_4 : ∀ t : Fin cfg2.N, ¬condLast (grid2.coords t) → (cfg2.win 4).flush t = false := by decide +kernel
/-- on it the window is live. -/
theorem live_4 : ∀ t : Fin cfg2.N, condLast (grid2.coords t) → cfg2.idle 4 (grid2.coords t) = false := by decide +kernel

/-! ## The memrefs the body is called with -/

/-- One staging buffer of the output window, through which its contents are stated. -/
abbrev VO : View sig .tc .vmem S2048x1024 .f32 := (Memref.whole cc2_stg4_0 : Memref sig .tc .vmem S2048x1024 .f32).view
abbrev ms0 (t : Fin cfg2.N) : Memref sig .tc .vmem S2048x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x1024 .f32 := win2_4.stage (cfg2.slots t 4)
abbrev hs4 (t : Fin cfg2.N) : (ms4 t).IsWhole := hstage2_4 ((cfg2.slots t 4).cast nbuf2_4)
/-- The accumulator: a whole scoped buffer of the kernel's own. -/
abbrev scM : Memref sig .tc .vmem S2048x1024 .f32 := Memref.whole cc2_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec2 c [cc2_scratch0]

/-- The region's plain invariant, with the accumulator singled out as a memref owned at some contents. -/
theorem PhiA_eq (c : Dev nD) :
    (Pipeline.ΦA spec2 c : sProp 𝕄)
      = iprop(iprop((∃ d, owns (c : Thread nD τ) scM fullShare d) ∗ Rest c) ∗ (∃ r, prngReg c r)) := by
  unfold Pipeline.ΦA
  rw [Pipeline.scopedRest_split_of_list spec2 c [cc2_scratch0] (by decide) (by decide)]
  simp only [bigSepL_singleton, scM, owns_whole]; rfl

end Cert.Kernel.Reg2

end
-- ==== Proof.K2RunA.lean ====
/-
  Region 2: the kernel body run whole in one of its three control cases (case A), on whole staging memrefs holding
  the point's input blocks. The run is symbolic: it leaves each buffer the body stores into with the list of those
  stores, each store's value a pure function of what the body loaded.
-/
import proofs.«109880_j20693152432262_2_alg».proof.Proof.K2Base

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, fun xi4 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg2

end
-- ==== Proof.K2RunB.lean ====
/-
  Region 2: the kernel body run whole in one of its three control cases (case B), on whole staging memrefs holding
  the point's input blocks. The run is symbolic: it leaves each buffer the body stores into with the list of those
  stores, each store's value a pure function of what the body loaded.
-/
import proofs.«109880_j20693152432262_2_alg».proof.Proof.K2Base

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, fun xi4 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Reg2

end
-- ==== Proof.K2RunC.lean ====
/-
  Region 2: the kernel body run whole in one of its three control cases (case C), on whole staging memrefs holding
  the point's input blocks. The run is symbolic: it leaves each buffer the body stores into with the list of those
  stores, each store's value a pure function of what the body loaded.
-/
import proofs.«109880_j20693152432262_2_alg».proof.Proof.K2Base

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, ?_, fun E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Reg2

end
-- ==== Proof.K2Frame.lean ====
/-
  Region 2 of the network (layer 3): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.K2RunA
import proofs.«109880_j20693152432262_2_alg».proof.Proof.K2RunB
import proofs.«109880_j20693152432262_2_alg».proof.Proof.K2RunC

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg2.N) (h0 : t.val % 8 = 0) : ¬condLast (grid2.coords t) := fun h => by
  have := (hcondLast t).mp h; omega

/-- The first-block run at point `t`, on the point's staging memrefs and input blocks. -/
def runA (c : Dev nD) (t : Fin cfg2.N) (h0 : t.val % 8 = 0) :=
  kernelRunA (F := F) c (grid2.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg2.N) (h0 : ¬t.val % 8 = 0) (h1 : ¬t.val % 8 = 7) (xs : Vec F S2048x1024 .f32) :=
  kernelRunB (F := F) c (grid2.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg2.N) (h0 : ¬t.val % 8 = 0) (h1 : t.val % 8 = 7) (xs : Vec F S2048x1024 .f32) :=
  kernelRunC (F := F) c (grid2.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg2.N) (h0 : t.val % 8 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg2.N) (h0 : t.val % 8 = 0) : Vec F S2048x1024 .f32 :=
  VS.read (Elt F) (VS.writes (Elt F) VS.junk (runA V c t h0).1)

theorem scoverB (c : Dev nD) (t : Fin cfg2.N) (h0 : ¬t.val % 8 = 0) (h1 : ¬t.val % 8 = 7) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg2.N) (h0 : ¬t.val % 8 = 0) (h1 : ¬t.val % 8 = 7) (xs : Vec F S2048x1024 .f32) : Vec F S2048x1024 .f32 :=
  VS.read (Elt F) (VS.writes (Elt F) VS.junk (runB V c t h0 h1 xs).1)

theorem coverC (c : Dev nD) (t : Fin cfg2.N) (h0 : ¬t.val % 8 = 0) (h1 : t.val % 8 = 7) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg2.N) (h0 : ¬t.val % 8 = 0) (h1 : t.val % 8 = 7) (xs : Vec F S2048x1024 .f32) : Vec F S2048x1024 .f32 :=
  VO.read (Elt F) (VO.writes (Elt F) VO.junk (runC V c t h0 h1 xs).1)
theorem scoverC (c : Dev nD) (t : Fin cfg2.N) (h0 : ¬t.val % 8 = 0) (h1 : t.val % 8 = 7) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg2.N) (h0 : ¬t.val % 8 = 0) (h1 : t.val % 8 = 7) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .f32 := VO.read (Elt F) VO.junk

/-- One point: (output buffer, accumulator) after the body at `t`, the accumulator found at `prev`. -/
def stepAt (c : Dev nD) (t : Fin cfg2.N) (prev : Vec F S2048x1024 .f32) : Vec F S2048x1024 .f32 × Vec F S2048x1024 .f32 :=
  if h0 : t.val % 8 = 0 then (junkO, soutA V c t h0)
  else if h1 : t.val % 8 = 7 then (outC V c t h0 h1 prev, soutC V c t h0 h1 prev)
  else (junkO, soutB V c t h0 h1 prev)

/-- All points in order, each handed the accumulator the one before left. -/
def outsAt (c : Dev nD) : (n : ℕ) → n < cfg2.N → Vec F S2048x1024 .f32 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg2.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg2.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg2.N) (prev : Vec F S2048x1024 .f32) (h0 : t.val % 8 = 0) :
    stepAt V c t prev = (junkO, soutA V c t h0) := dif_pos h0
theorem stepAt_B (c : Dev nD) (t : Fin cfg2.N) (prev : Vec F S2048x1024 .f32) (h0 : ¬t.val % 8 = 0) (h1 : ¬t.val % 8 = 7) :
    stepAt V c t prev = (junkO, soutB V c t h0 h1 prev) := (dif_neg h0).trans (dif_neg h1)
theorem stepAt_C (c : Dev nD) (t : Fin cfg2.N) (prev : Vec F S2048x1024 .f32) (h0 : ¬t.val % 8 = 0) (h1 : t.val % 8 = 7) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Rest c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 8`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg2.N = 128 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 8 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 128 := N_2; omega)

end Frame

end Cert.Kernel.Reg2

end
-- ==== Proof.KWhole.lean ====
/-
  The whole program: three host stretches and three kernel regions in turn.

  The contents of the core's unscoped buffers are named at every boundary: `W0` at launch, `W1` after the first host
  stretch, `W2` after region 0, and so on to `W6` at the return. A host stretch maps a boundary to the next by applying its
  operations; a region replaces its arrays by what its pipeline leaves (`arrAt` at the last point) and touches nothing
  else. The one run theorem says that every weakly fair execution terminates with every unscoped buffer at `W6`; that
  the arguments end unchanged, and what the result buffer holds, are then facts about `W6`.
-/
import proofs.«109880_j20693152432262_2_alg».proof.Proof.K0Frame
import proofs.«109880_j20693152432262_2_alg».proof.Proof.K1Frame
import proofs.«109880_j20693152432262_2_alg».proof.Proof.K2Frame
import proofs.«109880_j20693152432262_2_alg».proof.Proof.Gen.Kernel.Regions
import Idealize.ShloMosaic.Lib.Pipeline.Frame
import Idealize.ShloMosaic.Lib.Pipeline.Regions
import Idealize.ShloMosaic.Lib.Pipeline.FrameSuffix
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)

/-- Region 0's entry: the host operations before it applied to the previous boundary. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- Region 0's exit: its arrays at what the pipeline leaves (inputs as entered, the output with every write-back
    folded in), every other buffer as entered. -/
def W2 (c : Dev nD) : Valuation τ sig (Elt F) :=
  Pipeline.withArrays spec0 c (W1 m c) fun w => (Reg0.dat (U1 m) c).arrAt w cfg0.N
theorem W2_arr (c : Dev nD) (w : Fin cfg0.W) :
    W2 m c (Proc.devRef .tc (Pipeline.arrRef spec0 w)) = (Reg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Reg0.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- Region 1's entry: the host operations before it applied to the previous boundary. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b

/-- Region 1's exit: its arrays at what the pipeline leaves (inputs as entered, the output with every write-back
    folded in), every other buffer as entered. -/
def W4 (c : Dev nD) : Valuation τ sig (Elt F) :=
  Pipeline.withArrays spec1 c (W3 m c) fun w => (Reg1.dat (U3 m) c).arrAt w cfg1.N
theorem W4_arr (c : Dev nD) (w : Fin cfg1.W) :
    W4 m c (Proc.devRef .tc (Pipeline.arrRef spec1 w)) = (Reg1.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (Reg1.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- Region 2's entry: the host operations before it applied to the previous boundary. -/
abbrev W5 (c : Dev nD) : Valuation τ sig (Elt F) := StableHlo.after hostOps2 (W4 m c)
abbrev U5 : (c : Dev nD) → (b : Ref sig .tc) → Buf (Elt F) ((c : Thread nD τ).loc b) := fun c b => W5 m c b

/-- Region 2's exit: its arrays at what the pipeline leaves (inputs as entered, the output with every write-back
    folded in), every other buffer as entered. -/
def W6 (c : Dev nD) : Valuation τ sig (Elt F) :=
  Pipeline.withArrays spec2 c (W5 m c) fun w => (Reg2.dat (U5 m) c).arrAt w cfg2.N
theorem W6_arr (c : Dev nD) (w : Fin cfg2.W) :
    W6 m c (Proc.devRef .tc (Pipeline.arrRef spec2 w)) = (Reg2.dat (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (Reg2.dat (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (U1 m) c
  | ⟨1, _⟩ => fun c => Reg1.dat (U3 m) c
  | ⟨2, _⟩ => fun c => Reg2.dat (U5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at `W1`, left with them at `W2`. Its arrays are
    split out of the unscoped buffers and put back at the exit contents; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (pdats m 0 c).Φ (Fin.last _) ⊢ (iprop(Pipeline.scopedRest (Ix := Unit) (Name := ℕ) (U := UR sig nD τ) (Lvl := ℕ) (Val := Elt F) spec0 c ∗ ∃ r, prngReg c r) : sProp 𝕄) :=
      Reg0.hout (U1 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers and put back at the exit contents; the generator register goes into the region
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (pdats m 1 c).Φ (Fin.last _) ⊢ (iprop(Pipeline.scopedRest (Ix := Unit) (Name := ℕ) (U := UR sig nD τ) (Lvl := ℕ) (Val := Elt F) spec1 c ∗ ∃ r, prngReg c r) : sProp 𝕄) :=
      Reg1.hout (U3 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays are
    split out of the unscoped buffers and put back at the exit contents; the generator register goes into the region
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have hback : (pdats m 2 c).Φ (Fin.last _) ⊢ (iprop(Pipeline.scopedRest (Ix := Unit) (Name := ℕ) (U := UR sig nD τ) (Lvl := ℕ) (Val := Elt F) spec2 c ∗ ∃ r, prngReg c r) : sProp 𝕄) :=
      Reg2.hout (U5 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- Every weakly fair execution of the program from memory `m` with zero counters terminates, nothing faulting, and the
    final memory holds every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## What `W6` holds at the arguments and at the result -/

/-- A buffer that no host stretch writes and that is no array of any region ends as launched. -/
theorem W6_kept (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m c (Proc.devRef .tc b) = m ((c : Thread nD τ).loc b) :=
  (W6_of_ne m c b a2).trans <| (StableHlo.after_of_writes_sub hostOps2 _ hostOps2_writes h2).trans <|
    (W4_of_ne m c b a1).trans <| (StableHlo.after_of_writes_sub hostOps1 _ hostOps1_writes h1).trans <|
    (W2_of_ne m c b a0).trans <| (StableHlo.after_of_writes_sub hostOps0 _ hostOps0_writes h0).trans rfl

/-- The same at region 0's exit, -/
theorem W2_kept (c : Dev nD) (b : Ref sig .tc) (h0 : b ∉ hostOps0_W) (a0 : ∀ w, Pipeline.arrRef spec0 w ≠ b) :
    W2 m c (Proc.devRef .tc b) = m ((c : Thread nD τ).loc b) :=
  (W2_of_ne m c b a0).trans <| (StableHlo.after_of_writes_sub hostOps0 _ hostOps0_writes h0).trans rfl
/-- and at region 1's. -/
theorem W4_kept (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    W4 m c (Proc.devRef .tc b) = m ((c : Thread nD τ).loc b) :=
  (W4_of_ne m c b a1).trans <| (StableHlo.after_of_writes_sub hostOps1 _ hostOps1_writes h1).trans <| W2_kept m c b h0 a0

/-- The result buffer ends at what region 2's pipeline leaves in its output array. -/
theorem W6_result (c : Dev nD) : W6 m c (Proc.devRef .tc main_v0) = (Reg2.dat (U5 m) c).arrAt 4 cfg2.N :=
  W6_arr m c 4

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide))⟩)
    (run_all m ρ)

/-- The run with the result named: the result buffer ends at `W6`'s contents there, and every argument as launched. -/
theorem run_result : θ_run defs (onTc (τ := τ) (main (F := F))) ⟨m, fun _ => 0, ρ⟩ (fun r => ∀ c : Dev nD,
      r.2.mem ((c.tc : Thread nD τ).loc main_v0) = W6 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v0 (by decide)),
     (h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide))⟩)
    (run_all m ρ)

end Cert.Kernel.Whole

end
-- ==== Proof.KI0Base.lean ====
/-
  Region 0 of the network (layer 1): what the three runs of its kernel body are stated over.

  The grid is (row block, column block, reduction block) in row-major order, so the reduction block of point `t` is
  `t mod 4`. The body zeroes its accumulator on the first reduction block, adds one block product on every block, and on
  the last one (`t mod 4 = 3`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.KernelIdeal.Launch
import proofs.«109880_j20693152432262_2_alg».proof.Proof.Gen.KernelIdeal.Skeleton
import proofs.«109880_j20693152432262_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid0.Coords) : Prop :=
  (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last reduction block": the body's second `if`. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are live -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
/-- Off the last reduction block the output window is idle, -/
theorem idle_4 : ∀ t : Fin cfg0.N, ¬condLast (grid0.coords t) → cfg0.idle 4 (grid0.coords t) = true := by decide +kernel
/-- and is not written back there; -/
theorem noFlush_4 : ∀ t : Fin cfg0.N, ¬condLast (grid0.coords t) → (cfg0.win 4).flush t = false := by decide +kernel
/-- on it the window is live. -/
theorem live_4 : ∀ t : Fin cfg0.N, condLast (grid0.coords t) → cfg0.idle 4 (grid0.coords t) = false := by decide +kernel

/-! ## The memrefs the body is called with -/

/-- One staging buffer of the output window, through which its contents are stated. -/
abbrev VO : View sig .tc .vmem S2048x1024 .bf16 := (Memref.whole cc0_stg4_0 : Memref sig .tc .vmem S2048x1024 .bf16).view
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S2048x1024 .f32 := Memref.whole cc0_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec0 c [cc0_scratch0]

/-- The region's plain invariant, with the accumulator singled out as a memref owned at some contents. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA
  rw [Pipeline.scopedRest_split_of_list spec0 c [cc0_scratch0] (by decide) (by decide)]
  simp only [bigSepL_singleton, scM, owns_whole]; rfl

end Cert.KernelIdeal.Reg0

end
-- ==== Proof.KI0RunA.lean ====
/-
  Region 0: the kernel body run whole in one of its three control cases (case A), on whole staging memrefs holding
  the point's input blocks. The run is symbolic: it leaves each buffer the body stores into with the list of those
  stores, each store's value a pure function of what the body loaded.
-/
import proofs.«109880_j20693152432262_2_alg».proof.Proof.KI0Base

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg0

end
-- ==== Proof.KI0RunB.lean ====
/-
  Region 0: the kernel body run whole in one of its three control cases (case B), on whole staging memrefs holding
  the point's input blocks. The run is symbolic: it leaves each buffer the body stores into with the list of those
  stores, each store's value a pure function of what the body loaded.
-/
import proofs.«109880_j20693152432262_2_alg».proof.Proof.KI0Base

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, fun xi4 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg0

end
-- ==== Proof.KI0RunC.lean ====
/-
  Region 0: the kernel body run whole in one of its three control cases (case C), on whole staging memrefs holding
  the point's input blocks. The run is symbolic: it leaves each buffer the body stores into with the list of those
  stores, each store's value a pure function of what the body loaded.
-/
import proofs.«109880_j20693152432262_2_alg».proof.Proof.KI0Base

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__mlp_kernel i arg3 harg3 arg4 harg4 arg5 harg5 arg6 harg6 arg7 harg7 arg8 harg8) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Reg0

end
-- ==== Proof.KI0Frame.lean ====
/-
  Region 0 of the network (layer 1): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.KI0RunA
import proofs.«109880_j20693152432262_2_alg».proof.Proof.KI0RunB
import proofs.«109880_j20693152432262_2_alg».proof.Proof.KI0RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg0.N) (h0 : t.val % 4 = 0) : ¬condLast (grid0.coords t) := fun h => by
  have := (hcondLast t).mp h; omega

/-- The first-block run at point `t`, on the point's staging memrefs and input blocks. -/
def runA (c : Dev nD) (t : Fin cfg0.N) (h0 : t.val % 4 = 0) :=
  kernelRunA (F := F) c (grid0.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg0.N) (h0 : ¬t.val % 4 = 0) (h1 : ¬t.val % 4 = 3) (xs : Vec F S2048x1024 .f32) :=
  kernelRunB (F := F) c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg0.N) (h0 : ¬t.val % 4 = 0) (h1 : t.val % 4 = 3) (xs : Vec F S2048x1024 .f32) :=
  kernelRunC (F := F) c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg0.N) (h0 : t.val % 4 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg0.N) (h0 : t.val % 4 = 0) : Vec F S2048x1024 .f32 :=
  VS.read (Elt F) (VS.writes (Elt F) VS.junk (runA V c t h0).1)

theorem scoverB (c : Dev nD) (t : Fin cfg0.N) (h0 : ¬t.val % 4 = 0) (h1 : ¬t.val % 4 = 3) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg0.N) (h0 : ¬t.val % 4 = 0) (h1 : ¬t.val % 4 = 3) (xs : Vec F S2048x1024 .f32) : Vec F S2048x1024 .f32 :=
  VS.read (Elt F) (VS.writes (Elt F) VS.junk (runB V c t h0 h1 xs).1)

theorem coverC (c : Dev nD) (t : Fin cfg0.N) (h0 : ¬t.val % 4 = 0) (h1 : t.val % 4 = 3) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg0.N) (h0 : ¬t.val % 4 = 0) (h1 : t.val % 4 = 3) (xs : Vec F S2048x1024 .f32) : Vec F S2048x1024 .bf16 :=
  VO.read (Elt F) (VO.writes (Elt F) VO.junk (runC V c t h0 h1 xs).1)
theorem scoverC (c : Dev nD) (t : Fin cfg0.N) (h0 : ¬t.val % 4 = 0) (h1 : t.val % 4 = 3) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg0.N) (h0 : ¬t.val % 4 = 0) (h1 : t.val % 4 = 3) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .bf16 := VO.read (Elt F) VO.junk

/-- One point: (output buffer, accumulator) after the body at `t`, the accumulator found at `prev`. -/
def stepAt (c : Dev nD) (t : Fin cfg0.N) (prev : Vec F S2048x1024 .f32) : Vec F S2048x1024 .bf16 × Vec F S2048x1024 .f32 :=
  if h0 : t.val % 4 = 0 then (junkO, soutA V c t h0)
  else if h1 : t.val % 4 = 3 then (outC V c t h0 h1 prev, soutC V c t h0 h1 prev)
  else (junkO, soutB V c t h0 h1 prev)

/-- All points in order, each handed the accumulator the one before left. -/
def outsAt (c : Dev nD) : (n : ℕ) → n < cfg0.N → Vec F S2048x1024 .bf16 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg0.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg0.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg0.N) (prev : Vec F S2048x1024 .f32) (h0 : t.val % 4 = 0) :
    stepAt V c t prev = (junkO, soutA V c t h0) := dif_pos h0
theorem stepAt_B (c : Dev nD) (t : Fin cfg0.N) (prev : Vec F S2048x1024 .f32) (h0 : ¬t.val % 4 = 0) (h1 : ¬t.val % 4 = 3) :
    stepAt V c t prev = (junkO, soutB V c t h0 h1 prev) := (dif_neg h0).trans (dif_neg h1)
theorem stepAt_C (c : Dev nD) (t : Fin cfg0.N) (prev : Vec F S2048x1024 .f32) (h0 : ¬t.val % 4 = 0) (h1 : t.val % 4 = 3) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Rest c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 4`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 4 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 128 := N_0; omega)

end Frame

end Cert.KernelIdeal.Reg0

end
-- ==== Proof.KI1Base.lean ====
/-
  Region 1 of the network (layer 2): what the three runs of its kernel body are stated over.

  The grid is (row block, column block, reduction block) in row-major order, so the reduction block of point `t` is
  `t mod 8`. The body zeroes its accumulator on the first reduction block, adds one block product on every block, and on
  the last one (`t mod 8 = 7`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.KernelIdeal.Launch
import proofs.«109880_j20693152432262_2_alg».proof.Proof.Gen.KernelIdeal.Skeleton
import proofs.«109880_j20693152432262_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid1.Coords) : Prop :=
  (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- "This is the last reduction block": the body's second `if`. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are live -/

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
/-- Off the last reduction block the output window is idle, -/
theorem idle_4 : ∀ t : Fin cfg1.N, ¬condLast (grid1.coords t) → cfg1.idle 4 (grid1.coords t) = true := by decide +kernel
/-- and is not written back there; -/
theorem noFlush_4 : ∀ t : Fin cfg1.N, ¬condLast (grid1.coords t) → (cfg1.win 4).flush t = false := by decide +kernel
/-- on it the window is live. -/
theorem live_4 : ∀ t : Fin cfg1.N, condLast (grid1.coords t) → cfg1.idle 4 (grid1.coords t) = false := by decide +kernel

/-! ## The memrefs the body is called with -/

/-- One staging buffer of the output window, through which its contents are stated. -/
abbrev VO : View sig .tc .vmem S2048x1024 .bf16 := (Memref.whole cc1_stg4_0 : Memref sig .tc .vmem S2048x1024 .bf16).view
abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x1024 .bf16 := win1_4.stage (cfg1.slots t 4)
abbrev hs4 (t : Fin cfg1.N) : (ms4 t).IsWhole := hstage1_4 ((cfg1.slots t 4).cast nbuf1_4)
/-- The accumulator: a whole scoped buffer of the kernel's own. -/
abbrev scM : Memref sig .tc .vmem S2048x1024 .f32 := Memref.whole cc1_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec1 c [cc1_scratch0]

/-- The region's plain invariant, with the accumulator singled out as a memref owned at some contents. -/
theorem PhiA_eq (c : Dev nD) :
    (Pipeline.ΦA spec1 c : sProp 𝕄)
      = iprop(iprop((∃ d, owns (c : Thread nD τ) scM fullShare d) ∗ Rest c) ∗ (∃ r, prngReg c r)) := by
  unfold Pipeline.ΦA
  rw [Pipeline.scopedRest_split_of_list spec1 c [cc1_scratch0] (by decide) (by decide)]
  simp only [bigSepL_singleton, scM, owns_whole]; rfl

end Cert.KernelIdeal.Reg1

end
-- ==== Proof.KI1RunA.lean ====
/-
  Region 1: the kernel body run whole in one of its three control cases (case A), on whole staging memrefs holding
  the point's input blocks. The run is symbolic: it leaves each buffer the body stores into with the list of those
  stores, each store's value a pure function of what the body loaded.
-/
import proofs.«109880_j20693152432262_2_alg».proof.Proof.KI1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, fun xi4 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg1

end
-- ==== Proof.KI1RunB.lean ====
/-
  Region 1: the kernel body run whole in one of its three control cases (case B), on whole staging memrefs holding
  the point's input blocks. The run is symbolic: it leaves each buffer the body stores into with the list of those
  stores, each store's value a pure function of what the body loaded.
-/
import proofs.«109880_j20693152432262_2_alg».proof.Proof.KI1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, fun xi4 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg1

end
-- ==== Proof.KI1RunC.lean ====
/-
  Region 1: the kernel body run whole in one of its three control cases (case C), on whole staging memrefs holding
  the point's input blocks. The run is symbolic: it leaves each buffer the body stores into with the list of those
  stores, each store's value a pure function of what the body loaded.
-/
import proofs.«109880_j20693152432262_2_alg».proof.Proof.KI1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__mlp_kernel i arg3 harg3 arg4 harg4 arg5 harg5 arg6 harg6 arg7 harg7 arg8 harg8) K } := by
  refine ⟨?_, ?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Reg1

end
-- ==== Proof.KI1Frame.lean ====
/-
  Region 1 of the network (layer 2): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.KI1RunA
import proofs.«109880_j20693152432262_2_alg».proof.Proof.KI1RunB
import proofs.«109880_j20693152432262_2_alg».proof.Proof.KI1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg1.N) (h0 : t.val % 8 = 0) : ¬condLast (grid1.coords t) := fun h => by
  have := (hcondLast t).mp h; omega

/-- The first-block run at point `t`, on the point's staging memrefs and input blocks. -/
def runA (c : Dev nD) (t : Fin cfg1.N) (h0 : t.val % 8 = 0) :=
  kernelRunA (F := F) c (grid1.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg1.N) (h0 : ¬t.val % 8 = 0) (h1 : ¬t.val % 8 = 7) (xs : Vec F S2048x1024 .f32) :=
  kernelRunB (F := F) c (grid1.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg1.N) (h0 : ¬t.val % 8 = 0) (h1 : t.val % 8 = 7) (xs : Vec F S2048x1024 .f32) :=
  kernelRunC (F := F) c (grid1.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg1.N) (h0 : t.val % 8 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg1.N) (h0 : t.val % 8 = 0) : Vec F S2048x1024 .f32 :=
  VS.read (Elt F) (VS.writes (Elt F) VS.junk (runA V c t h0).1)

theorem scoverB (c : Dev nD) (t : Fin cfg1.N) (h0 : ¬t.val % 8 = 0) (h1 : ¬t.val % 8 = 7) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg1.N) (h0 : ¬t.val % 8 = 0) (h1 : ¬t.val % 8 = 7) (xs : Vec F S2048x1024 .f32) : Vec F S2048x1024 .f32 :=
  VS.read (Elt F) (VS.writes (Elt F) VS.junk (runB V c t h0 h1 xs).1)

theorem coverC (c : Dev nD) (t : Fin cfg1.N) (h0 : ¬t.val % 8 = 0) (h1 : t.val % 8 = 7) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg1.N) (h0 : ¬t.val % 8 = 0) (h1 : t.val % 8 = 7) (xs : Vec F S2048x1024 .f32) : Vec F S2048x1024 .bf16 :=
  VO.read (Elt F) (VO.writes (Elt F) VO.junk (runC V c t h0 h1 xs).1)
theorem scoverC (c : Dev nD) (t : Fin cfg1.N) (h0 : ¬t.val % 8 = 0) (h1 : t.val % 8 = 7) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg1.N) (h0 : ¬t.val % 8 = 0) (h1 : t.val % 8 = 7) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .bf16 := VO.read (Elt F) VO.junk

/-- One point: (output buffer, accumulator) after the body at `t`, the accumulator found at `prev`. -/
def stepAt (c : Dev nD) (t : Fin cfg1.N) (prev : Vec F S2048x1024 .f32) : Vec F S2048x1024 .bf16 × Vec F S2048x1024 .f32 :=
  if h0 : t.val % 8 = 0 then (junkO, soutA V c t h0)
  else if h1 : t.val % 8 = 7 then (outC V c t h0 h1 prev, soutC V c t h0 h1 prev)
  else (junkO, soutB V c t h0 h1 prev)

/-- All points in order, each handed the accumulator the one before left. -/
def outsAt (c : Dev nD) : (n : ℕ) → n < cfg1.N → Vec F S2048x1024 .bf16 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg1.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg1.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg1.N) (prev : Vec F S2048x1024 .f32) (h0 : t.val % 8 = 0) :
    stepAt V c t prev = (junkO, soutA V c t h0) := dif_pos h0
theorem stepAt_B (c : Dev nD) (t : Fin cfg1.N) (prev : Vec F S2048x1024 .f32) (h0 : ¬t.val % 8 = 0) (h1 : ¬t.val % 8 = 7) :
    stepAt V c t prev = (junkO, soutB V c t h0 h1 prev) := (dif_neg h0).trans (dif_neg h1)
theorem stepAt_C (c : Dev nD) (t : Fin cfg1.N) (prev : Vec F S2048x1024 .f32) (h0 : ¬t.val % 8 = 0) (h1 : t.val % 8 = 7) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ Rest c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 8`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 8 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg1.N) ⊢ Pipeline.ΦA spec1 c :=
  Phi_out V c _ (by rw [Fin.val_last]; have : cfg1.N = 256 := N_1; omega)

end Frame

end Cert.KernelIdeal.Reg1

end
-- ==== Proof.KI2Base.lean ====
/-
  Region 2 of the network (layer 3): what the three runs of its kernel body are stated over.

  The grid is (row block, column block, reduction block) in row-major order, so the reduction block of point `t` is
  `t mod 8`. The body zeroes its accumulator on the first reduction block, adds one block product on every block, and on
  the last one (`t mod 8 = 7`) scales, adds the bias and stores the output block; at every other point the output
  window is idle and is not written back. The accumulator is a scratch buffer of the kernel's own that survives from
  one point to the next; all the other scoped buffers of the core (the other regions' staging buffers and scratches)
  ride along at unknown contents, named `Rest` here.
-/
import proofs.«109880_j20693152432262_2_alg».proof.Proof.Gen.KernelIdeal.Launch
import proofs.«109880_j20693152432262_2_alg».proof.Proof.Gen.KernelIdeal.Skeleton
import proofs.«109880_j20693152432262_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, cut out of its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether or not the pipeline fetched it
    there: where it was not fetched the block index has not moved since the point that did. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, whether or not the pipeline fetched it
    there: where it was not fetched the block index has not moved since the point that did. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, whether or not the pipeline fetched it
    there: where it was not fetched the block index has not moved since the point that did. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, whether or not the pipeline fetched it
    there: where it was not fetched the block index has not moved since the point that did. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditions of the body, decided over the grid -/

/-- "This is the first reduction block": the body's first `if`. -/
abbrev condFirst (i : grid2.Coords) : Prop :=
  (Scalar.cmpi .ne (Scalar.extui (Scalar.cmpi .eq (BitVec.ofNat 32 (i 2).val) 0#32)) 0#32) = 1#1
theorem hcondFirst : ∀ t : Fin cfg2.N, condFirst (grid2.coords t) ↔ t.val % 8 = 0 :=
  (by decide +kernel : ∀ t : Fin grid2.N, condFirst (grid2.coords t) ↔ t.val % 8 = 0)

/-- "This is the last reduction block": the body's second `if`. -/
abbrev condLast (i : grid2.Coords) : Prop := k2_cond2 i = 1#1
theorem hcondLast : ∀ t : Fin cfg2.N, condLast (grid2.coords t) ↔ t.val % 8 = 7 :=
  (by decide +kernel : ∀ t : Fin grid2.N, condLast (grid2.coords t) ↔ t.val % 8 = 7)

/-! ## Where the windows are live -/

theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
theorem live_3 : ∀ t : Fin cfg2.N, cfg2.idle 3 (grid2.coords t) = false := fun _ => rfl
/-- Off the last reduction block the output window is idle, -/
theorem idle_4 : ∀ t : Fin cfg2.N, ¬condLast (grid2.coords t) → cfg2.idle 4 (grid2.coords t) = true := by decide +kernel
/-- and is not written back there; -/
theorem noFlush_4 : ∀ t : Fin cfg2.N, ¬condLast (grid2.coords t) → (cfg2.win 4).flush t = false := by decide +kernel
/-- on it the window is live. -/
theorem live_4 : ∀ t : Fin cfg2.N, condLast (grid2.coords t) → cfg2.idle 4 (grid2.coords t) = false := by decide +kernel

/-! ## The memrefs the body is called with -/

/-- One staging buffer of the output window, through which its contents are stated. -/
abbrev VO : View sig .tc .vmem S2048x1024 .f32 := (Memref.whole cc2_stg4_0 : Memref sig .tc .vmem S2048x1024 .f32).view
abbrev ms0 (t : Fin cfg2.N) : Memref sig .tc .vmem S2048x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x1024 .f32 := win2_4.stage (cfg2.slots t 4)
abbrev hs4 (t : Fin cfg2.N) : (ms4 t).IsWhole := hstage2_4 ((cfg2.slots t 4).cast nbuf2_4)
/-- The accumulator: a whole scoped buffer of the kernel's own. -/
abbrev scM : Memref sig .tc .vmem S2048x1024 .f32 := Memref.whole cc2_scratch0
abbrev VS : View sig .tc .vmem S2048x1024 .f32 := scM.view

/-! ## The scoped buffers that are not the accumulator -/

/-- Every scoped buffer of the core that is neither a staging buffer of this region nor its accumulator, each whole at
    some contents. -/
def Rest (c : Dev nD) : sProp 𝕄 :=
  Pipeline.scopedRestBut (Ix := Unit) (Name := ℕ) (U := UR sig nD τ) (Lvl := ℕ) (Val := Elt F) spec2 c [cc2_scratch0]

/-- The region's plain invariant, with the accumulator singled out as a memref owned at some contents. -/
theorem PhiA_eq (c : Dev nD) :
    (Pipeline.ΦA spec2 c : sProp 𝕄)
      = iprop(iprop((∃ d, owns (c : Thread nD τ) scM fullShare d) ∗ Rest c) ∗ (∃ r, prngReg c r)) := by
  unfold Pipeline.ΦA
  rw [Pipeline.scopedRest_split_of_list spec2 c [cc2_scratch0] (by decide) (by decide)]
  simp only [bigSepL_singleton, scM, owns_whole]; rfl

end Cert.KernelIdeal.Reg2

end
-- ==== Proof.KI2RunA.lean ====
/-
  Region 2: the kernel body run whole in one of its three control cases (case A), on whole staging memrefs holding
  the point's input blocks. The run is symbolic: it leaves each buffer the body stores into with the list of those
  stores, each store's value a pure function of what the body loaded.
-/
import proofs.«109880_j20693152432262_2_alg».proof.Proof.KI2Base

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the FIRST reduction block (and not the last): it zeroes the accumulator, then adds the block product.
    The output buffer is handed back as found. What the accumulator ends with is recorded as the list of the stores into
    it, last first. -/
noncomputable def kernelRunA (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, fun xi4 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg2

end
-- ==== Proof.KI2RunB.lean ====
/-
  Region 2: the kernel body run whole in one of its three control cases (case B), on whole staging memrefs holding
  the point's input blocks. The run is symbolic: it leaves each buffer the body stores into with the list of those
  stores, each store's value a pure function of what the body loaded.
-/
import proofs.«109880_j20693152432262_2_alg».proof.Proof.KI2Base

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on a MIDDLE reduction block: it adds the block product to the accumulator, found at the contents `xs` the
    point before left. The output buffer is handed back as found. -/
noncomputable def kernelRunB (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, fun xi4 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Reg2

end
-- ==== Proof.KI2RunC.lean ====
/-
  Region 2: the kernel body run whole in one of its three control cases (case C), on whole staging memrefs holding
  the point's input blocks. The run is symbolic: it leaves each buffer the body stores into with the list of those
  stores, each store's value a pure function of what the body loaded.
-/
import proofs.«109880_j20693152432262_2_alg».proof.Proof.KI2Base

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on the LAST reduction block: it adds the block product to the accumulator, found at `xs`, then scales it,
    adds the bias and stores the output block (found at any contents). Both buffers' stores are recorded, last first. -/
noncomputable def kernelRunC (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__mlp_kernel i arg3 harg3 arg4 harg4 arg5 harg5 arg6 harg6 arg7 harg7 arg8 harg8) K } := by
  refine ⟨?_, ?_, fun E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Reg2

end
-- ==== Proof.KI2Frame.lean ====
/-
  Region 2 of the network (layer 3): what its buffers hold point by point, and the body obligation.

  After the body at point `t` the accumulator holds `(outsAt t).2`: on a first reduction block the block product added to
  zero, otherwise the block product added to what the point before left. On a last reduction block the output buffer
  holds `(outsAt t).1`, the scaled accumulator plus the bias (rectified in the first two layers); elsewhere that
  component is a placeholder nobody reads, the window being idle and not written back. The region invariant before a
  point is the accumulator at the previous point's contents beside the untouched remainder of the core's scoped buffers.
-/
import proofs.«109880_j20693152432262_2_alg».proof.Proof.KI2RunA
import proofs.«109880_j20693152432262_2_alg».proof.Proof.KI2RunB
import proofs.«109880_j20693152432262_2_alg».proof.Proof.KI2RunC

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-! ## The three runs at a grid point -/

theorem notLast_of_first (t : Fin cfg2.N) (h0 : t.val % 8 = 0) : ¬condLast (grid2.coords t) := fun h => by
  have := (hcondLast t).mp h; omega

/-- The first-block run at point `t`, on the point's staging memrefs and input blocks. -/
def runA (c : Dev nD) (t : Fin cfg2.N) (h0 : t.val % 8 = 0) :=
  kernelRunA (F := F) c (grid2.coords t) (ms0 t) (hs0 t) (ms1 t) (hs1 t) (ms2 t) (hs2 t) (ms3 t) (hs3 t) (ms4 t) (hs4 t) scM (Memref.isWhole_whole _) ((hcondFirst t).mpr h0) (notLast_of_first t h0) (iblk V c 0 t) (iblk V c 1 t) (iblk V c 2 t) (iblk V c 3 t)
/-- The middle-block run at point `t`, the accumulator found at `xs`. -/
def runB (c : Dev nD) (t : Fin cfg2.N) (h0 : ¬t.val % 8 = 0) (h1 : ¬t.val % 8 = 7) (xs : Vec F S2048x1024 .f32) :=
  kernelRunB (F := F) c (grid2.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk V c 0 t) (iblk V c 1 t) (iblk V c 2 t) (iblk V c 3 t) xs
/-- The last-block run at point `t`, the accumulator found at `xs`. -/
def runC (c : Dev nD) (t : Fin cfg2.N) (h0 : ¬t.val % 8 = 0) (h1 : t.val % 8 = 7) (xs : Vec F S2048x1024 .f32) :=
  kernelRunC (F := F) c (grid2.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk V c 0 t) (iblk V c 1 t) (iblk V c 2 t) (iblk V c 3 t) xs

/-! ## What each case leaves: its stores read back -/

theorem scoverA (c : Dev nD) (t : Fin cfg2.N) (h0 : t.val % 8 = 0) (y : S2048x1024.Idx) :
    ∃ pc ∈ (runA V c t h0).1, y ∈ pc.1.set :=
  View.cover_of_tiledL (runA V c t h0).1 S2048x1024.size (by sl_kernel_rfl) y
def soutA (c : Dev nD) (t : Fin cfg2.N) (h0 : t.val % 8 = 0) : Vec F S2048x1024 .f32 :=
  VS.read (Elt F) (VS.writes (Elt F) VS.junk (runA V c t h0).1)

theorem scoverB (c : Dev nD) (t : Fin cfg2.N) (h0 : ¬t.val % 8 = 0) (h1 : ¬t.val % 8 = 7) (xs : Vec F S2048x1024 .f32) (y : S2048x1024.Idx) :
    ∃ pc ∈ (runB V c t h0 h1 xs).1, y ∈ pc.1.set :=
  View.cover_of_tiledL (runB V c t h0 h1 xs).1 S2048x1024.size (by sl_kernel_rfl) y
def soutB (c : Dev nD) (t : Fin cfg2.N) (h0 : ¬t.val % 8 = 0) (h1 : ¬t.val % 8 = 7) (xs : Vec F S2048x1024 .f32) : Vec F S2048x1024 .f32 :=
  VS.read (Elt F) (VS.writes (Elt F) VS.junk (runB V c t h0 h1 xs).1)

theorem coverC (c : Dev nD) (t : Fin cfg2.N) (h0 : ¬t.val % 8 = 0) (h1 : t.val % 8 = 7) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y
def outC (c : Dev nD) (t : Fin cfg2.N) (h0 : ¬t.val % 8 = 0) (h1 : t.val % 8 = 7) (xs : Vec F S2048x1024 .f32) : Vec F S2048x1024 .f32 :=
  VO.read (Elt F) (VO.writes (Elt F) VO.junk (runC V c t h0 h1 xs).1)
theorem scoverC (c : Dev nD) (t : Fin cfg2.N) (h0 : ¬t.val % 8 = 0) (h1 : t.val % 8 = 7) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
def soutC (c : Dev nD) (t : Fin cfg2.N) (h0 : ¬t.val % 8 = 0) (h1 : t.val % 8 = 7) (xs : Vec F S2048x1024 .f32) : Vec F S2048x1024 .f32 :=
  VS.read (Elt F) (VS.writes (Elt F) VS.junk (runC V c t h0 h1 xs).2.1)

/-! ## The accumulation over the grid -/

/-- The output component where the window is idle: nobody reads it. -/
def junkO : Vec F S2048x1024 .f32 := VO.read (Elt F) VO.junk

/-- One point: (output buffer, accumulator) after the body at `t`, the accumulator found at `prev`. -/
def stepAt (c : Dev nD) (t : Fin cfg2.N) (prev : Vec F S2048x1024 .f32) : Vec F S2048x1024 .f32 × Vec F S2048x1024 .f32 :=
  if h0 : t.val % 8 = 0 then (junkO, soutA V c t h0)
  else if h1 : t.val % 8 = 7 then (outC V c t h0 h1 prev, soutC V c t h0 h1 prev)
  else (junkO, soutB V c t h0 h1 prev)

/-- All points in order, each handed the accumulator the one before left. -/
def outsAt (c : Dev nD) : (n : ℕ) → n < cfg2.N → Vec F S2048x1024 .f32 × Vec F S2048x1024 .f32
  | 0, hn => stepAt V c ⟨0, hn⟩ (VS.read (Elt F) VS.junk)
  | n + 1, hn => stepAt V c ⟨n + 1, hn⟩ (outsAt c n (Nat.lt_of_succ_lt hn)).2

theorem outsAt_zero (c : Dev nD) (t : Fin cfg2.N) (hz : t.val = 0) :
    outsAt V c t.val t.isLt = stepAt V c t (VS.read (Elt F) VS.junk) := by
  obtain ⟨n, hn⟩ := t
  cases n with
  | zero => rfl
  | succ n => exact absurd hz (Nat.succ_ne_zero n)

theorem outsAt_pos (c : Dev nD) (t : Fin cfg2.N) (hz : t.val ≠ 0) :
    outsAt V c t.val t.isLt = stepAt V c t (outsAt V c (t.val - 1) (Nat.lt_of_le_of_lt (Nat.sub_le _ _) t.isLt)).2 := by
  obtain ⟨n, hn⟩ := t
  cases n with
  | zero => exact absurd rfl hz
  | succ n => rfl

theorem stepAt_A (c : Dev nD) (t : Fin cfg2.N) (prev : Vec F S2048x1024 .f32) (h0 : t.val % 8 = 0) :
    stepAt V c t prev = (junkO, soutA V c t h0) := dif_pos h0
theorem stepAt_B (c : Dev nD) (t : Fin cfg2.N) (prev : Vec F S2048x1024 .f32) (h0 : ¬t.val % 8 = 0) (h1 : ¬t.val % 8 = 7) :
    stepAt V c t prev = (junkO, soutB V c t h0 h1 prev) := (dif_neg h0).trans (dif_neg h1)
theorem stepAt_C (c : Dev nD) (t : Fin cfg2.N) (prev : Vec F S2048x1024 .f32) (h0 : ¬t.val % 8 = 0) (h1 : t.val % 8 = 7) :
    stepAt V c t prev = (outC V c t h0 h1 prev, soutC V c t h0 h1 prev) := (dif_neg h0).trans (dif_pos h1)

/-! ## The region invariant -/

/-- Before the first point: the region's plain invariant. Before any later point: the accumulator at what the point
    before left, the remainder of the scoped buffers, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Rest c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Rest c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The region's proof data on core `c`: the arrays as the region finds them; after the body each input buffer at its
    block and the output buffer at `outsAt`'s first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. Which of the three runs applies is read off `t mod 8`; the invariant hands the run the
    accumulator (at the previous point's contents, or at anything before the first point) and takes it back at this
    point's contents; the input buffers hold their blocks; the output buffer is handed back untouched except on a
    last reduction block, where it is left at the block the run stored. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg2.N = 128 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  by_cases h0 : t.val % 8 = 0
  · rw [Dat.leavesExact_idle (dat V c) 4 t (idle_4 t (notLast_of_first t h0)) (noFlush_4 t (notLast_of_first t h0))]
    by_cases hz : t.val = 0
    · rw [outsAt_zero V c t hz, stepAt_A V c t _ h0]
      unfold soutA; dsimp only
      rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ h0]
      unfold soutA; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runA V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA V c t h0)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat V c).leavesExact 4 t = owns (c : Thread nD τ) (ms4 t) fullShare ((dat V c).after 4 t) from by
        unfold Dat.leavesExact; rw [live_4 t ((hcondLast t).mpr h1)], after_4]
      rw [outsAt_pos V c t hz, stepAt_C V c t _ h0 h1]
      unfold outC soutC; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC V c t h0 h1 _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t h0 h1 _)
    · rw [Dat.leavesExact_idle (dat V c) 4 t (idle_4 t (fun h => h1 ((hcondLast t).mp h))) (noFlush_4 t (fun h => h1 ((hcondLast t).mp h)))]
      rw [outsAt_pos V c t hz, stepAt_B V c t _ h0 h1]
      unfold soutB; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB V c t h0 h1 _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]

/-- After any point but the first the invariant gives the plain one back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg2.N) ⊢ Pipeline.ΦA spec2 c :=
  Phi_out V c _ (by rw [Fin.val_last]; have : cfg2.N = 128 := N_2; omega)

end Frame

end Cert.KernelIdeal.Reg2

end
-- ==== Proof.KIWhole.lean ====
/-
  The whole program: three host stretches and three kernel regions in turn.

  The contents of the core's unscoped buffers are named at every boundary: `W0` at launch, `W1` after the first host
  stretch, `W2` after region 0, and so on to `W6` at the return. A host stretch maps a boundary to the next by applying its
  operations; a region replaces its arrays by what its pipeline leaves (`arrAt` at the last point) and touches nothing
  else. The one run theorem says that every weakly fair execution terminates with every unscoped buffer at `W6`; that
  the arguments end unchanged, and what the result buffer holds, are then facts about `W6`.
-/
import proofs.«109880_j20693152432262_2_alg».proof.Proof.KI0Frame
import proofs.«109880_j20693152432262_2_alg».proof.Proof.KI1Frame
import proofs.«109880_j20693152432262_2_alg».proof.Proof.KI2Frame
import proofs.«109880_j20693152432262_2_alg».proof.Proof.Gen.KernelIdeal.Regions
import Idealize.ShloMosaic.Lib.Pipeline.Frame
import Idealize.ShloMosaic.Lib.Pipeline.Regions
import Idealize.ShloMosaic.Lib.Pipeline.FrameSuffix
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)

/-- Region 0's entry: the host operations before it applied to the previous boundary. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b

/-- Region 0's exit: its arrays at what the pipeline leaves (inputs as entered, the output with every write-back
    folded in), every other buffer as entered. -/
def W2 (c : Dev nD) : Valuation τ sig (Elt F) :=
  Pipeline.withArrays spec0 c (W1 m c) fun w => (Reg0.dat (U1 m) c).arrAt w cfg0.N
theorem W2_arr (c : Dev nD) (w : Fin cfg0.W) :
    W2 m c (Proc.devRef .tc (Pipeline.arrRef spec0 w)) = (Reg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Reg0.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- Region 1's entry: the host operations before it applied to the previous boundary. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b

/-- Region 1's exit: its arrays at what the pipeline leaves (inputs as entered, the output with every write-back
    folded in), every other buffer as entered. -/
def W4 (c : Dev nD) : Valuation τ sig (Elt F) :=
  Pipeline.withArrays spec1 c (W3 m c) fun w => (Reg1.dat (U3 m) c).arrAt w cfg1.N
theorem W4_arr (c : Dev nD) (w : Fin cfg1.W) :
    W4 m c (Proc.devRef .tc (Pipeline.arrRef spec1 w)) = (Reg1.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (Reg1.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- Region 2's entry: the host operations before it applied to the previous boundary. -/
abbrev W5 (c : Dev nD) : Valuation τ sig (Elt F) := StableHlo.after hostOps2 (W4 m c)
abbrev U5 : (c : Dev nD) → (b : Ref sig .tc) → Buf (Elt F) ((c : Thread nD τ).loc b) := fun c b => W5 m c b

/-- Region 2's exit: its arrays at what the pipeline leaves (inputs as entered, the output with every write-back
    folded in), every other buffer as entered. -/
def W6 (c : Dev nD) : Valuation τ sig (Elt F) :=
  Pipeline.withArrays spec2 c (W5 m c) fun w => (Reg2.dat (U5 m) c).arrAt w cfg2.N
theorem W6_arr (c : Dev nD) (w : Fin cfg2.W) :
    W6 m c (Proc.devRef .tc (Pipeline.arrRef spec2 w)) = (Reg2.dat (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (Reg2.dat (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (U1 m) c
  | ⟨1, _⟩ => fun c => Reg1.dat (U3 m) c
  | ⟨2, _⟩ => fun c => Reg2.dat (U5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at `W1`, left with them at `W2`. Its arrays are
    split out of the unscoped buffers and put back at the exit contents; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hback : (pdats m 0 c).Φ (Fin.last _) ⊢ (iprop(Pipeline.scopedRest (Ix := Unit) (Name := ℕ) (U := UR sig nD τ) (Lvl := ℕ) (Val := Elt F) spec0 c ∗ ∃ r, prngReg c r) : sProp 𝕄) :=
      Reg0.hout (U1 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers and put back at the exit contents; the generator register goes into the region
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (pdats m 1 c).Φ (Fin.last _) ⊢ (iprop(Pipeline.scopedRest (Ix := Unit) (Name := ℕ) (U := UR sig nD τ) (Lvl := ℕ) (Val := Elt F) spec1 c ∗ ∃ r, prngReg c r) : sProp 𝕄) :=
      Reg1.hout (U3 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its arrays are
    split out of the unscoped buffers and put back at the exit contents; the generator register goes into the region
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have hback : (pdats m 2 c).Φ (Fin.last _) ⊢ (iprop(Pipeline.scopedRest (Ix := Unit) (Name := ℕ) (U := UR sig nD τ) (Lvl := ℕ) (Val := Elt F) spec2 c ∗ ∃ r, prngReg c r) : sProp 𝕄) :=
      Reg2.hout (U5 m) c
    iintro HΦ
    ihave H := hback $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- Every weakly fair execution of the program from memory `m` with zero counters terminates, nothing faulting, and the
    final memory holds every unscoped buffer of every core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## What `W6` holds at the arguments and at the result -/

/-- A buffer that no host stretch writes and that is no array of any region ends as launched. -/
theorem W6_kept (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m c (Proc.devRef .tc b) = m ((c : Thread nD τ).loc b) :=
  (W6_of_ne m c b a2).trans <| (StableHlo.after_of_writes_sub hostOps2 _ hostOps2_writes h2).trans <|
    (W4_of_ne m c b a1).trans <| (StableHlo.after_of_writes_sub hostOps1 _ hostOps1_writes h1).trans <|
    (W2_of_ne m c b a0).trans <| (StableHlo.after_of_writes_sub hostOps0 _ hostOps0_writes h0).trans rfl

/-- The same at region 0's exit, -/
theorem W2_kept (c : Dev nD) (b : Ref sig .tc) (h0 : b ∉ hostOps0_W) (a0 : ∀ w, Pipeline.arrRef spec0 w ≠ b) :
    W2 m c (Proc.devRef .tc b) = m ((c : Thread nD τ).loc b) :=
  (W2_of_ne m c b a0).trans <| (StableHlo.after_of_writes_sub hostOps0 _ hostOps0_writes h0).trans rfl
/-- and at region 1's. -/
theorem W4_kept (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    W4 m c (Proc.devRef .tc b) = m ((c : Thread nD τ).loc b) :=
  (W4_of_ne m c b a1).trans <| (StableHlo.after_of_writes_sub hostOps1 _ hostOps1_writes h1).trans <| W2_kept m c b h0 a0

/-- The result buffer ends at what region 2's pipeline leaves in its output array. -/
theorem W6_result (c : Dev nD) : W6 m c (Proc.devRef .tc main_v0) = (Reg2.dat (U5 m) c).arrAt 4 cfg2.N :=
  W6_arr m c 4

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide))⟩)
    (run_all m ρ)

/-- The run with the result named: the result buffer ends at `W6`'s contents there, and every argument as launched. -/
theorem run_result : θ_run defs (onTc (τ := τ) (main (F := F))) ⟨m, fun _ => 0, ρ⟩ (fun r => ∀ c : Dev nD,
      r.2.mem ((c.tc : Thread nD τ).loc main_v0) = W6 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v0 (by decide)),
     (h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide))⟩)
    (run_all m ρ)

end Cert.KernelIdeal.Whole

end
-- ==== Proof.KTerms.lean ====
/-
  The weight-only part of each layer as closed terms of the weight table: the 0/1 mask of the entries whose
  magnitude exceeds three quarters of the mean magnitude, the scale (mean magnitude of the kept entries), and the
  ternary table (sign on the kept entries). One triple per layer, at the layer's table shape, each written with
  exactly the operations, literals and argument order of the program's host operations, so that a buffer's contents
  after those operations is one of these terms applied to the launch contents of the weight argument.
-/
import proofs.«109880_j20693152432262_2_alg».proof.Proof.Gen.KernelIdeal

noncomputable section

namespace Cert.KernelIdeal.Host

open Cert.KernelIdeal Cert.KernelIdeal.Gen Idealize.ShloMosaic

variable {F : FTy → Type} [FloatOps F]

/-! ## Contents carried to a buffer's own type and back -/

/-- A value stored at a buffer's declared type and read back at the value's type is the value: the two transports run
    along one equation of types, there and back. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

/-! ## Layer 1: the 8192 by 4096 table -/

/-- Layer 1's mask: 1 where |w| exceeds three quarters of the mean of |w| over the whole table, 0 elsewhere
    (the mean is the sum of |w| divided by the number of entries, 2^25). -/
def mask1 (w : FVec F S8192x4096 .f32) : FVec F S8192x4096 .f32 :=
  uitofp .f32 (cmpf .ogt (Host.absf w)
    (broadcastInDim S8192x4096 ![] bcast_S_S8192x4096
      (mulf (constant S_ .f32 0x3F400000#32)
        (Host.divf (Host.reduceAdd (Host.absf w) (constant S_ .f32 0x00000000#32) reducesTo_S8192x4096_S_d0_1 h_S_)
          (constant S_ .f32 0x4C000000#32)))))

/-- Layer 1's scale: the sum of |w| over the kept entries divided by their number, the number taken as at least 1. -/
def alpha1 (w : FVec F S8192x4096 .f32) : FVec F S_ .f32 :=
  Host.divf (Host.reduceAdd (mulf (Host.absf w) (mask1 w)) (constant S_ .f32 0x00000000#32) reducesTo_S8192x4096_S_d0_1 h_S_)
    (maximumf (Host.reduceAdd (mask1 w) (constant S_ .f32 0x00000000#32) reducesTo_S8192x4096_S_d0_1 h_S_)
      (constant S_ .f32 0x3F800000#32))

/-- Layer 1's ternary table: the sign of w on the kept entries, 0 elsewhere. -/
def tern1 (w : FVec F S8192x4096 .f32) : FVec F S8192x4096 .f32 :=
  mulf (Host.sign w) (mask1 w)

/-! ## Layer 2: the 8192 by 8192 table -/

/-- Layer 2's mask: 1 where |w| exceeds three quarters of the mean of |w| over the whole table, 0 elsewhere
    (the mean is the sum of |w| divided by the number of entries, 2^26). -/
def mask2 (w : FVec F S8192x8192 .f32) : FVec F S8192x8192 .f32 :=
  uitofp .f32 (cmpf .ogt (Host.absf w)
    (broadcastInDim S8192x8192 ![] bcast_S_S8192x8192
      (mulf (constant S_ .f32 0x3F400000#32)
        (Host.divf (Host.reduceAdd (Host.absf w) (constant S_ .f32 0x00000000#32) reducesTo_S8192x8192_S_d0_1 h_S_)
          (constant S_ .f32 0x4C800000#32)))))

/-- Layer 2's scale: the sum of |w| over the kept entries divided by their number, the number taken as at least 1. -/
def alpha2 (w : FVec F S8192x8192 .f32) : FVec F S_ .f32 :=
  Host.divf (Host.reduceAdd (mulf (Host.absf w) (mask2 w)) (constant S_ .f32 0x00000000#32) reducesTo_S8192x8192_S_d0_1 h_S_)
    (maximumf (Host.reduceAdd (mask2 w) (constant S_ .f32 0x00000000#32) reducesTo_S8192x8192_S_d0_1 h_S_)
      (constant S_ .f32 0x3F800000#32))

/-- Layer 2's ternary table: the sign of w on the kept entries, 0 elsewhere. -/
def tern2 (w : FVec F S8192x8192 .f32) : FVec F S8192x8192 .f32 :=
  mulf (Host.sign w) (mask2 w)

/-! ## Layer 3: the 4096 by 8192 table -/

/-- Layer 3's mask: 1 where |w| exceeds three quarters of the mean of |w| over the whole table, 0 elsewhere
    (the mean is the sum of |w| divided by the number of entries, 2^25). -/
def mask3 (w : FVec F S4096x8192 .f32) : FVec F S4096x8192 .f32 :=
  uitofp .f32 (cmpf .ogt (Host.absf w)
    (broadcastInDim S4096x8192 ![] bcast_S_S4096x8192
      (mulf (constant S_ .f32 0x3F400000#32)
        (Host.divf (Host.reduceAdd (Host.absf w) (constant S_ .f32 0x00000000#32) reducesTo_S4096x8192_S_d0_1 h_S_)
          (constant S_ .f32 0x4C000000#32)))))

/-- Layer 3's scale: the sum of |w| over the kept entries divided by their number, the number taken as at least 1. -/
def alpha3 (w : FVec F S4096x8192 .f32) : FVec F S_ .f32 :=
  Host.divf (Host.reduceAdd (mulf (Host.absf w) (mask3 w)) (constant S_ .f32 0x00000000#32) reducesTo_S4096x8192_S_d0_1 h_S_)
    (maximumf (Host.reduceAdd (mask3 w) (constant S_ .f32 0x00000000#32) reducesTo_S4096x8192_S_d0_1 h_S_)
      (constant S_ .f32 0x3F800000#32))

/-- Layer 3's ternary table: the sign of w on the kept entries, 0 elsewhere. -/
def tern3 (w : FVec F S4096x8192 .f32) : FVec F S4096x8192 .f32 :=
  mulf (Host.sign w) (mask3 w)

end Cert.KernelIdeal.Host

end
-- ==== Proof.Spec.lean ====
/-
  The mathematics both programs are compared against, free of any program text: one ternary-weight layer on the
  extended reals, and the three-layer network made of it.

  A layer takes the activations `x` (N rows of K entries), a weight table `tw` with entries in {-1, 0, 1} laid out
  K by H (already transposed), one scale `a` and a bias row `b`; entry (n, h) of its result is
  `(∑ k, x n k * tw k h) * a + b h`, followed by the positive part `max · 0` when the layer has a rectifier.
  The scale multiplies the finished sum: that is the order the accumulating kernel uses. A reference that scales
  every weight first agrees with it wherever all the numbers involved are real.
-/
import Idealize.ShloMosaic.PureOps.Ideal

noncomputable section

namespace Cert.Spec

/-- The affine part of a layer at entry (n, h): the row-by-column sum, scaled once, plus the bias. -/
def affine {N K H : ℕ} (x : Fin N → Fin K → EReal) (tw : Fin K → Fin H → EReal) (a : EReal) (b : Fin H → EReal)
    (n : Fin N) (h : Fin H) : EReal :=
  (∑ k : Fin K, x n k * tw k h) * a + b h

/-- One layer: the affine part, rectified when `relu` is set. -/
def layer (relu : Bool) {N K H : ℕ} (x : Fin N → Fin K → EReal) (tw : Fin K → Fin H → EReal) (a : EReal)
    (b : Fin H → EReal) (n : Fin N) (h : Fin H) : EReal :=
  if relu then max (affine x tw a b n h) 0 else affine x tw a b n h

/-- Three layers, the first two rectified. -/
def mlp {N K1 H1 H2 H3 : ℕ} (x : Fin N → Fin K1 → EReal)
    (tw1 : Fin K1 → Fin H1 → EReal) (a1 : EReal) (b1 : Fin H1 → EReal)
    (tw2 : Fin H1 → Fin H2 → EReal) (a2 : EReal) (b2 : Fin H2 → EReal)
    (tw3 : Fin H2 → Fin H3 → EReal) (a3 : EReal) (b3 : Fin H3 → EReal) : Fin N → Fin H3 → EReal :=
  layer false (layer true (layer true x tw1 a1 b1) tw2 a2 b2) tw3 a3 b3

end Cert.Spec

end
-- ==== Proof.KIBridgeChain.lean ====
/-
  The three regions chained: what the program's result buffer holds, given what each region leaves in its output
  array and what each host stretch hands the next region.

  The program alternates host stretches and kernel regions. A region's output array ends holding one layer of the
  specification applied to the four arrays the region is handed: activations, weight table, scale, bias row. A host
  stretch computes a layer's weight table, scale and bias row from the launch contents of the arguments, which no
  stretch and no region overwrites, and leaves the previous region's output array as it found it. So the first
  region's output is layer 1 of the arguments, the second region is handed exactly that array and its output is layer
  2 of it, and the third region's output, the result buffer, is layer 3 of that: the specification's network.
-/
import proofs.«109880_j20693152432262_2_alg».proof.Proof.KIWhole
import proofs.«109880_j20693152432262_2_alg».proof.Proof.KTerms
import proofs.«109880_j20693152432262_2_alg».proof.Proof.Spec
import Idealize.ShloMosaic.Lib.ValueIdx

noncomputable section

namespace Cert.KernelIdeal.Bridge

open Cert.KernelIdeal Cert.KernelIdeal.Gen Cert.KernelIdeal.Whole
open Idealize.ShloMosaic Idealize.ShloMosaic.TcCoe Idealize.SL.Sem Idealize.ShloMosaic.ValueIdx

variable (m : (ℓ : Loc nD τ sig) → Buf (Elt Ideal) ℓ) (c : Dev nD)

/-- The three layers' tables of the kernel's argument arrays. -/
abbrev L1 : Fin 8192 → Fin 8192 → EReal :=
  Cert.Spec.layer true (fun (n : Fin 8192) (k : Fin 4096) => (m ((c : Thread nD τ).loc main_arg0) : S8192x4096.Idx → EReal) (ix2 n k))
    (fun (k : Fin 4096) (h : Fin 8192) => Host.tern1 (F := Ideal) (m ((c : Thread nD τ).loc main_arg1)) (ix2 h k))
    (Host.alpha1 (F := Ideal) (m ((c : Thread nD τ).loc main_arg1)) ix0)
    (fun (h : Fin 8192) => (m ((c : Thread nD τ).loc main_arg2) : S8192.Idx → EReal) (ix1 h))
abbrev L2 : Fin 8192 → Fin 8192 → EReal :=
  Cert.Spec.layer true (L1 m c)
    (fun (k : Fin 8192) (h : Fin 8192) => Host.tern2 (F := Ideal) (m ((c : Thread nD τ).loc main_arg3)) (ix2 h k))
    (Host.alpha2 (F := Ideal) (m ((c : Thread nD τ).loc main_arg3)) ix0)
    (fun (h : Fin 8192) => (m ((c : Thread nD τ).loc main_arg4) : S8192.Idx → EReal) (ix1 h))
abbrev L3 : Fin 8192 → Fin 4096 → EReal :=
  Cert.Spec.layer false (L2 m c)
    (fun (k : Fin 8192) (h : Fin 4096) => Host.tern3 (F := Ideal) (m ((c : Thread nD τ).loc main_arg5)) (ix2 h k))
    (Host.alpha3 (F := Ideal) (m ((c : Thread nD τ).loc main_arg5)) ix0)
    (fun (h : Fin 4096) => (m ((c : Thread nD τ).loc main_arg6) : S4096.Idx → EReal) (ix1 h))

/-- Region 0's output array holds layer 1 of the arguments. -/
theorem out0_of
    (hR : ((Reg0.dat (F := Ideal) (U1 m) c).arrAt 4 cfg0.N : S8192x8192.Idx → EReal) = fun j =>
      Cert.Spec.layer true (fun (n : Fin 8192) (k : Fin 4096) => (U1 m c main_call0_v0 : S8192x4096.Idx → EReal) (ix2 n k))
        (fun (k : Fin 4096) (h : Fin 8192) => (U1 m c main_call0_v17 : S4096x8192.Idx → EReal) (ix2 k h))
        ((U1 m c main_call0_v16 : S1x1.Idx → EReal) (ix2 (0 : Fin 1) (0 : Fin 1)))
        (fun (h : Fin 8192) => (U1 m c main_call0_v18 : S1x8192.Idx → EReal) (ix2 (0 : Fin 1) h)) (j 0) (j 1))
    (hx : ∀ (n : Fin 8192) (k : Fin 4096), (U1 m c main_call0_v0 : S8192x4096.Idx → EReal) (ix2 n k) = (m ((c : Thread nD τ).loc main_arg0) : S8192x4096.Idx → EReal) (ix2 n k))
    (hw : ∀ (k : Fin 4096) (h : Fin 8192), (U1 m c main_call0_v17 : S4096x8192.Idx → EReal) (ix2 k h) = Host.tern1 (F := Ideal) (m ((c : Thread nD τ).loc main_arg1)) (ix2 h k))
    (ha : (U1 m c main_call0_v16 : S1x1.Idx → EReal) (ix2 (0 : Fin 1) (0 : Fin 1)) = Host.alpha1 (F := Ideal) (m ((c : Thread nD τ).loc main_arg1)) ix0)
    (hb : ∀ h : Fin 8192, (U1 m c main_call0_v18 : S1x8192.Idx → EReal) (ix2 (0 : Fin 1) h) = (m ((c : Thread nD τ).loc main_arg2) : S8192.Idx → EReal) (ix1 h)) :
    (W2 m c (Proc.devRef .tc main_call0_v19) : S8192x8192.Idx → EReal) = fun j => L1 m c (j 0) (j 1) := by
  refine (W2_arr m c 4).trans (hR.trans ?_)
  simp only [hx, hw, ha, hb]

/-- Region 1's output array holds layer 2 of the arguments, given that its input array holds layer 1. -/
theorem out1_of
    (hR : ((Reg1.dat (F := Ideal) (U3 m) c).arrAt 4 cfg1.N : S8192x8192.Idx → EReal) = fun j =>
      Cert.Spec.layer true (fun (n : Fin 8192) (k : Fin 8192) => (U3 m c main_call0_v19 : S8192x8192.Idx → EReal) (ix2 n k))
        (fun (k : Fin 8192) (h : Fin 8192) => (U3 m c main_call0_v36 : S8192x8192.Idx → EReal) (ix2 k h))
        ((U3 m c main_call0_v35 : S1x1.Idx → EReal) (ix2 (0 : Fin 1) (0 : Fin 1)))
        (fun (h : Fin 8192) => (U3 m c main_call0_v37 : S1x8192.Idx → EReal) (ix2 (0 : Fin 1) h)) (j 0) (j 1))
    (hx : ∀ (n : Fin 8192) (k : Fin 8192), (U3 m c main_call0_v19 : S8192x8192.Idx → EReal) (ix2 n k) = L1 m c n k)
    (hw : ∀ (k : Fin 8192) (h : Fin 8192), (U3 m c main_call0_v36 : S8192x8192.Idx → EReal) (ix2 k h) = Host.tern2 (F := Ideal) (m ((c : Thread nD τ).loc main_arg3)) (ix2 h k))
    (ha : (U3 m c main_call0_v35 : S1x1.Idx → EReal) (ix2 (0 : Fin 1) (0 : Fin 1)) = Host.alpha2 (F := Ideal) (m ((c : Thread nD τ).loc main_arg3)) ix0)
    (hb : ∀ h : Fin 8192, (U3 m c main_call0_v37 : S1x8192.Idx → EReal) (ix2 (0 : Fin 1) h) = (m ((c : Thread nD τ).loc main_arg4) : S8192.Idx → EReal) (ix1 h)) :
    (W4 m c (Proc.devRef .tc main_call0_v38) : S8192x8192.Idx → EReal) = fun j => L2 m c (j 0) (j 1) := by
  refine (W4_arr m c 4).trans (hR.trans ?_)
  simp only [hx, hw, ha, hb]

/-- Region 2's output array, the result, holds layer 3 of the arguments, given that its input array holds layer 2. -/
theorem out2_of
    (hR : ((Reg2.dat (F := Ideal) (U5 m) c).arrAt 4 cfg2.N : S8192x4096.Idx → EReal) = fun j =>
      Cert.Spec.layer false (fun (n : Fin 8192) (k : Fin 8192) => (U5 m c main_call0_v38 : S8192x8192.Idx → EReal) (ix2 n k))
        (fun (k : Fin 8192) (h : Fin 4096) => (U5 m c main_call0_v55 : S8192x4096.Idx → EReal) (ix2 k h))
        ((U5 m c main_call0_v54 : S1x1.Idx → EReal) (ix2 (0 : Fin 1) (0 : Fin 1)))
        (fun (h : Fin 4096) => (U5 m c main_call0_v56 : S1x4096.Idx → EReal) (ix2 (0 : Fin 1) h)) (j 0) (j 1))
    (hx : ∀ (n : Fin 8192) (k : Fin 8192), (U5 m c main_call0_v38 : S8192x8192.Idx → EReal) (ix2 n k) = L2 m c n k)
    (hw : ∀ (k : Fin 8192) (h : Fin 4096), (U5 m c main_call0_v55 : S8192x4096.Idx → EReal) (ix2 k h) = Host.tern3 (F := Ideal) (m ((c : Thread nD τ).loc main_arg5)) (ix2 h k))
    (ha : (U5 m c main_call0_v54 : S1x1.Idx → EReal) (ix2 (0 : Fin 1) (0 : Fin 1)) = Host.alpha3 (F := Ideal) (m ((c : Thread nD τ).loc main_arg5)) ix0)
    (hb : ∀ h : Fin 4096, (U5 m c main_call0_v56 : S1x4096.Idx → EReal) (ix2 (0 : Fin 1) h) = (m ((c : Thread nD τ).loc main_arg6) : S4096.Idx → EReal) (ix1 h)) :
    (W6 m c (Proc.devRef .tc main_v0) : S8192x4096.Idx → EReal) = fun j => L3 m c (j 0) (j 1) := by
  refine (W6_result m c).trans (hR.trans ?_)
  simp only [hx, hw, ha, hb]

/-- The chain: given each region's output as one layer of what it is handed, and each host stretch's four arrays as
    terms of the launch contents, the result buffer holds the three layers of the arguments. The activations a later
    region is handed are the previous region's output array, which the host stretch between them does not write. -/
theorem value_of
    (hR0 : ((Reg0.dat (F := Ideal) (U1 m) c).arrAt 4 cfg0.N : S8192x8192.Idx → EReal) = fun j =>
      Cert.Spec.layer true (fun (n : Fin 8192) (k : Fin 4096) => (U1 m c main_call0_v0 : S8192x4096.Idx → EReal) (ix2 n k))
        (fun (k : Fin 4096) (h : Fin 8192) => (U1 m c main_call0_v17 : S4096x8192.Idx → EReal) (ix2 k h))
        ((U1 m c main_call0_v16 : S1x1.Idx → EReal) (ix2 (0 : Fin 1) (0 : Fin 1)))
        (fun (h : Fin 8192) => (U1 m c main_call0_v18 : S1x8192.Idx → EReal) (ix2 (0 : Fin 1) h)) (j 0) (j 1))
    (hR1 : ((Reg1.dat (F := Ideal) (U3 m) c).arrAt 4 cfg1.N : S8192x8192.Idx → EReal) = fun j =>
      Cert.Spec.layer true (fun (n : Fin 8192) (k : Fin 8192) => (U3 m c main_call0_v19 : S8192x8192.Idx → EReal) (ix2 n k))
        (fun (k : Fin 8192) (h : Fin 8192) => (U3 m c main_call0_v36 : S8192x8192.Idx → EReal) (ix2 k h))
        ((U3 m c main_call0_v35 : S1x1.Idx → EReal) (ix2 (0 : Fin 1) (0 : Fin 1)))
        (fun (h : Fin 8192) => (U3 m c main_call0_v37 : S1x8192.Idx → EReal) (ix2 (0 : Fin 1) h)) (j 0) (j 1))
    (hR2 : ((Reg2.dat (F := Ideal) (U5 m) c).arrAt 4 cfg2.N : S8192x4096.Idx → EReal) = fun j =>
      Cert.Spec.layer false (fun (n : Fin 8192) (k : Fin 8192) => (U5 m c main_call0_v38 : S8192x8192.Idx → EReal) (ix2 n k))
        (fun (k : Fin 8192) (h : Fin 4096) => (U5 m c main_call0_v55 : S8192x4096.Idx → EReal) (ix2 k h))
        ((U5 m c main_call0_v54 : S1x1.Idx → EReal) (ix2 (0 : Fin 1) (0 : Fin 1)))
        (fun (h : Fin 4096) => (U5 m c main_call0_v56 : S1x4096.Idx → EReal) (ix2 (0 : Fin 1) h)) (j 0) (j 1))
    (h1x : ∀ (n : Fin 8192) (k : Fin 4096), (U1 m c main_call0_v0 : S8192x4096.Idx → EReal) (ix2 n k) = (m ((c : Thread nD τ).loc main_arg0) : S8192x4096.Idx → EReal) (ix2 n k))
    (h1w : ∀ (k : Fin 4096) (h : Fin 8192), (U1 m c main_call0_v17 : S4096x8192.Idx → EReal) (ix2 k h) = Host.tern1 (F := Ideal) (m ((c : Thread nD τ).loc main_arg1)) (ix2 h k))
    (h1a : (U1 m c main_call0_v16 : S1x1.Idx → EReal) (ix2 (0 : Fin 1) (0 : Fin 1)) = Host.alpha1 (F := Ideal) (m ((c : Thread nD τ).loc main_arg1)) ix0)
    (h1b : ∀ h : Fin 8192, (U1 m c main_call0_v18 : S1x8192.Idx → EReal) (ix2 (0 : Fin 1) h) = (m ((c : Thread nD τ).loc main_arg2) : S8192.Idx → EReal) (ix1 h))
    (h2w : ∀ (k : Fin 8192) (h : Fin 8192), (U3 m c main_call0_v36 : S8192x8192.Idx → EReal) (ix2 k h) = Host.tern2 (F := Ideal) (m ((c : Thread nD τ).loc main_arg3)) (ix2 h k))
    (h2a : (U3 m c main_call0_v35 : S1x1.Idx → EReal) (ix2 (0 : Fin 1) (0 : Fin 1)) = Host.alpha2 (F := Ideal) (m ((c : Thread nD τ).loc main_arg3)) ix0)
    (h2b : ∀ h : Fin 8192, (U3 m c main_call0_v37 : S1x8192.Idx → EReal) (ix2 (0 : Fin 1) h) = (m ((c : Thread nD τ).loc main_arg4) : S8192.Idx → EReal) (ix1 h))
    (h3w : ∀ (k : Fin 8192) (h : Fin 4096), (U5 m c main_call0_v55 : S8192x4096.Idx → EReal) (ix2 k h) = Host.tern3 (F := Ideal) (m ((c : Thread nD τ).loc main_arg5)) (ix2 h k))
    (h3a : (U5 m c main_call0_v54 : S1x1.Idx → EReal) (ix2 (0 : Fin 1) (0 : Fin 1)) = Host.alpha3 (F := Ideal) (m ((c : Thread nD τ).loc main_arg5)) ix0)
    (h3b : ∀ h : Fin 4096, (U5 m c main_call0_v56 : S1x4096.Idx → EReal) (ix2 (0 : Fin 1) h) = (m ((c : Thread nD τ).loc main_arg6) : S4096.Idx → EReal) (ix1 h)) :
    (W6 m c (Proc.devRef .tc main_v0) : S8192x4096.Idx → EReal) = fun j => L3 m c (j 0) (j 1) := by
  have o0 := out0_of m c hR0 h1x h1w h1a h1b
  have k19 : (U3 m c main_call0_v19 : S8192x8192.Idx → EReal) = W2 m c (Proc.devRef .tc main_call0_v19) :=
    StableHlo.after_of_writes_sub hostOps1 _ hostOps1_writes (by decide)
  have o1 := out1_of m c hR1 (fun n k => congrFun (k19.trans o0) (ix2 n k)) h2w h2a h2b
  have k38 : (U5 m c main_call0_v38 : S8192x8192.Idx → EReal) = W4 m c (Proc.devRef .tc main_call0_v38) :=
    StableHlo.after_of_writes_sub hostOps2 _ hostOps2_writes (by decide)
  exact out2_of m c hR2 (fun n k => congrFun (k38.trans o1) (ix2 n k)) h3w h3a h3b

/-- The three layers of the arguments, entry by entry, are the specification's network of them. -/
theorem L3_eq_mlp :
    (fun j : S8192x4096.Idx => L3 m c (j 0) (j 1)) = fun j : S8192x4096.Idx =>
      Cert.Spec.mlp (fun (n : Fin 8192) (k : Fin 4096) => (m ((c : Thread nD τ).loc main_arg0) : S8192x4096.Idx → EReal) (ix2 n k))
        (fun (k : Fin 4096) (h : Fin 8192) => Host.tern1 (F := Ideal) (m ((c : Thread nD τ).loc main_arg1)) (ix2 h k))
        (Host.alpha1 (F := Ideal) (m ((c : Thread nD τ).loc main_arg1)) ix0)
        (fun (h : Fin 8192) => (m ((c : Thread nD τ).loc main_arg2) : S8192.Idx → EReal) (ix1 h))
        (fun (k : Fin 8192) (h : Fin 8192) => Host.tern2 (F := Ideal) (m ((c : Thread nD τ).loc main_arg3)) (ix2 h k))
        (Host.alpha2 (F := Ideal) (m ((c : Thread nD τ).loc main_arg3)) ix0)
        (fun (h : Fin 8192) => (m ((c : Thread nD τ).loc main_arg4) : S8192.Idx → EReal) (ix1 h))
        (fun (k : Fin 8192) (h : Fin 4096) => Host.tern3 (F := Ideal) (m ((c : Thread nD τ).loc main_arg5)) (ix2 h k))
        (Host.alpha3 (F := Ideal) (m ((c : Thread nD τ).loc main_arg5)) ix0)
        (fun (h : Fin 4096) => (m ((c : Thread nD τ).loc main_arg6) : S4096.Idx → EReal) (ix1 h)) (j 0) (j 1) := rfl

end Cert.KernelIdeal.Bridge

end
-- ==== Proof.RefTerms.lean ====
/-
  The reference's ternarization of a weight array, as closed terms of the array, at the ideal values.

  For a weight array `w` the reference takes the magnitudes `|w|`, their mean (the sum over the count), the
  threshold three quarters of that mean, the mask of the entries whose magnitude exceeds the threshold (as 0/1),
  the scale (the sum of the kept magnitudes over the larger of their number and one) and the sign of every entry.
  The weight it multiplies by is scale × sign × mask, in that association; the ternary part sign × mask is named
  on its own, since that is what the specification's layer sums against before it scales once. Each term below
  is the program's own chain of operations, in the program's order of operands, for each of the three weight shapes.
-/
import proofs.«109880_j20693152432262_2_alg».proof.Proof.Gen.ReferenceIdeal
import Idealize.ShloMosaic.PureOps.Ideal

noncomputable section

namespace Cert.RefSide

open Cert.ReferenceIdeal Cert.ReferenceIdeal.Gen Idealize.ShloMosaic

/-- Layer 1's 0/1 mask as the reference computes it from the weight array `w`: 1 where `|w|` exceeds
    three quarters of the mean of `|w|`, else 0. -/
def mask1 (w : FVec Ideal S8192x4096 .f32) : FVec Ideal S8192x4096 .f32 :=
  uitofp .f32 (cmpf .ogt (Host.absf w) (broadcastInDim S8192x4096 ![] bcast_S_S8192x4096 (mulf (constant S_ .f32 0x3F400000#32)
    (Host.divf (Host.reduceAdd (Host.absf w) (constant S_ .f32 0x00000000#32) reducesTo_S8192x4096_S_d0_1 h_S_)
      (constant S_ .f32 0x4C000000#32)))))

/-- Layer 1's scale: the sum of the kept magnitudes over the number of kept entries, the divisor at least one. -/
def alpha1 (w : FVec Ideal S8192x4096 .f32) : FVec Ideal S_ .f32 :=
  Host.divf (Host.reduceAdd (mulf (Host.absf w) (mask1 w)) (constant S_ .f32 0x00000000#32) reducesTo_S8192x4096_S_d0_1 h_S_)
    (maximumf (Host.reduceAdd (mask1 w) (constant S_ .f32 0x00000000#32) reducesTo_S8192x4096_S_d0_1 h_S_)
      (constant S_ .f32 0x3F800000#32))

/-- Layer 1's ternary weights: the sign of each weight where the mask keeps it, else zero. -/
def tern1 (w : FVec Ideal S8192x4096 .f32) : FVec Ideal S8192x4096 .f32 :=
  mulf (Host.sign w) (mask1 w)

/-- The effective weight the reference multiplies by: the scale spread over the array, times the sign, times the mask. -/
def eff1 (w : FVec Ideal S8192x4096 .f32) : FVec Ideal S8192x4096 .f32 :=
  mulf (mulf (broadcastInDim S8192x4096 ![] bcast_S_S8192x4096 (alpha1 w)) (Host.sign w)) (mask1 w)

/-- Layer 2's 0/1 mask as the reference computes it from the weight array `w`: 1 where `|w|` exceeds
    three quarters of the mean of `|w|`, else 0. -/
def mask2 (w : FVec Ideal S8192x8192 .f32) : FVec Ideal S8192x8192 .f32 :=
  uitofp .f32 (cmpf .ogt (Host.absf w) (broadcastInDim S8192x8192 ![] bcast_S_S8192x8192 (mulf (constant S_ .f32 0x3F400000#32)
    (Host.divf (Host.reduceAdd (Host.absf w) (constant S_ .f32 0x00000000#32) reducesTo_S8192x8192_S_d0_1 h_S_)
      (constant S_ .f32 0x4C800000#32)))))

/-- Layer 2's scale: the sum of the kept magnitudes over the number of kept entries, the divisor at least one. -/
def alpha2 (w : FVec Ideal S8192x8192 .f32) : FVec Ideal S_ .f32 :=
  Host.divf (Host.reduceAdd (mulf (Host.absf w) (mask2 w)) (constant S_ .f32 0x00000000#32) reducesTo_S8192x8192_S_d0_1 h_S_)
    (maximumf (Host.reduceAdd (mask2 w) (constant S_ .f32 0x00000000#32) reducesTo_S8192x8192_S_d0_1 h_S_)
      (constant S_ .f32 0x3F800000#32))

/-- Layer 2's ternary weights: the sign of each weight where the mask keeps it, else zero. -/
def tern2 (w : FVec Ideal S8192x8192 .f32) : FVec Ideal S8192x8192 .f32 :=
  mulf (Host.sign w) (mask2 w)

/-- The effective weight the reference multiplies by: the scale spread over the array, times the sign, times the mask. -/
def eff2 (w : FVec Ideal S8192x8192 .f32) : FVec Ideal S8192x8192 .f32 :=
  mulf (mulf (broadcastInDim S8192x8192 ![] bcast_S_S8192x8192 (alpha2 w)) (Host.sign w)) (mask2 w)

/-- Layer 3's 0/1 mask as the reference computes it from the weight array `w`: 1 where `|w|` exceeds
    three quarters of the mean of `|w|`, else 0. -/
def mask3 (w : FVec Ideal S4096x8192 .f32) : FVec Ideal S4096x8192 .f32 :=
  uitofp .f32 (cmpf .ogt (Host.absf w) (broadcastInDim S4096x8192 ![] bcast_S_S4096x8192 (mulf (constant S_ .f32 0x3F400000#32)
    (Host.divf (Host.reduceAdd (Host.absf w) (constant S_ .f32 0x00000000#32) reducesTo_S4096x8192_S_d0_1 h_S_)
      (constant S_ .f32 0x4C000000#32)))))

/-- Layer 3's scale: the sum of the kept magnitudes over the number of kept entries, the divisor at least one. -/
def alpha3 (w : FVec Ideal S4096x8192 .f32) : FVec Ideal S_ .f32 :=
  Host.divf (Host.reduceAdd (mulf (Host.absf w) (mask3 w)) (constant S_ .f32 0x00000000#32) reducesTo_S4096x8192_S_d0_1 h_S_)
    (maximumf (Host.reduceAdd (mask3 w) (constant S_ .f32 0x00000000#32) reducesTo_S4096x8192_S_d0_1 h_S_)
      (constant S_ .f32 0x3F800000#32))

/-- Layer 3's ternary weights: the sign of each weight where the mask keeps it, else zero. -/
def tern3 (w : FVec Ideal S4096x8192 .f32) : FVec Ideal S4096x8192 .f32 :=
  mulf (Host.sign w) (mask3 w)

/-- The effective weight the reference multiplies by: the scale spread over the array, times the sign, times the mask. -/
def eff3 (w : FVec Ideal S4096x8192 .f32) : FVec Ideal S4096x8192 .f32 :=
  mulf (mulf (broadcastInDim S4096x8192 ![] bcast_S_S4096x8192 (alpha3 w)) (Host.sign w)) (mask3 w)

end Cert.RefSide

end
-- ==== Proof.RefArgs.lean ====
/-
  The arguments the specification's network takes, read off the program's argument arrays, and the network's result
  as an array.

  The activations are the first array, row n and column k. Each layer's weight table is its ternary weights read
  transposed (the arrays hold them H by K, the layer sums over K for each of the H outputs), its scale the one entry of
  the scale's scalar array, its bias row the bias array.
-/
import proofs.«109880_j20693152432262_2_alg».proof.Proof.RefTerms
import proofs.«109880_j20693152432262_2_alg».proof.Proof.Spec
import Idealize.ShloMosaic.Lib.ValueIdx

noncomputable section

namespace Cert.RefSide

open Cert.ReferenceIdeal Cert.ReferenceIdeal.Gen Idealize.ShloMosaic Idealize.ShloMosaic.ValueIdx

/-- The activations: entry (n, k) of the first argument. -/
abbrev X (x : FVec Ideal S8192x4096 .f32) : Fin 8192 → Fin 4096 → EReal := fun n k => x (ix2 n k)

/-- Layer 1's weight table, K = 4096 by H = 8192: the ternary weights read transposed. -/
abbrev TW1 (w1 : FVec Ideal S8192x4096 .f32) : Fin 4096 → Fin 8192 → EReal := fun k h => tern1 w1 (ix2 h k)
/-- Layer 1's scale. -/
abbrev A1 (w1 : FVec Ideal S8192x4096 .f32) : EReal := alpha1 w1 ix0
/-- Layer 1's bias row. -/
abbrev B1 (b1 : FVec Ideal S8192 .f32) : Fin 8192 → EReal := fun h => b1 (ix1 h)

/-- Layer 2's weight table, K = 8192 by H = 8192. -/
abbrev TW2 (w2 : FVec Ideal S8192x8192 .f32) : Fin 8192 → Fin 8192 → EReal := fun k h => tern2 w2 (ix2 h k)
/-- Layer 2's scale. -/
abbrev A2 (w2 : FVec Ideal S8192x8192 .f32) : EReal := alpha2 w2 ix0
/-- Layer 2's bias row. -/
abbrev B2 (b2 : FVec Ideal S8192 .f32) : Fin 8192 → EReal := fun h => b2 (ix1 h)

/-- Layer 3's weight table, K = 8192 by H = 4096. -/
abbrev TW3 (w3 : FVec Ideal S4096x8192 .f32) : Fin 8192 → Fin 4096 → EReal := fun k h => tern3 w3 (ix2 h k)
/-- Layer 3's scale. -/
abbrev A3 (w3 : FVec Ideal S4096x8192 .f32) : EReal := alpha3 w3 ix0
/-- Layer 3's bias row. -/
abbrev B3 (b3 : FVec Ideal S4096 .f32) : Fin 4096 → EReal := fun h => b3 (ix1 h)

/-- The network's result as an array: entry j is the specification's three layers at row `j 0` and column `j 1`. -/
abbrev result (x : FVec Ideal S8192x4096 .f32) (w1 : FVec Ideal S8192x4096 .f32) (b1 : FVec Ideal S8192 .f32)
    (w2 : FVec Ideal S8192x8192 .f32) (b2 : FVec Ideal S8192 .f32) (w3 : FVec Ideal S4096x8192 .f32)
    (b3 : FVec Ideal S4096 .f32) : FVec Ideal S8192x4096 .f32 :=
  fun j => Cert.Spec.mlp (X x) (TW1 w1) (A1 w1) (B1 b1) (TW2 w2) (A2 w2) (B2 b2) (TW3 w3) (A3 w3) (B3 b3) (j 0) (j 1)

end Cert.RefSide

end
-- ==== Proof.KIBridgeTerms.lean ====
/-
  The kernel side's and the reference side's ternarization are one function of the weight table.

  Both programs compute a layer's mask, scale and ternary table from its weight table by the same host operations, in
  the same order, with the same literals, over the same literal shapes; only the namespaces that print them differ.
  Each pair of named terms is therefore equal by unfolding, and so are the arguments the specification's network is
  given on the two sides.
-/
import proofs.«109880_j20693152432262_2_alg».proof.Proof.KTerms
import proofs.«109880_j20693152432262_2_alg».proof.Proof.RefArgs

noncomputable section

namespace Cert.KernelIdeal.Bridge

open Idealize.ShloMosaic Idealize.ShloMosaic.ValueIdx

theorem mask1_eq (w : FVec Ideal Cert.KernelIdeal.S8192x4096 .f32) : Cert.KernelIdeal.Host.mask1 (F := Ideal) w = Cert.RefSide.mask1 w := rfl
theorem alpha1_eq (w : FVec Ideal Cert.KernelIdeal.S8192x4096 .f32) : Cert.KernelIdeal.Host.alpha1 (F := Ideal) w = Cert.RefSide.alpha1 w := rfl
theorem tern1_eq (w : FVec Ideal Cert.KernelIdeal.S8192x4096 .f32) : Cert.KernelIdeal.Host.tern1 (F := Ideal) w = Cert.RefSide.tern1 w := rfl
theorem mask2_eq (w : FVec Ideal Cert.KernelIdeal.S8192x8192 .f32) : Cert.KernelIdeal.Host.mask2 (F := Ideal) w = Cert.RefSide.mask2 w := rfl
theorem alpha2_eq (w : FVec Ideal Cert.KernelIdeal.S8192x8192 .f32) : Cert.KernelIdeal.Host.alpha2 (F := Ideal) w = Cert.RefSide.alpha2 w := rfl
theorem tern2_eq (w : FVec Ideal Cert.KernelIdeal.S8192x8192 .f32) : Cert.KernelIdeal.Host.tern2 (F := Ideal) w = Cert.RefSide.tern2 w := rfl
theorem mask3_eq (w : FVec Ideal Cert.KernelIdeal.S4096x8192 .f32) : Cert.KernelIdeal.Host.mask3 (F := Ideal) w = Cert.RefSide.mask3 w := rfl
theorem alpha3_eq (w : FVec Ideal Cert.KernelIdeal.S4096x8192 .f32) : Cert.KernelIdeal.Host.alpha3 (F := Ideal) w = Cert.RefSide.alpha3 w := rfl
theorem tern3_eq (w : FVec Ideal Cert.KernelIdeal.S4096x8192 .f32) : Cert.KernelIdeal.Host.tern3 (F := Ideal) w = Cert.RefSide.tern3 w := rfl

/-- The specification's network of the seven argument arrays, with the kernel side's named terms, is the reference
    side's `result`. -/
theorem spec_result (x w1 : FVec Ideal Cert.KernelIdeal.S8192x4096 .f32) (b1 : FVec Ideal Cert.KernelIdeal.S8192 .f32)
    (w2 : FVec Ideal Cert.KernelIdeal.S8192x8192 .f32) (b2 : FVec Ideal Cert.KernelIdeal.S8192 .f32)
    (w3 : FVec Ideal Cert.KernelIdeal.S4096x8192 .f32) (b3 : FVec Ideal Cert.KernelIdeal.S4096 .f32) :
    (fun j : Cert.KernelIdeal.S8192x4096.Idx => Cert.Spec.mlp (fun (n : Fin 8192) (k : Fin 4096) => x (ix2 n k))
        (fun (k : Fin 4096) (h : Fin 8192) => Cert.KernelIdeal.Host.tern1 (F := Ideal) w1 (ix2 h k))
        (Cert.KernelIdeal.Host.alpha1 (F := Ideal) w1 ix0) (fun (h : Fin 8192) => b1 (ix1 h))
        (fun (k : Fin 8192) (h : Fin 8192) => Cert.KernelIdeal.Host.tern2 (F := Ideal) w2 (ix2 h k))
        (Cert.KernelIdeal.Host.alpha2 (F := Ideal) w2 ix0) (fun (h : Fin 8192) => b2 (ix1 h))
        (fun (k : Fin 8192) (h : Fin 4096) => Cert.KernelIdeal.Host.tern3 (F := Ideal) w3 (ix2 h k))
        (Cert.KernelIdeal.Host.alpha3 (F := Ideal) w3 ix0) (fun (h : Fin 4096) => b3 (ix1 h)) (j 0) (j 1))
      = Cert.RefSide.result x w1 b1 w2 b2 w3 b3 := by
  rw [tern1_eq, alpha1_eq, tern2_eq, alpha2_eq, tern3_eq, alpha3_eq]

end Cert.KernelIdeal.Bridge

end
-- ==== Proof.KHost1.lean ====
/-
  What the first layer's region is handed. Before that region the program's host operations compute, from the
  launch contents of the arguments, four arrays: the activations (a change of float format), the ternary table
  transposed to inputs-by-outputs, the scale as a 1 by 1 array, and the bias as a single row.

  Each array is first identified, whole, with a closed term of the launch contents; those equations hold for every
  interpretation of the float operations. The arrays are then read at an index on the extended reals, where a change
  of float format is the identity, a transposed table reads entry (k, h) at (h, k), and a reshape keeps row-major
  position.
-/
import proofs.«109880_j20693152432262_2_alg».proof.Proof.KTerms
import proofs.«109880_j20693152432262_2_alg».proof.Proof.Gen.KernelIdeal.Regions
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.ValueIdx

/-! ## The four arrays, whole, for any interpretation of the float operations -/

section Whole

variable {F : FTy → Type} [FloatOps F] (m : (ℓ : Loc nD τ sig) → Buf (Elt F) ℓ) (c : Dev nD)

/-- The activations handed to the region are the first argument, its float format changed. -/
theorem V1_v0_eq :
    (Gen.V1 m c main_call0_v0 : S8192x4096.Idx → F .bf16)
      = truncf (F := F) .bf16 (m ((c : Thread nD τ).loc main_arg0)) bitsLt_bf16_f32 := by
  dsimp only [Gen.V1, Gen.hostOps0]; after_results; rfl

/-- The table handed to the region is the ternary table of the first weight argument, format changed and transposed. -/
theorem V1_v17_eq :
    (Gen.V1 m c main_call0_v17 : S4096x8192.Idx → F .bf16)
      = transpose S4096x8192 [1, 0]
          (truncf .bf16 (tern1 (m ((c : Thread nD τ).loc main_arg1))) bitsLt_bf16_f32)
          transposes_S8192x4096_S4096x8192_1_0 := by
  dsimp only [Gen.V1, Gen.hostOps0]; after_results; rfl

/-- The scale handed to the region is the scale of the first weight argument, as a 1 by 1 array. -/
theorem V1_v16_eq :
    (Gen.V1 m c main_call0_v16 : S1x1.Idx → F .f32)
      = shapeCast S1x1 (alpha1 (m ((c : Thread nD τ).loc main_arg1))) shapeCasts_S_S1x1 := by
  dsimp only [Gen.V1, Gen.hostOps0]; after_results; rfl

/-- The bias handed to the region is the first bias argument, as one row. -/
theorem V1_v18_eq :
    (Gen.V1 m c main_call0_v18 : S1x8192.Idx → F .f32)
      = shapeCast S1x8192 (m ((c : Thread nD τ).loc main_arg2) : S8192.Idx → F .f32) shapeCasts_S8192_S1x8192 := by
  dsimp only [Gen.V1, Gen.hostOps0]; after_results; rfl

end Whole

/-! ## The four arrays at an index, on the extended reals -/

section AtIndex

variable (m : (ℓ : Loc nD τ sig) → Buf (Elt Ideal) ℓ) (c : Dev nD)

/-- Entry (n, k) of the activations is entry (n, k) of the first argument. -/
theorem V1_v0_apply (n : Fin 8192) (k : Fin 4096) :
    (Gen.V1 m c main_call0_v0 : S8192x4096.Idx → EReal) (ix2 n k) = m ((c : Thread nD τ).loc main_arg0) (ix2 n k) := by
  rw [V1_v0_eq]
  generalize m ((c : Thread nD τ).loc main_arg0) = X
  exact truncf_apply (s := S8192x4096) (φ := .f32) X bitsLt_bf16_f32 (ix2 n k)

/-- Entry (k, h) of the table is entry (h, k) of the ternary table of the first weight argument. -/
theorem V1_v17_apply (k : Fin 4096) (h : Fin 8192) :
    (Gen.V1 m c main_call0_v17 : S4096x8192.Idx → EReal) (ix2 k h)
      = tern1 (F := Ideal) (m ((c : Thread nD τ).loc main_arg1)) (ix2 h k) := by
  rw [V1_v17_eq]
  generalize tern1 (F := Ideal) (m ((c : Thread nD τ).loc main_arg1)) = T
  exact (transpose_ix2_apply _ transposes_S8192x4096_S4096x8192_1_0 k h).trans
    (truncf_apply T bitsLt_bf16_f32 (ix2 h k))

/-- The one entry of the scale array is the scale of the first weight argument. -/
theorem V1_v16_apply :
    (Gen.V1 m c main_call0_v16 : S1x1.Idx → EReal) (ix2 (0 : Fin 1) (0 : Fin 1))
      = alpha1 (F := Ideal) (m ((c : Thread nD τ).loc main_arg1)) ix0 := by
  rw [V1_v16_eq]
  generalize alpha1 (F := Ideal) (m ((c : Thread nD τ).loc main_arg1)) = A
  refine shapeCast_apply A shapeCasts_S_S1x1 _ _ ?_
  refine (Shape.rowMajorPi_zero _ _).trans ?_
  rw [Shape.rowMajor_val_two]
  rfl

/-- Entry (0, h) of the bias row is entry h of the first bias argument. -/
theorem V1_v18_apply (h : Fin 8192) :
    (Gen.V1 m c main_call0_v18 : S1x8192.Idx → EReal) (ix2 (0 : Fin 1) h) = m ((c : Thread nD τ).loc main_arg2) (ix1 h) := by
  rw [V1_v18_eq]
  generalize m ((c : Thread nD τ).loc main_arg2) = B
  exact shapeCast_a_1a_apply (a := 8192) B shapeCasts_S8192_S1x8192 0 h

end AtIndex

end Cert.KernelIdeal.Host

end
-- ==== Proof.KHost2.lean ====
/-
  What the second layer's region is handed. Before that region the program's host operations compute, from the
  contents of the second weight and bias arguments, three arrays: the ternary table transposed to inputs-by-outputs,
  the scale as a 1 by 1 array, and the bias as a single row; the activations are what the previous region left, which
  these operations do not touch.

  The statements are about the host operations applied to ANY contents of the buffers: the three arrays depend only on
  what the two arguments hold. Each array is first identified, whole, with a closed term of those contents, for every
  interpretation of the float operations; it is then read at an index on the extended reals, where a change of float
  format is the identity, a transposed table reads entry (k, h) at (h, k), and a reshape keeps row-major position.
-/
import proofs.«109880_j20693152432262_2_alg».proof.Proof.KTerms
import proofs.«109880_j20693152432262_2_alg».proof.Proof.Gen.KernelIdeal.Regions
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.ValueIdx

/-! ## The three arrays, whole, for any interpretation of the float operations -/

section Whole

variable {F : FTy → Type} [FloatOps F] (W : Valuation τ sig (Elt F))

/-- The table handed to the region is the ternary table of the weight argument's contents, format changed and transposed. -/
theorem after1_v36_eq :
    (StableHlo.after hostOps1 W (Proc.devRef .tc main_call0_v36) : S8192x8192.Idx → F .bf16)
      = transpose S8192x8192 [1, 0]
          (truncf .bf16 (tern2 (W (Proc.devRef .tc main_arg3))) bitsLt_bf16_f32)
          transposes_S8192x8192_S8192x8192_1_0 := by
  dsimp only [Gen.hostOps1]; after_results; rfl

set_option maxHeartbeats 1000000 in
/-- The scale handed to the region is the scale of the weight argument's contents, as a 1 by 1 array. -/
theorem after1_v35_eq :
    (StableHlo.after hostOps1 W (Proc.devRef .tc main_call0_v35) : S1x1.Idx → F .f32)
      = shapeCast S1x1 (alpha2 (W (Proc.devRef .tc main_arg3))) shapeCasts_S_S1x1 := by
  dsimp only [Gen.hostOps1]; after_results; rfl

/-- The bias handed to the region is the bias argument's contents, as one row. -/
theorem after1_v37_eq :
    (StableHlo.after hostOps1 W (Proc.devRef .tc main_call0_v37) : S1x8192.Idx → F .f32)
      = shapeCast S1x8192 (W (Proc.devRef .tc main_arg4) : S8192.Idx → F .f32) shapeCasts_S8192_S1x8192 := by
  dsimp only [Gen.hostOps1]; after_results; rfl

/-- These host operations leave the previous region's result as it was: none of them writes it. -/
theorem after1_v19 :
    StableHlo.after hostOps1 W (Proc.devRef .tc main_call0_v19) = W (Proc.devRef .tc main_call0_v19) :=
  StableHlo.after_of_writes_sub hostOps1 W Gen.hostOps1_writes (by decide)

end Whole

/-! ## The three arrays at an index, on the extended reals -/

section AtIndex

variable (m : (ℓ : Loc nD τ sig) → Buf (Elt Ideal) ℓ) (c : Dev nD) (W : Valuation τ sig (Elt Ideal))

/-- Entry (k, h) of the table is entry (h, k) of the ternary table of the weight argument. -/
theorem after1_v36_apply (hw : W (Proc.devRef .tc main_arg3) = m ((c : Thread nD τ).loc main_arg3))
    (k : Fin 8192) (h : Fin 8192) :
    (StableHlo.after hostOps1 W (Proc.devRef .tc main_call0_v36) : S8192x8192.Idx → EReal) (ix2 k h)
      = tern2 (F := Ideal) (m ((c : Thread nD τ).loc main_arg3)) (ix2 h k) := by
  rw [after1_v36_eq, hw]
  generalize tern2 (F := Ideal) (m ((c : Thread nD τ).loc main_arg3)) = T
  exact (transpose_ix2_apply _ transposes_S8192x8192_S8192x8192_1_0 k h).trans
    (truncf_apply T bitsLt_bf16_f32 (ix2 h k))

/-- The one entry of the scale array is the scale of the weight argument. -/
theorem after1_v35_apply (hw : W (Proc.devRef .tc main_arg3) = m ((c : Thread nD τ).loc main_arg3)) :
    (StableHlo.after hostOps1 W (Proc.devRef .tc main_call0_v35) : S1x1.Idx → EReal) (ix2 (0 : Fin 1) (0 : Fin 1))
      = alpha2 (F := Ideal) (m ((c : Thread nD τ).loc main_arg3)) ix0 := by
  rw [after1_v35_eq, hw]
  generalize alpha2 (F := Ideal) (m ((c : Thread nD τ).loc main_arg3)) = A
  refine shapeCast_apply A shapeCasts_S_S1x1 _ _ ?_
  refine (Shape.rowMajorPi_zero _ _).trans ?_
  rw [Shape.rowMajor_val_two]
  rfl

/-- Entry (0, h) of the bias row is entry h of the bias argument. -/
theorem after1_v37_apply (hb : W (Proc.devRef .tc main_arg4) = m ((c : Thread nD τ).loc main_arg4)) (h : Fin 8192) :
    (StableHlo.after hostOps1 W (Proc.devRef .tc main_call0_v37) : S1x8192.Idx → EReal) (ix2 (0 : Fin 1) h)
      = m ((c : Thread nD τ).loc main_arg4) (ix1 h) := by
  rw [after1_v37_eq, hb]
  generalize m ((c : Thread nD τ).loc main_arg4) = B
  exact shapeCast_a_1a_apply (a := 8192) B shapeCasts_S8192_S1x8192 0 h

end AtIndex

end Cert.KernelIdeal.Host

end
-- ==== Proof.KHost3.lean ====
/-
  What the third layer's region is handed. Before that region the program's host operations compute, from the
  contents of the third weight and bias arguments, three arrays: the ternary table transposed to inputs-by-outputs,
  the scale as a 1 by 1 array, and the bias as a single row; the activations are what the previous region left, which
  these operations do not touch.

  The statements are about the host operations applied to ANY contents of the buffers: the three arrays depend only on
  what the two arguments hold. Each array is first identified, whole, with a closed term of those contents, for every
  interpretation of the float operations; it is then read at an index on the extended reals, where a change of float
  format is the identity, a transposed table reads entry (k, h) at (h, k), and a reshape keeps row-major position.
-/
import proofs.«109880_j20693152432262_2_alg».proof.Proof.KTerms
import proofs.«109880_j20693152432262_2_alg».proof.Proof.Gen.KernelIdeal.Regions
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.ValueIdx

/-! ## The three arrays, whole, for any interpretation of the float operations -/

section Whole

variable {F : FTy → Type} [FloatOps F] (W : Valuation τ sig (Elt F))

/-- The table handed to the region is the ternary table of the weight argument's contents, format changed and transposed. -/
theorem after2_v55_eq :
    (StableHlo.after hostOps2 W (Proc.devRef .tc main_call0_v55) : S8192x4096.Idx → F .bf16)
      = transpose S8192x4096 [1, 0]
          (truncf .bf16 (tern3 (W (Proc.devRef .tc main_arg5))) bitsLt_bf16_f32)
          transposes_S4096x8192_S8192x4096_1_0 := by
  dsimp only [Gen.hostOps2]; after_results; rfl

set_option maxHeartbeats 1000000 in
/-- The scale handed to the region is the scale of the weight argument's contents, as a 1 by 1 array. -/
theorem after2_v54_eq :
    (StableHlo.after hostOps2 W (Proc.devRef .tc main_call0_v54) : S1x1.Idx → F .f32)
      = shapeCast S1x1 (alpha3 (W (Proc.devRef .tc main_arg5))) shapeCasts_S_S1x1 := by
  dsimp only [Gen.hostOps2]; after_results; rfl

/-- The bias handed to the region is the bias argument's contents, as one row. -/
theorem after2_v56_eq :
    (StableHlo.after hostOps2 W (Proc.devRef .tc main_call0_v56) : S1x4096.Idx → F .f32)
      = shapeCast S1x4096 (W (Proc.devRef .tc main_arg6) : S4096.Idx → F .f32) shapeCasts_S4096_S1x4096 := by
  dsimp only [Gen.hostOps2]; after_results; rfl

/-- These host operations leave the previous region's result as it was: none of them writes it. -/
theorem after2_v38 :
    StableHlo.after hostOps2 W (Proc.devRef .tc main_call0_v38) = W (Proc.devRef .tc main_call0_v38) :=
  StableHlo.after_of_writes_sub hostOps2 W Gen.hostOps2_writes (by decide)

end Whole

/-! ## The three arrays at an index, on the extended reals -/

section AtIndex

variable (m : (ℓ : Loc nD τ sig) → Buf (Elt Ideal) ℓ) (c : Dev nD) (W : Valuation τ sig (Elt Ideal))

/-- Entry (k, h) of the table is entry (h, k) of the ternary table of the weight argument. -/
theorem after2_v55_apply (hw : W (Proc.devRef .tc main_arg5) = m ((c : Thread nD τ).loc main_arg5))
    (k : Fin 8192) (h : Fin 4096) :
    (StableHlo.after hostOps2 W (Proc.devRef .tc main_call0_v55) : S8192x4096.Idx → EReal) (ix2 k h)
      = tern3 (F := Ideal) (m ((c : Thread nD τ).loc main_arg5)) (ix2 h k) := by
  rw [after2_v55_eq, hw]
  generalize tern3 (F := Ideal) (m ((c : Thread nD τ).loc main_arg5)) = T
  exact (transpose_ix2_apply _ transposes_S4096x8192_S8192x4096_1_0 k h).trans
    (truncf_apply T bitsLt_bf16_f32 (ix2 h k))

/-- The one entry of the scale array is the scale of the weight argument. -/
theorem after2_v54_apply (hw : W (Proc.devRef .tc main_arg5) = m ((c : Thread nD τ).loc main_arg5)) :
    (StableHlo.after hostOps2 W (Proc.devRef .tc main_call0_v54) : S1x1.Idx → EReal) (ix2 (0 : Fin 1) (0 : Fin 1))
      = alpha3 (F := Ideal) (m ((c : Thread nD τ).loc main_arg5)) ix0 := by
  rw [after2_v54_eq, hw]
  generalize alpha3 (F := Ideal) (m ((c : Thread nD τ).loc main_arg5)) = A
  refine shapeCast_apply A shapeCasts_S_S1x1 _ _ ?_
  refine (Shape.rowMajorPi_zero _ _).trans ?_
  rw [Shape.rowMajor_val_two]
  rfl

/-- Entry (0, h) of the bias row is entry h of the bias argument. -/
theorem after2_v56_apply (hb : W (Proc.devRef .tc main_arg6) = m ((c : Thread nD τ).loc main_arg6)) (h : Fin 4096) :
    (StableHlo.after hostOps2 W (Proc.devRef .tc main_call0_v56) : S1x4096.Idx → EReal) (ix2 (0 : Fin 1) h)
      = m ((c : Thread nD τ).loc main_arg6) (ix1 h) := by
  rw [after2_v56_eq, hb]
  generalize m ((c : Thread nD τ).loc main_arg6) = B
  exact shapeCast_a_1a_apply (a := 4096) B shapeCasts_S4096_S1x4096 0 h

end AtIndex

end Cert.KernelIdeal.Host

end
-- ==== Proof.KI0ValPieces.lean ====
/-
  Region 0 (layer 1): what each of the body's three runs leaves in the buffers it stores into, as a pure term of the
  blocks it loaded.

  The body stores whole blocks only, so each buffer's final contents are the payload of the last store into it, and
  a load that follows a store of the same buffer reads that store's payload back:
  * on a first reduction block the accumulator ends at the block product added to the zero block;
  * on every other block it ends at the block product added to what it held (`xs`);
  * on a last reduction block the output buffer ends at the scaled, biased (and rectified) accumulator.
  Everything here holds for any float instance.
-/
import proofs.«109880_j20693152432262_2_alg».proof.Proof.KI0Frame
import Idealize.ShloMosaic.Lib.Pipeline.Value
import Idealize.ShloMosaic.Lib.Tactic

set_option maxRecDepth 16384

noncomputable section

namespace Cert.KernelIdeal.Reg0Val

open Cert.KernelIdeal Cert.KernelIdeal.Gen Cert.KernelIdeal.Reg0
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a whole-block access, as the constant function. -/
theorem hz : (![0, 0] : Fin 2 → Nat) = fun _ => 0 := funext fun a => by fin_cases a <;> rfl

/-! ## The three runs on any whole memrefs -/

/-- First reduction block: the accumulator is zeroed, read back, and left at the zero block plus the block product. -/
theorem canonA (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    View.canon (kernelRunA (F := F) c i arg3 harg3 arg4 harg4 arg5 harg5 arg6 harg6 arg7 harg7 arg8 harg8 hc0 hc1 x0 x1 x2 x3).1
      = k0_pay2 (k0_pay1 (F := F)) x0 x1 := by
  unfold kernelRunA
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz,
    View.ld_unit_zero (S := S1024x1024) hz]

/-- Middle reduction block: the accumulator, found at `xs`, is left at `xs` plus the block product. -/
theorem canonB (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    View.canon (kernelRunB (F := F) c i arg3 harg3 arg4 harg4 arg5 harg5 arg6 harg6 arg7 harg7 arg8 harg8 hc0 hc1 x0 x1 x2 x3 xs).1
      = k0_pay2 xs x0 x1 := by
  unfold kernelRunB
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the accumulator: as on a middle block. -/
theorem canonC_acc (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).2.1
      = k0_pay2 xs x0 x1 := by
  unfold kernelRunC
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the output buffer: the finished accumulator read back, scaled, biased and rectified. -/
theorem canonC_out (c : Dev nD) (i : grid0.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).1
      = k0_pay3 (k0_pay2 xs x0 x1) x3 x2 := by
  unfold kernelRunC
  dsimp only
  sl_unfold_words
  rw [View.canon_unit_zero (S := S2048x1024) hz, View.readCov_unit_zero (S := S2048x1024) _ hz]
  simp only [View.readAt_eq_ld, harg3.read_unread, harg4.read_unread, harg5.read_unread, harg6.read_unread, harg8.read_unread,
    View.ld_unit_zero (S := S2048x1024) hz, View.ld_unit_zero (S := S1024x1024) hz, View.ld_unit_zero (S := S1x1024) hz,
    View.ld_unit_zero (S := S1x1) hz]

/-! ## The same at a grid point, on the point's staging buffers and input blocks -/

section AtPoint

variable (V : (c : Dev nD) → (b : Ref sig .tc) → Buf (Elt F) ((c : Thread nD τ).loc b))

theorem soutA_eq (c : Dev nD) (t : Fin cfg0.N) (h0 : t.val % 4 = 0) :
    soutA V c t h0 = k0_pay2 (k0_pay1 (F := F)) (iblk V c 0 t) (iblk V c 1 t) := by
  unfold soutA
  rw [View.read_writes_junk_eq_canon]
  exact canonA c (grid0.coords t) (ms0 t) (hs0 t) (ms1 t) (hs1 t) (ms2 t) (hs2 t) (ms3 t) (hs3 t) (ms4 t) (hs4 t) scM
    (Memref.isWhole_whole _) ((hcondFirst t).mpr h0) (notLast_of_first t h0) (iblk V c 0 t) (iblk V c 1 t) (iblk V c 2 t) (iblk V c 3 t)

theorem soutB_eq (c : Dev nD) (t : Fin cfg0.N) (h0 : ¬t.val % 4 = 0) (h1 : ¬t.val % 4 = 3) (xs : Vec F S2048x1024 .f32) :
    soutB V c t h0 h1 xs = k0_pay2 xs (iblk V c 0 t) (iblk V c 1 t) := by
  unfold soutB
  rw [View.read_writes_junk_eq_canon]
  exact canonB c (grid0.coords t) (ms0 t) (hs0 t) (ms1 t) (hs1 t) (ms2 t) (hs2 t) (ms3 t) (hs3 t) (ms4 t) (hs4 t) scM
    (Memref.isWhole_whole _) (fun h => h0 ((hcondFirst t).mp h)) (fun h => h1 ((hcondLast t).mp h)) (iblk V c 0 t) (iblk V c 1 t) (iblk V c 2 t) (iblk V c 3 t) xs

theorem soutC_eq (c : Dev nD) (t : Fin cfg0.N) (h0 : ¬t.val % 4 = 0) (h1 : t.val % 4 = 3) (xs : Vec F S2048x1024 .f32) :
    soutC V c t h0 h1 xs = k0_pay2 xs (iblk V c 0 t) (iblk V c 1 t) := by
  unfold soutC
  rw [View.read_writes_junk_eq_canon]
  exact canonC_acc c (grid0.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

theorem outC_eq (c : Dev nD) (t : Fin cfg0.N) (h0 : ¬t.val % 4 = 0) (h1 : t.val % 4 = 3) (xs : Vec F S2048x1024 .f32) :
    outC V c t h0 h1 xs = k0_pay3 (k0_pay2 xs (iblk V c 0 t) (iblk V c 1 t)) (iblk V c 3 t) (iblk V c 2 t) := by
  unfold outC
  rw [View.read_writes_junk_eq_canon]
  exact canonC_out c (grid0.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

end AtPoint

end Cert.KernelIdeal.Reg0Val

end
-- ==== Proof.KI0ValPay.lean ====
/-
  Region 0 (layer 1): the body's three stored values read at one entry, over the extended reals.

  The zero block reads 0 everywhere. The accumulating store at entry (r, cc) is what the accumulator held there plus
  the entry of the block product, row r of the activation block against column cc of the weight block: the matrix
  unit's product into a zero accumulator is the plain sum over the contracted coordinate. The output store at
  (r, cc) is the accumulator's entry times the single scale, plus the bias row's entry cc, then the positive part;
  the change of float format on the way out is the identity on the extended reals.
-/
import proofs.«109880_j20693152432262_2_alg».proof.Proof.KI0Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg0Val

open Cert.KernelIdeal Cert.KernelIdeal.Gen Cert.KernelIdeal.Reg0
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## The block product's operand indices -/

theorem lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-! ## The three payloads at an entry -/

/-- Entry (r, cc) of the product of a row block of activations with a weight block: row r against column cc. -/
def blockProd (x0 : Vec Ideal S2048x1024 .bf16) (x1 : Vec Ideal S1024x1024 .bf16) (r : Fin 2048) (cc : Fin 1024) : EReal :=
  ∑ kk : Fin 1024, (x0 (ix2 r kk) : EReal) * (x1 (ix2 kk cc) : EReal)

/-- The block the accumulator is reset to is zero everywhere. -/
theorem pay1_apply (r : Fin 2048) (cc : Fin 1024) : (k0_pay1 (F := Ideal) (ix2 r cc) : EReal) = 0 := by
  unfold k0_pay1
  rw [shapeCast_self]
  exact Ideal.ofBits_zero_f32

/-- The accumulating store at an entry: what the accumulator held there plus the block product's entry. -/
theorem pay2_apply (xs : Vec Ideal S2048x1024 .f32) (x0 : Vec Ideal S2048x1024 .bf16) (x1 : Vec Ideal S1024x1024 .bf16)
    (r : Fin 2048) (cc : Fin 1024) :
    (k0_pay2 (F := Ideal) xs x0 x1 (ix2 r cc) : EReal) = xs (ix2 r cc) + blockProd x0 x1 r cc := by
  unfold k0_pay2
  rw [shapeCast_self, shapeCast_self, shapeCast_self]
  show (xs (ix2 r cc) : EReal) + FloatOps.matmul dot_S2048x1024_S1024x1024_S2048x1024_1_0_0_1_n_n none x0 x1 (constant (F := Ideal) S2048x1024 .f32 0x00000000#32) (ix2 r cc) = _
  refine congrArg (fun z : EReal => (xs (ix2 r cc) : EReal) + z) ?_
  refine (Ideal.matmul_constant_zero_apply (φ₁ := .bf16) (φ₂ := .bf16) dot_S2048x1024_S1024x1024_S2048x1024_1_0_0_1_n_n none x0 x1 (ix2 r cc)).trans ?_
  unfold blockProd
  rw [← Equiv.sum_comp (contrEquiv1 dot_S2048x1024_S1024x1024_S2048x1024_1_0_0_1_n_n 1024 rfl rfl).symm]
  refine Finset.sum_congr rfl fun kk _ => ?_
  have hk := contrEquiv1_symm_val dot_S2048x1024_S1024x1024_S2048x1024_1_0_0_1_n_n 1024 rfl rfl kk
  have el : dot_S2048x1024_S1024x1024_S2048x1024_1_0_0_1_n_n.lhsIdx (ix2 r cc) ((contrEquiv1 dot_S2048x1024_S1024x1024_S2048x1024_1_0_0_1_n_n 1024 rfl rfl).symm kk) = ix2 r kk := funext fun a => Fin.ext (by
    match a with
    | ⟨0, _⟩ => exact lhs_0 _ _
    | ⟨1, _⟩ => exact (lhs_1 _ _).trans hk)
  have er : dot_S2048x1024_S1024x1024_S2048x1024_1_0_0_1_n_n.rhsIdx (ix2 r cc) ((contrEquiv1 dot_S2048x1024_S1024x1024_S2048x1024_1_0_0_1_n_n 1024 rfl rfl).symm kk) = ix2 kk cc := funext fun a => Fin.ext (by
    match a with
    | ⟨0, _⟩ => exact (rhs_0 _ _).trans hk
    | ⟨1, _⟩ => exact rhs_1 _ _)
  rw [el, er]

/-- The output store at an entry: the accumulator's entry times the one scale, plus the bias row's entry, rectified. -/
theorem pay3_apply (acc : Vec Ideal S2048x1024 .f32) (a : Vec Ideal S1x1 .f32) (b : Vec Ideal S1x1024 .f32)
    (r : Fin 2048) (cc : Fin 1024) :
    (k0_pay3 (F := Ideal) acc a b (ix2 r cc) : EReal)
      = max ((acc (ix2 r cc) : EReal) * a (ix2 (0 : Fin 1) (0 : Fin 1)) + b (ix2 (0 : Fin 1) cc)) 0 := by
  unfold k0_pay3
  rw [shapeCast_self, shapeCast_self]
  show max ((acc (ix2 r cc) : EReal) * broadcastTo S2048x1024 a _ (ix2 r cc) + broadcastTo S2048x1024 b _ (ix2 r cc)) (Ideal.ofBits .f32 0x00000000#32) = _
  rw [broadcastTo_1b_ab_apply b _ r cc, Ideal.ofBits_zero_f32]
  refine congrArg (fun z : EReal => max ((acc (ix2 r cc) : EReal) * z + b (ix2 (0 : Fin 1) cc)) 0) ?_
  exact broadcastTo_apply a _ (ix2 r cc) (ix2 (0 : Fin 1) (0 : Fin 1)) (fun ax => by
    match ax with
    | ⟨0, _⟩ => rfl
    | ⟨1, _⟩ => rfl)

end Cert.KernelIdeal.Reg0Val

end
-- ==== Proof.KI0ValBlocks.lean ====
/-
  Region 0 (layer 1): where the entries of a point's input blocks sit in their arrays.

  The grid is (row block i, column block j, reduction block k) with extents (4, 8, 4), walked in row-major order, so
  point t has i = t / 32, j = (t / 4) mod 8, k = t mod 4. An entry of a block sits in the array, on each axis, at the
  block index times the block's size plus its coordinate inside the block. These hold for any float instance.
-/
import proofs.«109880_j20693152432262_2_alg».proof.Proof.KI0Frame
import Idealize.ShloMosaic.Lib.ValueIdx
import Idealize.ShloMosaic.Lib.Pipeline.Value

set_option maxRecDepth 16384

noncomputable section

namespace Cert.KernelIdeal.Reg0Val

open Cert.KernelIdeal Cert.KernelIdeal.Gen Cert.KernelIdeal.Reg0
open Idealize.ShloMosaic Idealize.ShloMosaic.TcCoe Idealize.ShloMosaic.Tactic
open Idealize.SL.Sem
open Idealize.ShloMosaic.Pipeline (Dat Cfg Window)
open Idealize.ShloMosaic.ValueIdx

/-! ## The windows' block indices at a point -/

/-- Point `t = 32 i + 4 j + k` of the (4, 8, 4) grid reads activation block (i, k), weight block (k, j), bias block
    (0, j) and the one scale, and its output block is (i, j). -/
theorem idx_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = 0 ∧ win0_3.index t (1 : Fin 2) = 0
    ∧ win0_4.index t (0 : Fin 2) = t.val / 32 ∧ win0_4.index t (1 : Fin 2) = t.val / 4 % 8 :=
  (by decide +kernel : ∀ t : Fin grid0.N, _)

/-! ## An input block's entry is an entry of its array -/

section Blocks

variable {F : FTy → Type} [FloatOps F]
variable (V : (c : Dev nD) → (b : Ref sig .tc) → Buf (Elt F) ((c : Thread nD τ).loc b))

/-- Entry (r, kk) of the activation block at `t` is entry (2048 i + r, 1024 k + kk) of the activations. -/
theorem iblk0_apply (c : Dev nD) (t : Fin cfg0.N) (r : Fin 2048) (kk : Fin 1024) (n : Fin 8192) (k : Fin 4096)
    (hn : n.val = t.val / 32 * 2048 + r.val) (hk : k.val = t.val % 4 * 1024 + kk.val) :
    (iblk V c 0 t : Vec F S2048x1024 .bf16) (ix2 r kk) = (V c main_call0_v0 : S8192x4096.Idx → Elt F .bf16) (ix2 n k) := by
  obtain ⟨e0, e1, -⟩ := idx_facts t
  unfold iblk
  rw [View.read_apply]
  show V c main_call0_v0 _ = V c main_call0_v0 _
  refine congrArg (V c main_call0_v0) (funext fun a => Fin.ext ?_)
  match a with
  | ⟨0, _⟩ => show win0_0.index t 0 * 2048 + 1 * r.val = n.val; rw [e0, hn]; omega
  | ⟨1, _⟩ => show win0_0.index t 1 * 1024 + 1 * kk.val = k.val; rw [e1, hk]; omega

/-- Entry (kk, cc) of the weight block at `t` is entry (1024 k + kk, 1024 j + cc) of the weights. -/
theorem iblk1_apply (c : Dev nD) (t : Fin cfg0.N) (kk : Fin 1024) (cc : Fin 1024) (k : Fin 4096) (h : Fin 8192)
    (hk : k.val = t.val % 4 * 1024 + kk.val) (hh : h.val = t.val / 4 % 8 * 1024 + cc.val) :
    (iblk V c 1 t : Vec F S1024x1024 .bf16) (ix2 kk cc) = (V c main_call0_v17 : S4096x8192.Idx → Elt F .bf16) (ix2 k h) := by
  obtain ⟨-, -, e2, e3, -⟩ := idx_facts t
  unfold iblk
  rw [View.read_apply]
  show V c main_call0_v17 _ = V c main_call0_v17 _
  refine congrArg (V c main_call0_v17) (funext fun a => Fin.ext ?_)
  match a with
  | ⟨0, _⟩ => show win0_1.index t 0 * 1024 + 1 * kk.val = k.val; rw [e2, hk]; omega
  | ⟨1, _⟩ => show win0_1.index t 1 * 1024 + 1 * cc.val = h.val; rw [e3, hh]; omega

/-- Entry (0, cc) of the bias block at `t` is entry (0, 1024 j + cc) of the bias row. -/
theorem iblk2_apply (c : Dev nD) (t : Fin cfg0.N) (cc : Fin 1024) (h : Fin 8192)
    (hh : h.val = t.val / 4 % 8 * 1024 + cc.val) :
    (iblk V c 2 t : Vec F S1x1024 .f32) (ix2 (0 : Fin 1) cc) = (V c main_call0_v18 : S1x8192.Idx → Elt F .f32) (ix2 (0 : Fin 1) h) := by
  obtain ⟨-, -, -, -, e4, e5, -⟩ := idx_facts t
  unfold iblk
  rw [View.read_apply]
  show V c main_call0_v18 _ = V c main_call0_v18 _
  refine congrArg (V c main_call0_v18) (funext fun a => Fin.ext ?_)
  match a with
  | ⟨0, _⟩ => show win0_2.index t 0 * 1 + 1 * 0 = 0; rw [e4]
  | ⟨1, _⟩ => show win0_2.index t 1 * 1024 + 1 * cc.val = h.val; rw [e5, hh]; omega

/-- The scale's block at any point is the scale. -/
theorem iblk3_apply (c : Dev nD) (t : Fin cfg0.N) :
    (iblk V c 3 t : Vec F S1x1 .f32) (ix2 (0 : Fin 1) (0 : Fin 1)) = (V c main_call0_v16 : S1x1.Idx → Elt F .f32) (ix2 (0 : Fin 1) (0 : Fin 1)) := by
  obtain ⟨-, -, -, -, -, -, e6, e7, -⟩ := idx_facts t
  unfold iblk
  rw [View.read_apply]
  show V c main_call0_v16 _ = V c main_call0_v16 _
  refine congrArg (V c main_call0_v16) (funext fun a => Fin.ext ?_)
  match a with
  | ⟨0, _⟩ => show win0_3.index t 0 * 1 + 1 * 0 = 0; rw [e6]
  | ⟨1, _⟩ => show win0_3.index t 1 * 1 + 1 * 0 = 0; rw [e7]

end Blocks

end Cert.KernelIdeal.Reg0Val

end
-- ==== Proof.KI0ValAcc.lean ====
/-
  Region 0 (layer 1): what the accumulator holds after every grid point, over the extended reals.

  Point t = 32 i + 4 j + k works on reduction block k of output block (i, j). A first reduction block (k = 0) resets
  the accumulator to zero and adds its block product; every later one adds its block product to what the point
  before left. So after point t the accumulator's entry (r, cc) is the sum, over the reduction blocks 0 … k, of the
  entries (r, cc) of their block products — by induction on the point. On a last reduction block (k = 3) the four
  block sums regroup into the one sum over all 4096 contracted positions of row 2048 i + r of the activations
  against column 1024 j + cc of the weight table: addition on the extended reals is associative and commutative, so
  no finiteness is needed.
-/
import proofs.«109880_j20693152432262_2_alg».proof.Proof.KI0ValPieces
import proofs.«109880_j20693152432262_2_alg».proof.Proof.KI0ValPay
import proofs.«109880_j20693152432262_2_alg».proof.Proof.KI0ValBlocks
import Mathlib.Algebra.BigOperators.Fin
import Mathlib.Logic.Equiv.Fin.Basic

set_option maxRecDepth 16384

noncomputable section

namespace Cert.KernelIdeal.Reg0Val

open Cert.KernelIdeal Cert.KernelIdeal.Gen Cert.KernelIdeal.Reg0
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## Sums over consecutive blocks -/

/-- A sum over `K = nb * bs` positions is the sum, over the `nb` blocks, of each block's `bs` positions. -/
theorem sum_blocks {M : Type*} [AddCommMonoid M] (nb bs K : ℕ) (hK : nb * bs = K) (g : Fin K → M) (G : ℕ → M)
    (idx : Fin nb → Fin bs → Fin K) (hidx : ∀ s kk, (idx s kk).val = s.val * bs + kk.val)
    (hG : ∀ s : Fin nb, G s.val = ∑ kk : Fin bs, g (idx s kk)) :
    ∑ s ∈ Finset.range nb, G s = ∑ k, g k := by
  subst hK
  rw [Finset.sum_range]
  refine (Finset.sum_congr rfl fun s _ => hG s).trans ?_
  rw [← Fintype.sum_prod_type' (f := fun (a : Fin nb) (b : Fin bs) => g (idx a b))]
  rw [← Equiv.sum_comp finProdFinEquiv g]
  refine Finset.sum_congr rfl fun p _ => congrArg g (Fin.ext ?_)
  rw [hidx]
  simp only [finProdFinEquiv, Equiv.coe_fn_mk]
  ring

/-- On a first reduction block the run of points summed so far is the point itself. -/
theorem range_first (f : ℕ → EReal) (n : ℕ) (h0 : n % 4 = 0) :
    ∑ s ∈ Finset.range (n % 4 + 1), f (n - n % 4 + s) = f n := by
  rw [h0, Finset.sum_range_one]
  rfl

/-- Off a first reduction block the run is the previous point's run and the point itself. -/
theorem range_step (f : ℕ → EReal) (n : ℕ) (h0 : ¬(n + 1) % 4 = 0) :
    ∑ s ∈ Finset.range ((n + 1) % 4 + 1), f (n + 1 - (n + 1) % 4 + s)
      = ∑ s ∈ Finset.range (n % 4 + 1), f (n - n % 4 + s) + f (n + 1) := by
  have e1 : (n + 1) % 4 = n % 4 + 1 := by omega
  have e2 : n + 1 - (n % 4 + 1) = n - n % 4 := by omega
  have e3 : n - n % 4 + (n % 4 + 1) = n + 1 := by omega
  rw [e1, e2, Finset.sum_range_succ, e3]

/-! ## The accumulator after every point -/

variable (V : (c : Dev nD) → (b : Ref sig .tc) → Buf (Elt Ideal) ((c : Thread nD τ).loc b))

/-- What point `p` adds to the accumulator at entry (r, cc): its block product's entry (zero past the grid, where no
    point is). -/
def addend (c : Dev nD) (p : ℕ) (r : Fin 2048) (cc : Fin 1024) : EReal :=
  if h : p < cfg0.N then blockProd (iblk V c 0 ⟨p, h⟩) (iblk V c 1 ⟨p, h⟩) r cc else 0

theorem addend_of_lt (c : Dev nD) (p : ℕ) (h : p < cfg0.N) (r : Fin 2048) (cc : Fin 1024) :
    addend V c p r cc = blockProd (iblk V c 0 ⟨p, h⟩) (iblk V c 1 ⟨p, h⟩) r cc := by
  unfold addend; rw [dif_pos h]

/-- After point `n` the accumulator holds, at every entry, the sum of the block products of the points from the first
    reduction block of `n`'s run up to `n`: by induction on the point, a first block resetting to zero and every
    other block adding to what the point before left. -/
theorem acc_eq (c : Dev nD) : ∀ (n : ℕ) (h : n < cfg0.N) (r : Fin 2048) (cc : Fin 1024),
    (((outsAt V c n h).2 : Vec Ideal S2048x1024 .f32) (ix2 r cc) : EReal)
      = ∑ s ∈ Finset.range (n % 4 + 1), addend V c (n - n % 4 + s) r cc
  | 0, h, r, cc => by
    refine Eq.trans ?_ ((range_first (fun p => addend V c p r cc) 0 (Nat.zero_mod 4)).trans (addend_of_lt V c 0 h r cc)).symm
    show (((stepAt V c ⟨0, h⟩ (VS.read (Elt Ideal) VS.junk)).2 : Vec Ideal S2048x1024 .f32) (ix2 r cc) : EReal) = _
    rw [stepAt_A V c ⟨0, h⟩ _ (Nat.zero_mod 4)]
    dsimp only
    rw [soutA_eq]
    refine (pay2_apply (k0_pay1 (F := Ideal)) (iblk V c 0 ⟨0, h⟩) (iblk V c 1 ⟨0, h⟩) r cc).trans ?_
    rw [pay1_apply, zero_add]
  | n + 1, h, r, cc => by
    have hprev := acc_eq c n (Nat.lt_of_succ_lt h) r cc
    show (((stepAt V c ⟨n + 1, h⟩ (outsAt V c n (Nat.lt_of_succ_lt h)).2).2 : Vec Ideal S2048x1024 .f32) (ix2 r cc) : EReal) = _
    by_cases h0 : (n + 1) % 4 = 0
    · refine Eq.trans ?_ ((range_first (fun p => addend V c p r cc) (n + 1) h0).trans (addend_of_lt V c (n + 1) h r cc)).symm
      rw [stepAt_A V c ⟨n + 1, h⟩ _ h0]
      dsimp only
      rw [soutA_eq]
      refine (pay2_apply (k0_pay1 (F := Ideal)) (iblk V c 0 ⟨n + 1, h⟩) (iblk V c 1 ⟨n + 1, h⟩) r cc).trans ?_
      rw [pay1_apply, zero_add]
    · refine Eq.trans ?_ (range_step (fun p => addend V c p r cc) n h0).symm
      show _ = (∑ s ∈ Finset.range (n % 4 + 1), addend V c (n - n % 4 + s) r cc) + addend V c (n + 1) r cc
      rw [addend_of_lt V c (n + 1) h, ← hprev]
      by_cases h1 : (n + 1) % 4 = 3
      · rw [stepAt_C V c ⟨n + 1, h⟩ _ h0 h1]
        dsimp only
        rw [soutC_eq]
        exact pay2_apply (outsAt V c n (Nat.lt_of_succ_lt h)).2 (iblk V c 0 ⟨n + 1, h⟩) (iblk V c 1 ⟨n + 1, h⟩) r cc
      · rw [stepAt_B V c ⟨n + 1, h⟩ _ h0 h1]
        dsimp only
        rw [soutB_eq]
        exact pay2_apply (outsAt V c n (Nat.lt_of_succ_lt h)).2 (iblk V c 0 ⟨n + 1, h⟩) (iblk V c 1 ⟨n + 1, h⟩) r cc

/-- The activations and the weight table as the region finds them, entry by entry. -/
def actArr (c : Dev nD) : Fin 8192 → Fin 4096 → EReal := fun n k => V c main_call0_v0 (ix2 n k)
def wtArr (c : Dev nD) : Fin 4096 → Fin 8192 → EReal := fun k h => V c main_call0_v17 (ix2 k h)

/-- On a last reduction block the four block sums are the whole contraction: entry (r, cc) of the accumulator is row
    `2048 i + r` of the activations against column `1024 j + cc` of the weights, over all 4096 positions. -/
theorem acc_last (c : Dev nD) (t : Fin cfg0.N) (h3 : t.val % 4 = 3) (r : Fin 2048) (cc : Fin 1024) (n : Fin 8192) (h : Fin 8192)
    (hn : n.val = t.val / 32 * 2048 + r.val) (hh : h.val = t.val / 4 % 8 * 1024 + cc.val) :
    (((outsAt V c t.val t.isLt).2 : Vec Ideal S2048x1024 .f32) (ix2 r cc) : EReal)
      = ∑ k : Fin 4096, actArr V c n k * wtArr V c k h := by
  have hN : cfg0.N = 128 := N_0
  have ht : t.val < 128 := lt_of_lt_of_eq t.isLt hN
  rw [acc_eq V c t.val t.isLt r cc, h3]
  show ∑ s ∈ Finset.range 4, addend V c (t.val - 3 + s) r cc = _
  refine sum_blocks 4 1024 4096 rfl
    (fun k : Fin 4096 => actArr V c n k * wtArr V c k h)
    (fun s => addend V c (t.val - 3 + s) r cc)
    (fun s kk => ⟨s.val * 1024 + kk.val, by have := s.isLt; have := kk.isLt; omega⟩) (fun _ _ => rfl) (fun s => ?_)
  have hs : s.val < 4 := s.isLt
  have hp : t.val - 3 + s.val < cfg0.N := lt_of_lt_of_eq (by omega : t.val - 3 + s.val < 128) hN.symm
  show addend V c (t.val - 3 + s.val) r cc = _
  rw [addend_of_lt V c _ hp]
  unfold blockProd
  refine Finset.sum_congr rfl fun kk _ => ?_
  have hkk : kk.val < 1024 := kk.isLt
  exact congrArg₂ (fun a b : EReal => a * b)
    (iblk0_apply V c ⟨t.val - 3 + s.val, hp⟩ r kk n ⟨s.val * 1024 + kk.val, by omega⟩ (by dsimp only; omega) (by dsimp only; omega))
    (iblk1_apply V c ⟨t.val - 3 + s.val, hp⟩ kk cc ⟨s.val * 1024 + kk.val, by omega⟩ h (by dsimp only; omega) (by dsimp only; omega))

end Cert.KernelIdeal.Reg0Val

end
-- ==== Proof.KI0ValFinal.lean ====
/-
  Region 0 (layer 1): the value of the region, over the extended reals.

  A point writes its output block back exactly on a last reduction block. There the output buffer holds, at entry
  (r, cc), the finished accumulator's entry times the scale, plus the bias entry, rectified; the finished accumulator
  is the full contraction of row 2048 i + r of the activations with column 1024 j + cc of the weight table. That is
  the specification's rectified layer at (2048 i + r, 1024 j + cc), which is where entry (r, cc) of output block
  (i, j) sits in the output array. Every entry of the output array lies in the block of exactly such a point (row n,
  column h: i = n / 2048, j = h / 1024, k = 3), so after the region the output array is the layer, entry by entry.
-/
import proofs.«109880_j20693152432262_2_alg».proof.Proof.KI0ValAcc
import proofs.«109880_j20693152432262_2_alg».proof.Proof.Spec

set_option maxRecDepth 16384

noncomputable section

namespace Cert.KernelIdeal.Reg0Val

open Cert.KernelIdeal Cert.KernelIdeal.Gen Cert.KernelIdeal.Reg0
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The scale and the bias row as the region finds them. -/
def scaleVal (c : Dev nD) : EReal := V c main_call0_v16 (ix2 (0 : Fin 1) (0 : Fin 1))
def biasArr (c : Dev nD) : Fin 8192 → EReal := fun h => V c main_call0_v18 (ix2 (0 : Fin 1) h)

/-- The layer's result as one function of the arrays the region finds: the rectified layer of the specification. -/
def G (c : Dev nD) : S8192x8192.Idx → EReal := fun j =>
  Cert.Spec.layer true (actArr V c) (wtArr V c) (scaleVal V c) (biasArr V c) (j 0) (j 1)

/-! ## What a last reduction block leaves in the output buffer -/

/-- On a last reduction block the output buffer holds the output store's value of the finished accumulator. -/
theorem out_eq (c : Dev nD) (t : Fin cfg0.N) (h3 : t.val % 4 = 3) :
    (outsAt V c t.val t.isLt).1 = k0_pay3 (outsAt V c t.val t.isLt).2 (iblk V c 3 t) (iblk V c 2 t) := by
  have h0 : ¬t.val % 4 = 0 := by omega
  have hz : t.val ≠ 0 := fun e => by rw [e] at h3; exact absurd h3 (by decide)
  rw [outsAt_pos V c t hz, stepAt_C V c t _ h0 h3]
  dsimp only
  rw [outC_eq, soutC_eq]

/-- Entry (r, cc) of that block is the layer at row `2048 i + r`, column `1024 j + cc`. -/
theorem out_apply (c : Dev nD) (t : Fin cfg0.N) (h3 : t.val % 4 = 3) (r : Fin 2048) (cc : Fin 1024) (n h : Fin 8192)
    (hn : n.val = t.val / 32 * 2048 + r.val) (hh : h.val = t.val / 4 % 8 * 1024 + cc.val) :
    (((outsAt V c t.val t.isLt).1 : Vec Ideal S2048x1024 .bf16) (ix2 r cc) : EReal)
      = Cert.Spec.layer true (actArr V c) (wtArr V c) (scaleVal V c) (biasArr V c) n h := by
  refine (congrFun (out_eq V c t h3) (ix2 r cc)).trans ?_
  refine (pay3_apply (outsAt V c t.val t.isLt).2 (iblk V c 3 t) (iblk V c 2 t) r cc).trans ?_
  rw [acc_last V c t h3 r cc n h hn hh, iblk3_apply V c t, iblk2_apply V c t cc h hh]
  unfold Cert.Spec.layer Cert.Spec.affine
  rw [if_pos rfl]
  rfl

/-- The same at any index of the block, the array index being where the block's index sits in the array. -/
theorem out_at (c : Dev nD) (t : Fin cfg0.N) (h3 : t.val % 4 = 3) (y : S2048x1024.Idx) :
    (((outsAt V c t.val t.isLt).1 : Vec Ideal S2048x1024 .bf16) y : EReal) = G V c (((cfg0.win 4).blk t).view.emb y) := by
  obtain ⟨-, -, -, -, -, -, -, -, e8, e9⟩ := idx_facts t
  obtain ⟨r, cc, rfl⟩ : ∃ (r : Fin 2048) (cc : Fin 1024), y = ix2 r cc := ⟨y 0, y 1, eq_ix2 y⟩
  unfold G
  refine out_apply V c t h3 r cc _ _ ?_ ?_
  · show win0_4.index t (0 : Fin 2) * 2048 + 1 * r.val = t.val / 32 * 2048 + r.val
    rw [e8]; omega
  · show win0_4.index t (1 : Fin 2) * 1024 + 1 * cc.val = t.val / 4 % 8 * 1024 + cc.val
    rw [e9]; omega

/-! ## From blocks to the array -/

/-- What a point that writes back writes is its block of `G`. -/
theorem flushed_eq (c : Dev nD) (t : Fin cfg0.N) (hf : (cfg0.win 4).flush t = true) :
    (dat V c).flushed 4 t = ((cfg0.win 4).blk t).view.read (Elt Ideal) (G V c) := by
  have h3 : t.val % 4 = 3 := (flush0_4 t).mp hf
  show (cfg0.win 4).cut (grid0.coords t) ((dat V c).after 4 t) = _
  rw [after_4]
  funext y
  exact out_at V c t h3 y

/-- An index of the array is in point `t`'s block iff each coordinate is in the block's range on its axis. -/
theorem mem_blk (t : Fin cfg0.N) (i : S8192x8192.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_call0_v19).slice (win0_4.rect t)).set ↔ _
  rw [View.set_slice_whole, Rect.mem_set_unit]
  exact Iff.rfl

/-- Every entry of the output array is in the block of a point that writes back: row `n`, column `h` in the block of the
    last reduction block of row block `n / 2048` and column block `h / 1024`. -/
theorem cover (i : S8192x8192.Idx) : ∃ t : Fin cfg0.N, (cfg0.win 4).flush t = true ∧ i ∈ ((cfg0.win 4).blk t).view.set := by
  have hN : cfg0.N = 128 := N_0
  have hi0 : (i 0).val < 8192 := (i 0).isLt
  have hi1 : (i 1).val < 8192 := (i 1).isLt
  have hp : (i 0).val / 2048 * 32 + (i 1).val / 1024 * 4 + 3 < cfg0.N :=
    lt_of_lt_of_eq (by omega : (i 0).val / 2048 * 32 + (i 1).val / 1024 * 4 + 3 < 128) hN.symm
  obtain ⟨-, -, -, -, -, -, -, -, e8, e9⟩ := idx_facts ⟨(i 0).val / 2048 * 32 + (i 1).val / 1024 * 4 + 3, hp⟩
  dsimp only at e8 e9
  refine ⟨⟨(i 0).val / 2048 * 32 + (i 1).val / 1024 * 4 + 3, hp⟩, (flush0_4 _).mpr (by dsimp only; omega), ?_⟩
  rw [mem_blk]
  intro a
  match a with
  | ⟨0, _⟩ =>
    show win0_4.index ⟨(i 0).val / 2048 * 32 + (i 1).val / 1024 * 4 + 3, hp⟩ (0 : Fin 2) * 2048 ≤ (i 0).val
      ∧ (i 0).val < win0_4.index ⟨(i 0).val / 2048 * 32 + (i 1).val / 1024 * 4 + 3, hp⟩ (0 : Fin 2) * 2048 + 2048
    rw [e8]; omega
  | ⟨1, _⟩ =>
    show win0_4.index ⟨(i 0).val / 2048 * 32 + (i 1).val / 1024 * 4 + 3, hp⟩ (1 : Fin 2) * 1024 ≤ (i 1).val
      ∧ (i 1).val < win0_4.index ⟨(i 0).val / 2048 * 32 + (i 1).val / 1024 * 4 + 3, hp⟩ (1 : Fin 2) * 1024 + 1024
    rw [e9]; omega

/-- The output array after the region is `G`. -/
theorem final_G (c : Dev nD) : (dat V c).arrAt 4 cfg0.N = G V c :=
  (dat V c).arrAt_eq_of_cover 4 (G V c) (fun t hf => flushed_eq V c t hf) cover

/-- THE VALUE OF THE REGION: after it the output array holds, at row `n` and column `h`, the rectified layer of the
    specification of the activations, the weight table, the scale and the bias row the region found. -/
theorem final (c : Dev nD) :
    ((dat (F := Ideal) V c).arrAt 4 cfg0.N : S8192x8192.Idx → EReal)
      = fun j => Cert.Spec.layer true (fun (n : Fin 8192) (k : Fin 4096) => V c main_call0_v0 (ix2 n k))
          (fun (k : Fin 4096) (h : Fin 8192) => V c main_call0_v17 (ix2 k h)) (V c main_call0_v16 (ix2 (0 : Fin 1) (0 : Fin 1)))
          (fun (h : Fin 8192) => V c main_call0_v18 (ix2 (0 : Fin 1) h)) (j 0) (j 1) :=
  final_G V c

end Cert.KernelIdeal.Reg0Val

end
-- ==== Proof.KI1ValPieces.lean ====
/-
  Region 1 (layer 2): what each of the body's three runs leaves in the buffers it stores into, as a pure term of the
  blocks it loaded.

  The body stores whole blocks only, so each buffer's final contents are the payload of the last store into it, and
  a load that follows a store of the same buffer reads that store's payload back:
  * on a first reduction block the accumulator ends at the block product added to the zero block;
  * on every other block it ends at the block product added to what it held (`xs`);
  * on a last reduction block the output buffer ends at the scaled, biased (and rectified) accumulator.
  Everything here holds for any float instance.
-/
import proofs.«109880_j20693152432262_2_alg».proof.Proof.KI1Frame
import Idealize.ShloMosaic.Lib.Pipeline.Value
import Idealize.ShloMosaic.Lib.Tactic

set_option maxRecDepth 16384

noncomputable section

namespace Cert.KernelIdeal.Reg1Val

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a whole-block access, as the constant function. -/
theorem hz : (![0, 0] : Fin 2 → Nat) = fun _ => 0 := funext fun a => by fin_cases a <;> rfl

/-! ## The three runs on any whole memrefs -/

/-- First reduction block: the accumulator is zeroed, read back, and left at the zero block plus the block product. -/
theorem canonA (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    View.canon (kernelRunA (F := F) c i arg3 harg3 arg4 harg4 arg5 harg5 arg6 harg6 arg7 harg7 arg8 harg8 hc0 hc1 x0 x1 x2 x3).1
      = k1_pay2 (k1_pay1 (F := F)) x0 x1 := by
  unfold kernelRunA
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz,
    View.ld_unit_zero (S := S1024x1024) hz]

/-- Middle reduction block: the accumulator, found at `xs`, is left at `xs` plus the block product. -/
theorem canonB (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    View.canon (kernelRunB (F := F) c i arg3 harg3 arg4 harg4 arg5 harg5 arg6 harg6 arg7 harg7 arg8 harg8 hc0 hc1 x0 x1 x2 x3 xs).1
      = k1_pay2 xs x0 x1 := by
  unfold kernelRunB
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the accumulator: as on a middle block. -/
theorem canonC_acc (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).2.1
      = k1_pay2 xs x0 x1 := by
  unfold kernelRunC
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the output buffer: the finished accumulator read back, scaled, biased and rectified. -/
theorem canonC_out (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .bf16) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).1
      = k1_pay3 (k1_pay2 xs x0 x1) x3 x2 := by
  unfold kernelRunC
  dsimp only
  sl_unfold_words
  rw [View.canon_unit_zero (S := S2048x1024) hz, View.readCov_unit_zero (S := S2048x1024) _ hz]
  simp only [View.readAt_eq_ld, harg3.read_unread, harg4.read_unread, harg5.read_unread, harg6.read_unread, harg8.read_unread,
    View.ld_unit_zero (S := S2048x1024) hz, View.ld_unit_zero (S := S1024x1024) hz, View.ld_unit_zero (S := S1x1024) hz,
    View.ld_unit_zero (S := S1x1) hz]

/-! ## The same at a grid point, on the point's staging buffers and input blocks -/

section AtPoint

variable (V : (c : Dev nD) → (b : Ref sig .tc) → Buf (Elt F) ((c : Thread nD τ).loc b))

theorem soutA_eq (c : Dev nD) (t : Fin cfg1.N) (h0 : t.val % 8 = 0) :
    soutA V c t h0 = k1_pay2 (k1_pay1 (F := F)) (iblk V c 0 t) (iblk V c 1 t) := by
  unfold soutA
  rw [View.read_writes_junk_eq_canon]
  exact canonA c (grid1.coords t) (ms0 t) (hs0 t) (ms1 t) (hs1 t) (ms2 t) (hs2 t) (ms3 t) (hs3 t) (ms4 t) (hs4 t) scM
    (Memref.isWhole_whole _) ((hcondFirst t).mpr h0) (notLast_of_first t h0) (iblk V c 0 t) (iblk V c 1 t) (iblk V c 2 t) (iblk V c 3 t)

theorem soutB_eq (c : Dev nD) (t : Fin cfg1.N) (h0 : ¬t.val % 8 = 0) (h1 : ¬t.val % 8 = 7) (xs : Vec F S2048x1024 .f32) :
    soutB V c t h0 h1 xs = k1_pay2 xs (iblk V c 0 t) (iblk V c 1 t) := by
  unfold soutB
  rw [View.read_writes_junk_eq_canon]
  exact canonB c (grid1.coords t) (ms0 t) (hs0 t) (ms1 t) (hs1 t) (ms2 t) (hs2 t) (ms3 t) (hs3 t) (ms4 t) (hs4 t) scM
    (Memref.isWhole_whole _) (fun h => h0 ((hcondFirst t).mp h)) (fun h => h1 ((hcondLast t).mp h)) (iblk V c 0 t) (iblk V c 1 t) (iblk V c 2 t) (iblk V c 3 t) xs

theorem soutC_eq (c : Dev nD) (t : Fin cfg1.N) (h0 : ¬t.val % 8 = 0) (h1 : t.val % 8 = 7) (xs : Vec F S2048x1024 .f32) :
    soutC V c t h0 h1 xs = k1_pay2 xs (iblk V c 0 t) (iblk V c 1 t) := by
  unfold soutC
  rw [View.read_writes_junk_eq_canon]
  exact canonC_acc c (grid1.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

theorem outC_eq (c : Dev nD) (t : Fin cfg1.N) (h0 : ¬t.val % 8 = 0) (h1 : t.val % 8 = 7) (xs : Vec F S2048x1024 .f32) :
    outC V c t h0 h1 xs = k1_pay3 (k1_pay2 xs (iblk V c 0 t) (iblk V c 1 t)) (iblk V c 3 t) (iblk V c 2 t) := by
  unfold outC
  rw [View.read_writes_junk_eq_canon]
  exact canonC_out c (grid1.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

end AtPoint

end Cert.KernelIdeal.Reg1Val

end
-- ==== Proof.KI1ValPay.lean ====
/-
  Region 1 (layer 2): the body's three stored values read at one entry, over the extended reals.

  The zero block reads 0 everywhere. The accumulating store at entry (r, cc) is what the accumulator held there plus
  the entry of the block product, row r of the activation block against column cc of the weight block: the matrix
  unit's product into a zero accumulator is the plain sum over the contracted coordinate. The output store at
  (r, cc) is the accumulator's entry times the single scale, plus the bias row's entry cc, then the positive part;
  the change of float format on the way out is the identity on the extended reals.
-/
import proofs.«109880_j20693152432262_2_alg».proof.Proof.KI1Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg1Val

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## The block product's operand indices -/

theorem lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-! ## The three payloads at an entry -/

/-- Entry (r, cc) of the product of a row block of activations with a weight block: row r against column cc. -/
def blockProd (x0 : Vec Ideal S2048x1024 .bf16) (x1 : Vec Ideal S1024x1024 .bf16) (r : Fin 2048) (cc : Fin 1024) : EReal :=
  ∑ kk : Fin 1024, (x0 (ix2 r kk) : EReal) * (x1 (ix2 kk cc) : EReal)

/-- The block the accumulator is reset to is zero everywhere. -/
theorem pay1_apply (r : Fin 2048) (cc : Fin 1024) : (k1_pay1 (F := Ideal) (ix2 r cc) : EReal) = 0 := by
  unfold k1_pay1
  rw [shapeCast_self]
  exact Ideal.ofBits_zero_f32

/-- The accumulating store at an entry: what the accumulator held there plus the block product's entry. -/
theorem pay2_apply (xs : Vec Ideal S2048x1024 .f32) (x0 : Vec Ideal S2048x1024 .bf16) (x1 : Vec Ideal S1024x1024 .bf16)
    (r : Fin 2048) (cc : Fin 1024) :
    (k1_pay2 (F := Ideal) xs x0 x1 (ix2 r cc) : EReal) = xs (ix2 r cc) + blockProd x0 x1 r cc := by
  unfold k1_pay2
  rw [shapeCast_self, shapeCast_self, shapeCast_self]
  show (xs (ix2 r cc) : EReal) + FloatOps.matmul dot_S2048x1024_S1024x1024_S2048x1024_1_0_0_1_n_n none x0 x1 (constant (F := Ideal) S2048x1024 .f32 0x00000000#32) (ix2 r cc) = _
  refine congrArg (fun z : EReal => (xs (ix2 r cc) : EReal) + z) ?_
  refine (Ideal.matmul_constant_zero_apply (φ₁ := .bf16) (φ₂ := .bf16) dot_S2048x1024_S1024x1024_S2048x1024_1_0_0_1_n_n none x0 x1 (ix2 r cc)).trans ?_
  unfold blockProd
  rw [← Equiv.sum_comp (contrEquiv1 dot_S2048x1024_S1024x1024_S2048x1024_1_0_0_1_n_n 1024 rfl rfl).symm]
  refine Finset.sum_congr rfl fun kk _ => ?_
  have hk := contrEquiv1_symm_val dot_S2048x1024_S1024x1024_S2048x1024_1_0_0_1_n_n 1024 rfl rfl kk
  have el : dot_S2048x1024_S1024x1024_S2048x1024_1_0_0_1_n_n.lhsIdx (ix2 r cc) ((contrEquiv1 dot_S2048x1024_S1024x1024_S2048x1024_1_0_0_1_n_n 1024 rfl rfl).symm kk) = ix2 r kk := funext fun a => Fin.ext (by
    match a with
    | ⟨0, _⟩ => exact lhs_0 _ _
    | ⟨1, _⟩ => exact (lhs_1 _ _).trans hk)
  have er : dot_S2048x1024_S1024x1024_S2048x1024_1_0_0_1_n_n.rhsIdx (ix2 r cc) ((contrEquiv1 dot_S2048x1024_S1024x1024_S2048x1024_1_0_0_1_n_n 1024 rfl rfl).symm kk) = ix2 kk cc := funext fun a => Fin.ext (by
    match a with
    | ⟨0, _⟩ => exact (rhs_0 _ _).trans hk
    | ⟨1, _⟩ => exact rhs_1 _ _)
  rw [el, er]

/-- The output store at an entry: the accumulator's entry times the one scale, plus the bias row's entry, rectified. -/
theorem pay3_apply (acc : Vec Ideal S2048x1024 .f32) (a : Vec Ideal S1x1 .f32) (b : Vec Ideal S1x1024 .f32)
    (r : Fin 2048) (cc : Fin 1024) :
    (k1_pay3 (F := Ideal) acc a b (ix2 r cc) : EReal)
      = max ((acc (ix2 r cc) : EReal) * a (ix2 (0 : Fin 1) (0 : Fin 1)) + b (ix2 (0 : Fin 1) cc)) 0 := by
  unfold k1_pay3
  rw [shapeCast_self, shapeCast_self]
  show max ((acc (ix2 r cc) : EReal) * broadcastTo S2048x1024 a _ (ix2 r cc) + broadcastTo S2048x1024 b _ (ix2 r cc)) (Ideal.ofBits .f32 0x00000000#32) = _
  rw [broadcastTo_1b_ab_apply b _ r cc, Ideal.ofBits_zero_f32]
  refine congrArg (fun z : EReal => max ((acc (ix2 r cc) : EReal) * z + b (ix2 (0 : Fin 1) cc)) 0) ?_
  exact broadcastTo_apply a _ (ix2 r cc) (ix2 (0 : Fin 1) (0 : Fin 1)) (fun ax => by
    match ax with
    | ⟨0, _⟩ => rfl
    | ⟨1, _⟩ => rfl)

end Cert.KernelIdeal.Reg1Val

end
-- ==== Proof.KI1ValBlocks.lean ====
/-
  Region 1 (layer 2): where the entries of a point's input blocks sit in their arrays.

  The grid is (row block i, column block j, reduction block k) with extents (4, 8, 8), walked in row-major order, so
  point t has i = t / 64, j = (t / 8) mod 8, k = t mod 8. An entry of a block sits in the array, on each axis, at the
  block index times the block's size plus its coordinate inside the block. These hold for any float instance.
-/
import proofs.«109880_j20693152432262_2_alg».proof.Proof.KI1Frame
import Idealize.ShloMosaic.Lib.ValueIdx
import Idealize.ShloMosaic.Lib.Pipeline.Value

set_option maxRecDepth 16384

noncomputable section

namespace Cert.KernelIdeal.Reg1Val

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat Cfg Window)
open Idealize.ShloMosaic.ValueIdx

/-! ## The windows' block indices at a point -/

/-- Point `t = 64 i + 8 j + k` of the (4, 8, 8) grid reads activation block (i, k), weight block (k, j), bias block
    (0, j) and the one scale, and its output block is (i, j). -/
theorem idx_facts : ∀ t : Fin cfg1.N,
    win1_0.index t (0 : Fin 2) = t.val / 64 ∧ win1_0.index t (1 : Fin 2) = t.val % 8
    ∧ win1_1.index t (0 : Fin 2) = t.val % 8 ∧ win1_1.index t (1 : Fin 2) = t.val / 8 % 8
    ∧ win1_2.index t (0 : Fin 2) = 0 ∧ win1_2.index t (1 : Fin 2) = t.val / 8 % 8
    ∧ win1_3.index t (0 : Fin 2) = 0 ∧ win1_3.index t (1 : Fin 2) = 0
    ∧ win1_4.index t (0 : Fin 2) = t.val / 64 ∧ win1_4.index t (1 : Fin 2) = t.val / 8 % 8 :=
  (by decide +kernel : ∀ t : Fin grid1.N, _)

/-! ## An input block's entry is an entry of its array -/

section Blocks

variable {F : FTy → Type} [FloatOps F]
variable (V : (c : Dev nD) → (b : Ref sig .tc) → Buf (Elt F) ((c : Thread nD τ).loc b))

/-- Entry (r, kk) of the activation block at `t` is entry (2048 i + r, 1024 k + kk) of the activations. -/
theorem iblk0_apply (c : Dev nD) (t : Fin cfg1.N) (r : Fin 2048) (kk : Fin 1024) (n : Fin 8192) (k : Fin 8192)
    (hn : n.val = t.val / 64 * 2048 + r.val) (hk : k.val = t.val % 8 * 1024 + kk.val) :
    (iblk V c 0 t : Vec F S2048x1024 .bf16) (ix2 r kk) = (V c main_call0_v19 : S8192x8192.Idx → Elt F .bf16) (ix2 n k) := by
  obtain ⟨e0, e1, -⟩ := idx_facts t
  unfold iblk
  rw [View.read_apply]
  show V c main_call0_v19 _ = V c main_call0_v19 _
  refine congrArg (V c main_call0_v19) (funext fun a => Fin.ext ?_)
  match a with
  | ⟨0, _⟩ => show win1_0.index t 0 * 2048 + 1 * r.val = n.val; rw [e0, hn]; omega
  | ⟨1, _⟩ => show win1_0.index t 1 * 1024 + 1 * kk.val = k.val; rw [e1, hk]; omega

/-- Entry (kk, cc) of the weight block at `t` is entry (1024 k + kk, 1024 j + cc) of the weights. -/
theorem iblk1_apply (c : Dev nD) (t : Fin cfg1.N) (kk : Fin 1024) (cc : Fin 1024) (k : Fin 8192) (h : Fin 8192)
    (hk : k.val = t.val % 8 * 1024 + kk.val) (hh : h.val = t.val / 8 % 8 * 1024 + cc.val) :
    (iblk V c 1 t : Vec F S1024x1024 .bf16) (ix2 kk cc) = (V c main_call0_v36 : S8192x8192.Idx → Elt F .bf16) (ix2 k h) := by
  obtain ⟨-, -, e2, e3, -⟩ := idx_facts t
  unfold iblk
  rw [View.read_apply]
  show V c main_call0_v36 _ = V c main_call0_v36 _
  refine congrArg (V c main_call0_v36) (funext fun a => Fin.ext ?_)
  match a with
  | ⟨0, _⟩ => show win1_1.index t 0 * 1024 + 1 * kk.val = k.val; rw [e2, hk]; omega
  | ⟨1, _⟩ => show win1_1.index t 1 * 1024 + 1 * cc.val = h.val; rw [e3, hh]; omega

/-- Entry (0, cc) of the bias block at `t` is entry (0, 1024 j + cc) of the bias row. -/
theorem iblk2_apply (c : Dev nD) (t : Fin cfg1.N) (cc : Fin 1024) (h : Fin 8192)
    (hh : h.val = t.val / 8 % 8 * 1024 + cc.val) :
    (iblk V c 2 t : Vec F S1x1024 .f32) (ix2 (0 : Fin 1) cc) = (V c main_call0_v37 : S1x8192.Idx → Elt F .f32) (ix2 (0 : Fin 1) h) := by
  obtain ⟨-, -, -, -, e4, e5, -⟩ := idx_facts t
  unfold iblk
  rw [View.read_apply]
  show V c main_call0_v37 _ = V c main_call0_v37 _
  refine congrArg (V c main_call0_v37) (funext fun a => Fin.ext ?_)
  match a with
  | ⟨0, _⟩ => show win1_2.index t 0 * 1 + 1 * 0 = 0; rw [e4]
  | ⟨1, _⟩ => show win1_2.index t 1 * 1024 + 1 * cc.val = h.val; rw [e5, hh]; omega

/-- The scale's block at any point is the scale. -/
theorem iblk3_apply (c : Dev nD) (t : Fin cfg1.N) :
    (iblk V c 3 t : Vec F S1x1 .f32) (ix2 (0 : Fin 1) (0 : Fin 1)) = (V c main_call0_v35 : S1x1.Idx → Elt F .f32) (ix2 (0 : Fin 1) (0 : Fin 1)) := by
  obtain ⟨-, -, -, -, -, -, e6, e7, -⟩ := idx_facts t
  unfold iblk
  rw [View.read_apply]
  show V c main_call0_v35 _ = V c main_call0_v35 _
  refine congrArg (V c main_call0_v35) (funext fun a => Fin.ext ?_)
  match a with
  | ⟨0, _⟩ => show win1_3.index t 0 * 1 + 1 * 0 = 0; rw [e6]
  | ⟨1, _⟩ => show win1_3.index t 1 * 1 + 1 * 0 = 0; rw [e7]

end Blocks

end Cert.KernelIdeal.Reg1Val

end
-- ==== Proof.KI1ValAcc.lean ====
/-
  Region 1 (layer 2): what the accumulator holds after every grid point, over the extended reals.

  Point t = 64 i + 8 j + k works on reduction block k of output block (i, j). A first reduction block (k = 0) resets
  the accumulator to zero and adds its block product; every later one adds its block product to what the point
  before left. So after point t the accumulator's entry (r, cc) is the sum, over the reduction blocks 0 … k, of the
  entries (r, cc) of their block products — by induction on the point. On a last reduction block (k = 7) the eight
  block sums regroup into the one sum over all 8192 contracted positions of row 2048 i + r of the activations
  against column 1024 j + cc of the weight table: addition on the extended reals is associative and commutative, so
  no finiteness is needed.
-/
import proofs.«109880_j20693152432262_2_alg».proof.Proof.KI1ValPieces
import proofs.«109880_j20693152432262_2_alg».proof.Proof.KI1ValPay
import proofs.«109880_j20693152432262_2_alg».proof.Proof.KI1ValBlocks
import Mathlib.Algebra.BigOperators.Fin
import Mathlib.Logic.Equiv.Fin.Basic

set_option maxRecDepth 16384

noncomputable section

namespace Cert.KernelIdeal.Reg1Val

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## Sums over consecutive blocks -/

/-- A sum over `K = nb * bs` positions is the sum, over the `nb` blocks, of each block's `bs` positions. -/
theorem sum_blocks {M : Type*} [AddCommMonoid M] (nb bs K : ℕ) (hK : nb * bs = K) (g : Fin K → M) (G : ℕ → M)
    (idx : Fin nb → Fin bs → Fin K) (hidx : ∀ s kk, (idx s kk).val = s.val * bs + kk.val)
    (hG : ∀ s : Fin nb, G s.val = ∑ kk : Fin bs, g (idx s kk)) :
    ∑ s ∈ Finset.range nb, G s = ∑ k, g k := by
  subst hK
  rw [Finset.sum_range]
  refine (Finset.sum_congr rfl fun s _ => hG s).trans ?_
  rw [← Fintype.sum_prod_type' (f := fun (a : Fin nb) (b : Fin bs) => g (idx a b))]
  rw [← Equiv.sum_comp finProdFinEquiv g]
  refine Finset.sum_congr rfl fun p _ => congrArg g (Fin.ext ?_)
  rw [hidx]
  simp only [finProdFinEquiv, Equiv.coe_fn_mk]
  ring

/-- On a first reduction block the run of points summed so far is the point itself. -/
theorem range_first (f : ℕ → EReal) (n : ℕ) (h0 : n % 8 = 0) :
    ∑ s ∈ Finset.range (n % 8 + 1), f (n - n % 8 + s) = f n := by
  rw [h0, Finset.sum_range_one]
  rfl

/-- Off a first reduction block the run is the previous point's run and the point itself. -/
theorem range_step (f : ℕ → EReal) (n : ℕ) (h0 : ¬(n + 1) % 8 = 0) :
    ∑ s ∈ Finset.range ((n + 1) % 8 + 1), f (n + 1 - (n + 1) % 8 + s)
      = ∑ s ∈ Finset.range (n % 8 + 1), f (n - n % 8 + s) + f (n + 1) := by
  have e1 : (n + 1) % 8 = n % 8 + 1 := by omega
  have e2 : n + 1 - (n % 8 + 1) = n - n % 8 := by omega
  have e3 : n - n % 8 + (n % 8 + 1) = n + 1 := by omega
  rw [e1, e2, Finset.sum_range_succ, e3]

/-! ## The accumulator after every point -/

variable (V : (c : Dev nD) → (b : Ref sig .tc) → Buf (Elt Ideal) ((c : Thread nD τ).loc b))

/-- What point `p` adds to the accumulator at entry (r, cc): its block product's entry (zero past the grid, where no
    point is). -/
def addend (c : Dev nD) (p : ℕ) (r : Fin 2048) (cc : Fin 1024) : EReal :=
  if h : p < cfg1.N then blockProd (iblk V c 0 ⟨p, h⟩) (iblk V c 1 ⟨p, h⟩) r cc else 0

theorem addend_of_lt (c : Dev nD) (p : ℕ) (h : p < cfg1.N) (r : Fin 2048) (cc : Fin 1024) :
    addend V c p r cc = blockProd (iblk V c 0 ⟨p, h⟩) (iblk V c 1 ⟨p, h⟩) r cc := by
  unfold addend; rw [dif_pos h]

/-- After point `n` the accumulator holds, at every entry, the sum of the block products of the points from the first
    reduction block of `n`'s run up to `n`: by induction on the point, a first block resetting to zero and every
    other block adding to what the point before left. -/
theorem acc_eq (c : Dev nD) : ∀ (n : ℕ) (h : n < cfg1.N) (r : Fin 2048) (cc : Fin 1024),
    (((outsAt V c n h).2 : Vec Ideal S2048x1024 .f32) (ix2 r cc) : EReal)
      = ∑ s ∈ Finset.range (n % 8 + 1), addend V c (n - n % 8 + s) r cc
  | 0, h, r, cc => by
    refine Eq.trans ?_ ((range_first (fun p => addend V c p r cc) 0 (Nat.zero_mod 8)).trans (addend_of_lt V c 0 h r cc)).symm
    show (((stepAt V c ⟨0, h⟩ (VS.read (Elt Ideal) VS.junk)).2 : Vec Ideal S2048x1024 .f32) (ix2 r cc) : EReal) = _
    rw [stepAt_A V c ⟨0, h⟩ _ (Nat.zero_mod 8)]
    dsimp only
    rw [soutA_eq]
    refine (pay2_apply (k1_pay1 (F := Ideal)) (iblk V c 0 ⟨0, h⟩) (iblk V c 1 ⟨0, h⟩) r cc).trans ?_
    rw [pay1_apply, zero_add]
  | n + 1, h, r, cc => by
    have hprev := acc_eq c n (Nat.lt_of_succ_lt h) r cc
    show (((stepAt V c ⟨n + 1, h⟩ (outsAt V c n (Nat.lt_of_succ_lt h)).2).2 : Vec Ideal S2048x1024 .f32) (ix2 r cc) : EReal) = _
    by_cases h0 : (n + 1) % 8 = 0
    · refine Eq.trans ?_ ((range_first (fun p => addend V c p r cc) (n + 1) h0).trans (addend_of_lt V c (n + 1) h r cc)).symm
      rw [stepAt_A V c ⟨n + 1, h⟩ _ h0]
      dsimp only
      rw [soutA_eq]
      refine (pay2_apply (k1_pay1 (F := Ideal)) (iblk V c 0 ⟨n + 1, h⟩) (iblk V c 1 ⟨n + 1, h⟩) r cc).trans ?_
      rw [pay1_apply, zero_add]
    · refine Eq.trans ?_ (range_step (fun p => addend V c p r cc) n h0).symm
      show _ = (∑ s ∈ Finset.range (n % 8 + 1), addend V c (n - n % 8 + s) r cc) + addend V c (n + 1) r cc
      rw [addend_of_lt V c (n + 1) h, ← hprev]
      by_cases h1 : (n + 1) % 8 = 7
      · rw [stepAt_C V c ⟨n + 1, h⟩ _ h0 h1]
        dsimp only
        rw [soutC_eq]
        exact pay2_apply (outsAt V c n (Nat.lt_of_succ_lt h)).2 (iblk V c 0 ⟨n + 1, h⟩) (iblk V c 1 ⟨n + 1, h⟩) r cc
      · rw [stepAt_B V c ⟨n + 1, h⟩ _ h0 h1]
        dsimp only
        rw [soutB_eq]
        exact pay2_apply (outsAt V c n (Nat.lt_of_succ_lt h)).2 (iblk V c 0 ⟨n + 1, h⟩) (iblk V c 1 ⟨n + 1, h⟩) r cc

/-- The activations and the weight table as the region finds them, entry by entry. -/
def actArr (c : Dev nD) : Fin 8192 → Fin 8192 → EReal := fun n k => V c main_call0_v19 (ix2 n k)
def wtArr (c : Dev nD) : Fin 8192 → Fin 8192 → EReal := fun k h => V c main_call0_v36 (ix2 k h)

/-- On a last reduction block the eight block sums are the whole contraction: entry (r, cc) of the accumulator is row
    `2048 i + r` of the activations against column `1024 j + cc` of the weights, over all 8192 positions. -/
theorem acc_last (c : Dev nD) (t : Fin cfg1.N) (h3 : t.val % 8 = 7) (r : Fin 2048) (cc : Fin 1024) (n : Fin 8192) (h : Fin 8192)
    (hn : n.val = t.val / 64 * 2048 + r.val) (hh : h.val = t.val / 8 % 8 * 1024 + cc.val) :
    (((outsAt V c t.val t.isLt).2 : Vec Ideal S2048x1024 .f32) (ix2 r cc) : EReal)
      = ∑ k : Fin 8192, actArr V c n k * wtArr V c k h := by
  have hN : cfg1.N = 256 := N_1
  have ht : t.val < 256 := lt_of_lt_of_eq t.isLt hN
  rw [acc_eq V c t.val t.isLt r cc, h3]
  show ∑ s ∈ Finset.range 8, addend V c (t.val - 7 + s) r cc = _
  refine sum_blocks 8 1024 8192 rfl
    (fun k : Fin 8192 => actArr V c n k * wtArr V c k h)
    (fun s => addend V c (t.val - 7 + s) r cc)
    (fun s kk => ⟨s.val * 1024 + kk.val, by have := s.isLt; have := kk.isLt; omega⟩) (fun _ _ => rfl) (fun s => ?_)
  have hs : s.val < 8 := s.isLt
  have hp : t.val - 7 + s.val < cfg1.N := lt_of_lt_of_eq (by omega : t.val - 7 + s.val < 256) hN.symm
  show addend V c (t.val - 7 + s.val) r cc = _
  rw [addend_of_lt V c _ hp]
  unfold blockProd
  refine Finset.sum_congr rfl fun kk _ => ?_
  have hkk : kk.val < 1024 := kk.isLt
  exact congrArg₂ (fun a b : EReal => a * b)
    (iblk0_apply V c ⟨t.val - 7 + s.val, hp⟩ r kk n ⟨s.val * 1024 + kk.val, by omega⟩ (by dsimp only; omega) (by dsimp only; omega))
    (iblk1_apply V c ⟨t.val - 7 + s.val, hp⟩ kk cc ⟨s.val * 1024 + kk.val, by omega⟩ h (by dsimp only; omega) (by dsimp only; omega))

end Cert.KernelIdeal.Reg1Val

end
-- ==== Proof.KI1ValFinal.lean ====
/-
  Region 1 (layer 2): the value of the region, over the extended reals.

  A point writes its output block back exactly on a last reduction block. There the output buffer holds, at entry
  (r, cc), the finished accumulator's entry times the scale, plus the bias entry, rectified; the finished accumulator
  is the full contraction of row 2048 i + r of the activations with column 1024 j + cc of the weight table. That is
  the specification's rectified layer at (2048 i + r, 1024 j + cc), which is where entry (r, cc) of output block
  (i, j) sits in the output array. Every entry of the output array lies in the block of exactly such a point (row n,
  column h: i = n / 2048, j = h / 1024, k = 7), so after the region the output array is the layer, entry by entry.
-/
import proofs.«109880_j20693152432262_2_alg».proof.Proof.KI1ValAcc
import proofs.«109880_j20693152432262_2_alg».proof.Proof.Spec

set_option maxRecDepth 16384

noncomputable section

namespace Cert.KernelIdeal.Reg1Val

open Cert.KernelIdeal Cert.KernelIdeal.Gen Cert.KernelIdeal.Reg1
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The scale and the bias row as the region finds them. -/
def scaleVal (c : Dev nD) : EReal := V c main_call0_v35 (ix2 (0 : Fin 1) (0 : Fin 1))
def biasArr (c : Dev nD) : Fin 8192 → EReal := fun h => V c main_call0_v37 (ix2 (0 : Fin 1) h)

/-- The layer's result as one function of the arrays the region finds: the rectified layer of the specification. -/
def G (c : Dev nD) : S8192x8192.Idx → EReal := fun j =>
  Cert.Spec.layer true (actArr V c) (wtArr V c) (scaleVal V c) (biasArr V c) (j 0) (j 1)

/-! ## What a last reduction block leaves in the output buffer -/

/-- On a last reduction block the output buffer holds the output store's value of the finished accumulator. -/
theorem out_eq (c : Dev nD) (t : Fin cfg1.N) (h3 : t.val % 8 = 7) :
    (outsAt V c t.val t.isLt).1 = k1_pay3 (outsAt V c t.val t.isLt).2 (iblk V c 3 t) (iblk V c 2 t) := by
  have h0 : ¬t.val % 8 = 0 := by omega
  have hz : t.val ≠ 0 := fun e => by rw [e] at h3; exact absurd h3 (by decide)
  rw [outsAt_pos V c t hz, stepAt_C V c t _ h0 h3]
  dsimp only
  rw [outC_eq, soutC_eq]

/-- Entry (r, cc) of that block is the layer at row `2048 i + r`, column `1024 j + cc`. -/
theorem out_apply (c : Dev nD) (t : Fin cfg1.N) (h3 : t.val % 8 = 7) (r : Fin 2048) (cc : Fin 1024) (n h : Fin 8192)
    (hn : n.val = t.val / 64 * 2048 + r.val) (hh : h.val = t.val / 8 % 8 * 1024 + cc.val) :
    (((outsAt V c t.val t.isLt).1 : Vec Ideal S2048x1024 .bf16) (ix2 r cc) : EReal)
      = Cert.Spec.layer true (actArr V c) (wtArr V c) (scaleVal V c) (biasArr V c) n h := by
  refine (congrFun (out_eq V c t h3) (ix2 r cc)).trans ?_
  refine (pay3_apply (outsAt V c t.val t.isLt).2 (iblk V c 3 t) (iblk V c 2 t) r cc).trans ?_
  rw [acc_last V c t h3 r cc n h hn hh, iblk3_apply V c t, iblk2_apply V c t cc h hh]
  unfold Cert.Spec.layer Cert.Spec.affine
  rw [if_pos rfl]
  rfl

/-- The same at any index of the block, the array index being where the block's index sits in the array. -/
theorem out_at (c : Dev nD) (t : Fin cfg1.N) (h3 : t.val % 8 = 7) (y : S2048x1024.Idx) :
    (((outsAt V c t.val t.isLt).1 : Vec Ideal S2048x1024 .bf16) y : EReal) = G V c (((cfg1.win 4).blk t).view.emb y) := by
  obtain ⟨-, -, -, -, -, -, -, -, e8, e9⟩ := idx_facts t
  obtain ⟨r, cc, rfl⟩ : ∃ (r : Fin 2048) (cc : Fin 1024), y = ix2 r cc := ⟨y 0, y 1, eq_ix2 y⟩
  unfold G
  refine out_apply V c t h3 r cc _ _ ?_ ?_
  · show win1_4.index t (0 : Fin 2) * 2048 + 1 * r.val = t.val / 64 * 2048 + r.val
    rw [e8]; omega
  · show win1_4.index t (1 : Fin 2) * 1024 + 1 * cc.val = t.val / 8 % 8 * 1024 + cc.val
    rw [e9]; omega

/-! ## From blocks to the array -/

/-- What a point that writes back writes is its block of `G`. -/
theorem flushed_eq (c : Dev nD) (t : Fin cfg1.N) (hf : (cfg1.win 4).flush t = true) :
    (dat V c).flushed 4 t = ((cfg1.win 4).blk t).view.read (Elt Ideal) (G V c) := by
  have h3 : t.val % 8 = 7 := (flush1_4 t).mp hf
  show (cfg1.win 4).cut (grid1.coords t) ((dat V c).after 4 t) = _
  rw [after_4]
  funext y
  exact out_at V c t h3 y

/-- An index of the array is in point `t`'s block iff each coordinate is in the block's range on its axis. -/
theorem mem_blk (t : Fin cfg1.N) (i : S8192x8192.Idx) :
    i ∈ ((cfg1.win 4).blk t).view.set ↔ ∀ a : Fin 2, win1_4.index t a * S2048x1024.size a ≤ (i a).val ∧ (i a).val < win1_4.index t a * S2048x1024.size a + S2048x1024.size a := by
  show i ∈ ((View.whole main_call0_v38).slice (win1_4.rect t)).set ↔ _
  rw [View.set_slice_whole, Rect.mem_set_unit]
  exact Iff.rfl

/-- Every entry of the output array is in the block of a point that writes back: row `n`, column `h` in the block of the
    last reduction block of row block `n / 2048` and column block `h / 1024`. -/
theorem cover (i : S8192x8192.Idx) : ∃ t : Fin cfg1.N, (cfg1.win 4).flush t = true ∧ i ∈ ((cfg1.win 4).blk t).view.set := by
  have hN : cfg1.N = 256 := N_1
  have hi0 : (i 0).val < 8192 := (i 0).isLt
  have hi1 : (i 1).val < 8192 := (i 1).isLt
  have hp : (i 0).val / 2048 * 64 + (i 1).val / 1024 * 8 + 7 < cfg1.N :=
    lt_of_lt_of_eq (by omega : (i 0).val / 2048 * 64 + (i 1).val / 1024 * 8 + 7 < 256) hN.symm
  obtain ⟨-, -, -, -, -, -, -, -, e8, e9⟩ := idx_facts ⟨(i 0).val / 2048 * 64 + (i 1).val / 1024 * 8 + 7, hp⟩
  dsimp only at e8 e9
  refine ⟨⟨(i 0).val / 2048 * 64 + (i 1).val / 1024 * 8 + 7, hp⟩, (flush1_4 _).mpr (by dsimp only; omega), ?_⟩
  rw [mem_blk]
  intro a
  match a with
  | ⟨0, _⟩ =>
    show win1_4.index ⟨(i 0).val / 2048 * 64 + (i 1).val / 1024 * 8 + 7, hp⟩ (0 : Fin 2) * 2048 ≤ (i 0).val
      ∧ (i 0).val < win1_4.index ⟨(i 0).val / 2048 * 64 + (i 1).val / 1024 * 8 + 7, hp⟩ (0 : Fin 2) * 2048 + 2048
    rw [e8]; omega
  | ⟨1, _⟩ =>
    show win1_4.index ⟨(i 0).val / 2048 * 64 + (i 1).val / 1024 * 8 + 7, hp⟩ (1 : Fin 2) * 1024 ≤ (i 1).val
      ∧ (i 1).val < win1_4.index ⟨(i 0).val / 2048 * 64 + (i 1).val / 1024 * 8 + 7, hp⟩ (1 : Fin 2) * 1024 + 1024
    rw [e9]; omega

/-- The output array after the region is `G`. -/
theorem final_G (c : Dev nD) : (dat V c).arrAt 4 cfg1.N = G V c :=
  (dat V c).arrAt_eq_of_cover 4 (G V c) (fun t hf => flushed_eq V c t hf) cover

/-- THE VALUE OF THE REGION: after it the output array holds, at row `n` and column `h`, the rectified layer of the
    specification of the activations, the weight table, the scale and the bias row the region found. -/
theorem final (c : Dev nD) :
    ((dat (F := Ideal) V c).arrAt 4 cfg1.N : S8192x8192.Idx → EReal)
      = fun j => Cert.Spec.layer true (fun (n : Fin 8192) (k : Fin 8192) => V c main_call0_v19 (ix2 n k))
          (fun (k : Fin 8192) (h : Fin 8192) => V c main_call0_v36 (ix2 k h)) (V c main_call0_v35 (ix2 (0 : Fin 1) (0 : Fin 1)))
          (fun (h : Fin 8192) => V c main_call0_v37 (ix2 (0 : Fin 1) h)) (j 0) (j 1) :=
  final_G V c

end Cert.KernelIdeal.Reg1Val

end
-- ==== Proof.KI2ValPieces.lean ====
/-
  Region 2 (layer 3): what each of the body's three runs leaves in the buffers it stores into, as a pure term of the
  blocks it loaded.

  The body stores whole blocks only, so each buffer's final contents are the payload of the last store into it, and
  a load that follows a store of the same buffer reads that store's payload back:
  * on a first reduction block the accumulator ends at the block product added to the zero block;
  * on every other block it ends at the block product added to what it held (`xs`);
  * on a last reduction block the output buffer ends at the scaled, biased (and rectified) accumulator.
  Everything here holds for any float instance.
-/
import proofs.«109880_j20693152432262_2_alg».proof.Proof.KI2Frame
import Idealize.ShloMosaic.Lib.Pipeline.Value
import Idealize.ShloMosaic.Lib.Tactic

set_option maxRecDepth 16384

noncomputable section

namespace Cert.KernelIdeal.Reg2Val

open Cert.KernelIdeal Cert.KernelIdeal.Gen Cert.KernelIdeal.Reg2
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a whole-block access, as the constant function. -/
theorem hz : (![0, 0] : Fin 2 → Nat) = fun _ => 0 := funext fun a => by fin_cases a <;> rfl

/-! ## The three runs on any whole memrefs -/

/-- First reduction block: the accumulator is zeroed, read back, and left at the zero block plus the block product. -/
theorem canonA (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : condFirst i) (hc1 : ¬condLast i) (x0 : Vec F S2048x1024 .bf16) (x1 : Vec F S1024x1024 .bf16) (x2 : Vec F S1x1024 .f32) (x3 : Vec F S1x1 .f32) :
    View.canon (kernelRunA (F := F) c i arg3 harg3 arg4 harg4 arg5 harg5 arg6 harg6 arg7 harg7 arg8 harg8 hc0 hc1 x0 x1 x2 x3).1
      = k2_pay2 (k2_pay1 (F := F)) x0 x1 := by
  unfold kernelRunA
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz,
    View.ld_unit_zero (S := S1024x1024) hz]

/-- Middle reduction block: the accumulator, found at `xs`, is left at `xs` plus the block product. -/
theorem canonB (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : ¬condLast i) (x0 : Vec F S2048x1024 .bf16) (x1 : Vec F S1024x1024 .bf16) (x2 : Vec F S1x1024 .f32) (x3 : Vec F S1x1 .f32) (xs : Vec F S2048x1024 .f32) :
    View.canon (kernelRunB (F := F) c i arg3 harg3 arg4 harg4 arg5 harg5 arg6 harg6 arg7 harg7 arg8 harg8 hc0 hc1 x0 x1 x2 x3 xs).1
      = k2_pay2 xs x0 x1 := by
  unfold kernelRunB
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the accumulator: as on a middle block. -/
theorem canonC_acc (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).2.1
      = k2_pay2 xs x0 x1 := by
  unfold kernelRunC
  dsimp only
  sl_unfold_words
  rw [View.canon_unit_zero (S := S2048x1024) hz]
  simp only [View.readAt_eq_ld, harg3.read_unread, harg4.read_unread, harg8.read_unread, View.ld_unit_zero (S := S2048x1024) hz,
    View.ld_unit_zero (S := S1024x1024) hz]

/-- Last reduction block, the output buffer: the finished accumulator read back, scaled, biased and rectified. -/
theorem canonC_out (c : Dev nD) (i : grid2.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1 .f32) (harg6 : arg6.IsWhole)
    (arg7 : Memref sig .tc .vmem S2048x1024 .f32) (harg7 : arg7.IsWhole) (arg8 : Memref sig .tc .vmem S2048x1024 .f32) (harg8 : arg8.IsWhole)
    (hc0 : ¬condFirst i) (hc1 : condLast i) (x0 : Vec F S2048x1024 .bf16) (x1 : Vec F S1024x1024 .bf16) (x2 : Vec F S1x1024 .f32) (x3 : Vec F S1x1 .f32) (xs : Vec F S2048x1024 .f32) :
    View.canon (kernelRunC (F := F) c i arg3 harg3 arg4 harg4 arg5 harg5 arg6 harg6 arg7 harg7 arg8 harg8 hc0 hc1 x0 x1 x2 x3 xs).1
      = k2_pay3 (k2_pay2 xs x0 x1) x3 x2 := by
  unfold kernelRunC
  dsimp only
  sl_unfold_words
  rw [View.canon_unit_zero (S := S2048x1024) hz, View.readCov_unit_zero (S := S2048x1024) _ hz]
  simp only [View.readAt_eq_ld, harg3.read_unread, harg4.read_unread, harg5.read_unread, harg6.read_unread, harg8.read_unread,
    View.ld_unit_zero (S := S2048x1024) hz, View.ld_unit_zero (S := S1024x1024) hz, View.ld_unit_zero (S := S1x1024) hz,
    View.ld_unit_zero (S := S1x1) hz]

/-! ## The same at a grid point, on the point's staging buffers and input blocks -/

section AtPoint

variable (V : (c : Dev nD) → (b : Ref sig .tc) → Buf (Elt F) ((c : Thread nD τ).loc b))

theorem soutA_eq (c : Dev nD) (t : Fin cfg2.N) (h0 : t.val % 8 = 0) :
    soutA V c t h0 = k2_pay2 (k2_pay1 (F := F)) (iblk V c 0 t) (iblk V c 1 t) := by
  unfold soutA
  rw [View.read_writes_junk_eq_canon]
  exact canonA c (grid2.coords t) (ms0 t) (hs0 t) (ms1 t) (hs1 t) (ms2 t) (hs2 t) (ms3 t) (hs3 t) (ms4 t) (hs4 t) scM
    (Memref.isWhole_whole _) ((hcondFirst t).mpr h0) (notLast_of_first t h0) (iblk V c 0 t) (iblk V c 1 t) (iblk V c 2 t) (iblk V c 3 t)

theorem soutB_eq (c : Dev nD) (t : Fin cfg2.N) (h0 : ¬t.val % 8 = 0) (h1 : ¬t.val % 8 = 7) (xs : Vec F S2048x1024 .f32) :
    soutB V c t h0 h1 xs = k2_pay2 xs (iblk V c 0 t) (iblk V c 1 t) := by
  unfold soutB
  rw [View.read_writes_junk_eq_canon]
  exact canonB c (grid2.coords t) (ms0 t) (hs0 t) (ms1 t) (hs1 t) (ms2 t) (hs2 t) (ms3 t) (hs3 t) (ms4 t) (hs4 t) scM
    (Memref.isWhole_whole _) (fun h => h0 ((hcondFirst t).mp h)) (fun h => h1 ((hcondLast t).mp h)) (iblk V c 0 t) (iblk V c 1 t) (iblk V c 2 t) (iblk V c 3 t) xs

theorem soutC_eq (c : Dev nD) (t : Fin cfg2.N) (h0 : ¬t.val % 8 = 0) (h1 : t.val % 8 = 7) (xs : Vec F S2048x1024 .f32) :
    soutC V c t h0 h1 xs = k2_pay2 xs (iblk V c 0 t) (iblk V c 1 t) := by
  unfold soutC
  rw [View.read_writes_junk_eq_canon]
  exact canonC_acc c (grid2.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

theorem outC_eq (c : Dev nD) (t : Fin cfg2.N) (h0 : ¬t.val % 8 = 0) (h1 : t.val % 8 = 7) (xs : Vec F S2048x1024 .f32) :
    outC V c t h0 h1 xs = k2_pay3 (k2_pay2 xs (iblk V c 0 t) (iblk V c 1 t)) (iblk V c 3 t) (iblk V c 2 t) := by
  unfold outC
  rw [View.read_writes_junk_eq_canon]
  exact canonC_out c (grid2.coords t) (ms0 t) (hs0 t) (ms1 t) (hs1 t) (ms2 t) (hs2 t) (ms3 t) (hs3 t) (ms4 t) (hs4 t) scM
    (Memref.isWhole_whole _) (fun h => h0 ((hcondFirst t).mp h)) ((hcondLast t).mpr h1) (iblk V c 0 t) (iblk V c 1 t) (iblk V c 2 t) (iblk V c 3 t) xs

end AtPoint

end Cert.KernelIdeal.Reg2Val

end
-- ==== Proof.KI2ValPay.lean ====
/-
  Region 2 (layer 3): the body's three stored values read at one entry, over the extended reals.

  The zero block reads 0 everywhere. The accumulating store at entry (r, cc) is what the accumulator held there plus
  the entry of the block product, row r of the activation block against column cc of the weight block: the matrix
  unit's product into a zero accumulator is the plain sum over the contracted coordinate. The output store at
  (r, cc) is the accumulator's entry times the single scale, plus the bias row's entry cc: this layer has no
  rectifier and stores in the accumulator's own format.
-/
import proofs.«109880_j20693152432262_2_alg».proof.Proof.KI2Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg2Val

open Cert.KernelIdeal Cert.KernelIdeal.Gen Cert.KernelIdeal.Reg2
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## The block product's operand indices -/

theorem lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-! ## The three payloads at an entry -/

/-- Entry (r, cc) of the product of a row block of activations with a weight block: row r against column cc. -/
def blockProd (x0 : Vec Ideal S2048x1024 .bf16) (x1 : Vec Ideal S1024x1024 .bf16) (r : Fin 2048) (cc : Fin 1024) : EReal :=
  ∑ kk : Fin 1024, (x0 (ix2 r kk) : EReal) * (x1 (ix2 kk cc) : EReal)

/-- The block the accumulator is reset to is zero everywhere. -/
theorem pay1_apply (r : Fin 2048) (cc : Fin 1024) : (k2_pay1 (F := Ideal) (ix2 r cc) : EReal) = 0 := by
  unfold k2_pay1
  rw [shapeCast_self]
  exact Ideal.ofBits_zero_f32

/-- The accumulating store at an entry: what the accumulator held there plus the block product's entry. -/
theorem pay2_apply (xs : Vec Ideal S2048x1024 .f32) (x0 : Vec Ideal S2048x1024 .bf16) (x1 : Vec Ideal S1024x1024 .bf16)
    (r : Fin 2048) (cc : Fin 1024) :
    (k2_pay2 (F := Ideal) xs x0 x1 (ix2 r cc) : EReal) = xs (ix2 r cc) + blockProd x0 x1 r cc := by
  unfold k2_pay2
  rw [shapeCast_self, shapeCast_self, shapeCast_self]
  show (xs (ix2 r cc) : EReal) + FloatOps.matmul dot_S2048x1024_S1024x1024_S2048x1024_1_0_0_1_n_n none x0 x1 (constant (F := Ideal) S2048x1024 .f32 0x00000000#32) (ix2 r cc) = _
  refine congrArg (fun z : EReal => (xs (ix2 r cc) : EReal) + z) ?_
  refine (Ideal.matmul_constant_zero_apply (φ₁ := .bf16) (φ₂ := .bf16) dot_S2048x1024_S1024x1024_S2048x1024_1_0_0_1_n_n none x0 x1 (ix2 r cc)).trans ?_
  unfold blockProd
  rw [← Equiv.sum_comp (contrEquiv1 dot_S2048x1024_S1024x1024_S2048x1024_1_0_0_1_n_n 1024 rfl rfl).symm]
  refine Finset.sum_congr rfl fun kk _ => ?_
  have hk := contrEquiv1_symm_val dot_S2048x1024_S1024x1024_S2048x1024_1_0_0_1_n_n 1024 rfl rfl kk
  have el : dot_S2048x1024_S1024x1024_S2048x1024_1_0_0_1_n_n.lhsIdx (ix2 r cc) ((contrEquiv1 dot_S2048x1024_S1024x1024_S2048x1024_1_0_0_1_n_n 1024 rfl rfl).symm kk) = ix2 r kk := funext fun a => Fin.ext (by
    match a with
    | ⟨0, _⟩ => exact lhs_0 _ _
    | ⟨1, _⟩ => exact (lhs_1 _ _).trans hk)
  have er : dot_S2048x1024_S1024x1024_S2048x1024_1_0_0_1_n_n.rhsIdx (ix2 r cc) ((contrEquiv1 dot_S2048x1024_S1024x1024_S2048x1024_1_0_0_1_n_n 1024 rfl rfl).symm kk) = ix2 kk cc := funext fun a => Fin.ext (by
    match a with
    | ⟨0, _⟩ => exact (rhs_0 _ _).trans hk
    | ⟨1, _⟩ => exact rhs_1 _ _)
  rw [el, er]

/-- The output store at an entry: the accumulator's entry times the one scale, plus the bias row's entry. -/
theorem pay3_apply (acc : Vec Ideal S2048x1024 .f32) (a : Vec Ideal S1x1 .f32) (b : Vec Ideal S1x1024 .f32)
    (r : Fin 2048) (cc : Fin 1024) :
    (k2_pay3 (F := Ideal) acc a b (ix2 r cc) : EReal)
      = (acc (ix2 r cc) : EReal) * a (ix2 (0 : Fin 1) (0 : Fin 1)) + b (ix2 (0 : Fin 1) cc) := by
  unfold k2_pay3
  rw [shapeCast_self, shapeCast_self]
  show (acc (ix2 r cc) : EReal) * broadcastTo S2048x1024 a _ (ix2 r cc) + broadcastTo S2048x1024 b _ (ix2 r cc) = _
  rw [broadcastTo_1b_ab_apply b _ r cc]
  refine congrArg (fun z : EReal => (acc (ix2 r cc) : EReal) * z + b (ix2 (0 : Fin 1) cc)) ?_
  exact broadcastTo_apply a _ (ix2 r cc) (ix2 (0 : Fin 1) (0 : Fin 1)) (fun ax => by
    match ax with
    | ⟨0, _⟩ => rfl
    | ⟨1, _⟩ => rfl)

end Cert.KernelIdeal.Reg2Val

end
-- ==== Proof.KI2ValBlocks.lean ====
/-
  Region 2 (layer 3): where the entries of a point's input blocks sit in their arrays.

  The grid is (row block i, column block j, reduction block k) with extents (4, 8, 4), walked in row-major order, so
  point t has i = t / 32, j = (t / 4) mod 8, k = t mod 4. An entry of a block sits in the array, on each axis, at the
  block index times the block's size plus its coordinate inside the block. These hold for any float instance.
-/
import proofs.«109880_j20693152432262_2_alg».proof.Proof.KI2Frame
import Idealize.ShloMosaic.Lib.ValueIdx
import Idealize.ShloMosaic.Lib.Pipeline.Value

set_option maxRecDepth 16384

noncomputable section

namespace Cert.KernelIdeal.Reg2Val

open Cert.KernelIdeal Cert.KernelIdeal.Gen Cert.KernelIdeal.Reg2
open Idealize.ShloMosaic Idealize.ShloMosaic.TcCoe Idealize.ShloMosaic.Tactic
open Idealize.SL.Sem
open Idealize.ShloMosaic.Pipeline (Dat Cfg Window)
open Idealize.ShloMosaic.ValueIdx

/-! ## The windows' block indices at a point -/

/-- Point `t = 32 i + 8 j + k` of the (4, 4, 8) grid reads activation block (i, k), weight block (k, j), bias block
    (0, j) and the one scale, and its output block is (i, j). -/
theorem idx_facts : ∀ t : Fin cfg2.N,
    win2_0.index t (0 : Fin 2) = t.val / 32 ∧ win2_0.index t (1 : Fin 2) = t.val % 8
    ∧ win2_1.index t (0 : Fin 2) = t.val % 8 ∧ win2_1.index t (1 : Fin 2) = t.val / 8 % 4
    ∧ win2_2.index t (0 : Fin 2) = 0 ∧ win2_2.index t (1 : Fin 2) = t.val / 8 % 4
    ∧ win2_3.index t (0 : Fin 2) = 0 ∧ win2_3.index t (1 : Fin 2) = 0
    ∧ win2_4.index t (0 : Fin 2) = t.val / 32 ∧ win2_4.index t (1 : Fin 2) = t.val / 8 % 4 :=
  (by decide +kernel : ∀ t : Fin grid2.N, _)

/-! ## An input block's entry is an entry of its array -/

section Blocks

variable {F : FTy → Type} [FloatOps F]
variable (V : (c : Dev nD) → (b : Ref sig .tc) → Buf (Elt F) ((c : Thread nD τ).loc b))

/-- Entry (r, kk) of the activation block at `t` is entry (2048 i + r, 1024 k + kk) of the activations. -/
theorem iblk0_apply (c : Dev nD) (t : Fin cfg2.N) (r : Fin 2048) (kk : Fin 1024) (n : Fin 8192) (k : Fin 8192)
    (hn : n.val = t.val / 32 * 2048 + r.val) (hk : k.val = t.val % 8 * 1024 + kk.val) :
    (iblk V c 0 t : Vec F S2048x1024 .bf16) (ix2 r kk) = (V c main_call0_v38 : S8192x8192.Idx → Elt F .bf16) (ix2 n k) := by
  obtain ⟨e0, e1, -⟩ := idx_facts t
  unfold iblk
  rw [View.read_apply]
  show V c main_call0_v38 _ = V c main_call0_v38 _
  refine congrArg (V c main_call0_v38) (funext fun a => Fin.ext ?_)
  match a with
  | ⟨0, _⟩ => show win2_0.index t 0 * 2048 + 1 * r.val = n.val; rw [e0, hn]; omega
  | ⟨1, _⟩ => show win2_0.index t 1 * 1024 + 1 * kk.val = k.val; rw [e1, hk]; omega

/-- Entry (kk, cc) of the weight block at `t` is entry (1024 k + kk, 1024 j + cc) of the weights. -/
theorem iblk1_apply (c : Dev nD) (t : Fin cfg2.N) (kk : Fin 1024) (cc : Fin 1024) (k : Fin 8192) (h : Fin 4096)
    (hk : k.val = t.val % 8 * 1024 + kk.val) (hh : h.val = t.val / 8 % 4 * 1024 + cc.val) :
    (iblk V c 1 t : Vec F S1024x1024 .bf16) (ix2 kk cc) = (V c main_call0_v55 : S8192x4096.Idx → Elt F .bf16) (ix2 k h) := by
  obtain ⟨-, -, e2, e3, -⟩ := idx_facts t
  unfold iblk
  rw [View.read_apply]
  show V c main_call0_v55 _ = V c main_call0_v55 _
  refine congrArg (V c main_call0_v55) (funext fun a => Fin.ext ?_)
  match a with
  | ⟨0, _⟩ => show win2_1.index t 0 * 1024 + 1 * kk.val = k.val; rw [e2, hk]; omega
  | ⟨1, _⟩ => show win2_1.index t 1 * 1024 + 1 * cc.val = h.val; rw [e3, hh]; omega

/-- Entry (0, cc) of the bias block at `t` is entry (0, 1024 j + cc) of the bias row. -/
theorem iblk2_apply (c : Dev nD) (t : Fin cfg2.N) (cc : Fin 1024) (h : Fin 4096)
    (hh : h.val = t.val / 8 % 4 * 1024 + cc.val) :
    (iblk V c 2 t : Vec F S1x1024 .f32) (ix2 (0 : Fin 1) cc) = (V c main_call0_v56 : S1x4096.Idx → Elt F .f32) (ix2 (0 : Fin 1) h) := by
  obtain ⟨-, -, -, -, e4, e5, -⟩ := idx_facts t
  unfold iblk
  rw [View.read_apply]
  show V c main_call0_v56 _ = V c main_call0_v56 _
  refine congrArg (V c main_call0_v56) (funext fun a => Fin.ext ?_)
  match a with
  | ⟨0, _⟩ => show win2_2.index t 0 * 1 + 1 * 0 = 0; rw [e4]
  | ⟨1, _⟩ => show win2_2.index t 1 * 1024 + 1 * cc.val = h.val; rw [e5, hh]; omega

/-- The scale's block at any point is the scale. -/
theorem iblk3_apply (c : Dev nD) (t : Fin cfg2.N) :
    (iblk V c 3 t : Vec F S1x1 .f32) (ix2 (0 : Fin 1) (0 : Fin 1)) = (V c main_call0_v54 : S1x1.Idx → Elt F .f32) (ix2 (0 : Fin 1) (0 : Fin 1)) := by
  obtain ⟨-, -, -, -, -, -, e6, e7, -⟩ := idx_facts t
  unfold iblk
  rw [View.read_apply]
  show V c main_call0_v54 _ = V c main_call0_v54 _
  refine congrArg (V c main_call0_v54) (funext fun a => Fin.ext ?_)
  match a with
  | ⟨0, _⟩ => show win2_3.index t 0 * 1 + 1 * 0 = 0; rw [e6]
  | ⟨1, _⟩ => show win2_3.index t 1 * 1 + 1 * 0 = 0; rw [e7]

end Blocks

end Cert.KernelIdeal.Reg2Val

end
-- ==== Proof.KI2ValAcc.lean ====
/-
  Region 2 (layer 3): what the accumulator holds after every grid point, over the extended reals.

  Point t = 32 i + 8 j + k works on reduction block k of output block (i, j). A first reduction block (k = 0) resets
  the accumulator to zero and adds its block product; every later one adds its block product to what the point
  before left. So after point t the accumulator's entry (r, cc) is the sum, over the reduction blocks 0 … k, of the
  entries (r, cc) of their block products — by induction on the point. On a last reduction block (k = 7) the four
  block sums regroup into the one sum over all 8192 contracted positions of row 2048 i + r of the activations
  against column 1024 j + cc of the weight table: addition on the extended reals is associative and commutative, so
  no finiteness is needed.
-/
import proofs.«109880_j20693152432262_2_alg».proof.Proof.KI2ValPieces
import proofs.«109880_j20693152432262_2_alg».proof.Proof.KI2ValPay
import proofs.«109880_j20693152432262_2_alg».proof.Proof.KI2ValBlocks
import Mathlib.Algebra.BigOperators.Fin
import Mathlib.Logic.Equiv.Fin.Basic

set_option maxRecDepth 16384

noncomputable section

namespace Cert.KernelIdeal.Reg2Val

open Cert.KernelIdeal Cert.KernelIdeal.Gen Cert.KernelIdeal.Reg2
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## Sums over consecutive blocks -/

/-- A sum over `K = nb * bs` positions is the sum, over the `nb` blocks, of each block's `bs` positions. -/
theorem sum_blocks {M : Type*} [AddCommMonoid M] (nb bs K : ℕ) (hK : nb * bs = K) (g : Fin K → M) (G : ℕ → M)
    (idx : Fin nb → Fin bs → Fin K) (hidx : ∀ s kk, (idx s kk).val = s.val * bs + kk.val)
    (hG : ∀ s : Fin nb, G s.val = ∑ kk : Fin bs, g (idx s kk)) :
    ∑ s ∈ Finset.range nb, G s = ∑ k, g k := by
  subst hK
  rw [Finset.sum_range]
  refine (Finset.sum_congr rfl fun s _ => hG s).trans ?_
  rw [← Fintype.sum_prod_type' (f := fun (a : Fin nb) (b : Fin bs) => g (idx a b))]
  rw [← Equiv.sum_comp finProdFinEquiv g]
  refine Finset.sum_congr rfl fun p _ => congrArg g (Fin.ext ?_)
  rw [hidx]
  simp only [finProdFinEquiv, Equiv.coe_fn_mk]
  ring

/-- On a first reduction block the run of points summed so far is the point itself. -/
theorem range_first (f : ℕ → EReal) (n : ℕ) (h0 : n % 8 = 0) :
    ∑ s ∈ Finset.range (n % 8 + 1), f (n - n % 8 + s) = f n := by
  rw [h0, Finset.sum_range_one]
  rfl

/-- Off a first reduction block the run is the previous point's run and the point itself. -/
theorem range_step (f : ℕ → EReal) (n : ℕ) (h0 : ¬(n + 1) % 8 = 0) :
    ∑ s ∈ Finset.range ((n + 1) % 8 + 1), f (n + 1 - (n + 1) % 8 + s)
      = ∑ s ∈ Finset.range (n % 8 + 1), f (n - n % 8 + s) + f (n + 1) := by
  have e1 : (n + 1) % 8 = n % 8 + 1 := by omega
  have e2 : n + 1 - (n % 8 + 1) = n - n % 8 := by omega
  have e3 : n - n % 8 + (n % 8 + 1) = n + 1 := by omega
  rw [e1, e2, Finset.sum_range_succ, e3]

/-! ## The accumulator after every point -/

variable (V : (c : Dev nD) → (b : Ref sig .tc) → Buf (Elt Ideal) ((c : Thread nD τ).loc b))

/-- What point `p` adds to the accumulator at entry (r, cc): its block product's entry (zero past the grid, where no
    point is). -/
def addend (c : Dev nD) (p : ℕ) (r : Fin 2048) (cc : Fin 1024) : EReal :=
  if h : p < cfg2.N then blockProd (iblk V c 0 ⟨p, h⟩) (iblk V c 1 ⟨p, h⟩) r cc else 0

theorem addend_of_lt (c : Dev nD) (p : ℕ) (h : p < cfg2.N) (r : Fin 2048) (cc : Fin 1024) :
    addend V c p r cc = blockProd (iblk V c 0 ⟨p, h⟩) (iblk V c 1 ⟨p, h⟩) r cc := by
  unfold addend; rw [dif_pos h]

/-- After point `n` the accumulator holds, at every entry, the sum of the block products of the points from the first
    reduction block of `n`'s run up to `n`: by induction on the point, a first block resetting to zero and every
    other block adding to what the point before left. -/
theorem acc_eq (c : Dev nD) : ∀ (n : ℕ) (h : n < cfg2.N) (r : Fin 2048) (cc : Fin 1024),
    (((outsAt V c n h).2 : Vec Ideal S2048x1024 .f32) (ix2 r cc) : EReal)
      = ∑ s ∈ Finset.range (n % 8 + 1), addend V c (n - n % 8 + s) r cc
  | 0, h, r, cc => by
    refine Eq.trans ?_ ((range_first (fun p => addend V c p r cc) 0 (Nat.zero_mod 8)).trans (addend_of_lt V c 0 h r cc)).symm
    show (((stepAt V c ⟨0, h⟩ (VS.read (Elt Ideal) VS.junk)).2 : Vec Ideal S2048x1024 .f32) (ix2 r cc) : EReal) = _
    rw [stepAt_A V c ⟨0, h⟩ _ (Nat.zero_mod 8)]
    dsimp only
    rw [soutA_eq]
    refine (pay2_apply (k2_pay1 (F := Ideal)) (iblk V c 0 ⟨0, h⟩) (iblk V c 1 ⟨0, h⟩) r cc).trans ?_
    rw [pay1_apply, zero_add]
  | n + 1, h, r, cc => by
    have hprev := acc_eq c n (Nat.lt_of_succ_lt h) r cc
    show (((stepAt V c ⟨n + 1, h⟩ (outsAt V c n (Nat.lt_of_succ_lt h)).2).2 : Vec Ideal S2048x1024 .f32) (ix2 r cc) : EReal) = _
    by_cases h0 : (n + 1) % 8 = 0
    · refine Eq.trans ?_ ((range_first (fun p => addend V c p r cc) (n + 1) h0).trans (addend_of_lt V c (n + 1) h r cc)).symm
      rw [stepAt_A V c ⟨n + 1, h⟩ _ h0]
      dsimp only
      rw [soutA_eq]
      refine (pay2_apply (k2_pay1 (F := Ideal)) (iblk V c 0 ⟨n + 1, h⟩) (iblk V c 1 ⟨n + 1, h⟩) r cc).trans ?_
      rw [pay1_apply, zero_add]
    · refine Eq.trans ?_ (range_step (fun p => addend V c p r cc) n h0).symm
      show _ = (∑ s ∈ Finset.range (n % 8 + 1), addend V c (n - n % 8 + s) r cc) + addend V c (n + 1) r cc
      rw [addend_of_lt V c (n + 1) h, ← hprev]
      by_cases h1 : (n + 1) % 8 = 7
      · rw [stepAt_C V c ⟨n + 1, h⟩ _ h0 h1]
        dsimp only
        rw [soutC_eq]
        exact pay2_apply (outsAt V c n (Nat.lt_of_succ_lt h)).2 (iblk V c 0 ⟨n + 1, h⟩) (iblk V c 1 ⟨n + 1, h⟩) r cc
      · rw [stepAt_B V c ⟨n + 1, h⟩ _ h0 h1]
        dsimp only
        rw [soutB_eq]
        exact pay2_apply (outsAt V c n (Nat.lt_of_succ_lt h)).2 (iblk V c 0 ⟨n + 1, h⟩) (iblk V c 1 ⟨n + 1, h⟩) r cc

/-- The activations and the weight table as the region finds them, entry by entry. -/
def actArr (c : Dev nD) : Fin 8192 → Fin 8192 → EReal := fun n k => V c main_call0_v38 (ix2 n k)
def wtArr (c : Dev nD) : Fin 8192 → Fin 4096 → EReal := fun k h => V c main_call0_v55 (ix2 k h)

/-- On a last reduction block the eight block sums are the whole contraction: entry (r, cc) of the accumulator is row
    `2048 i + r` of the activations against column `1024 j + cc` of the weights, over all 8192 positions. -/
theorem acc_last (c : Dev nD) (t : Fin cfg2.N) (h3 : t.val % 8 = 7) (r : Fin 2048) (cc : Fin 1024) (n : Fin 8192) (h : Fin 4096)
    (hn : n.val = t.val / 32 * 2048 + r.val) (hh : h.val = t.val / 8 % 4 * 1024 + cc.val) :
    (((outsAt V c t.val t.isLt).2 : Vec Ideal S2048x1024 .f32) (ix2 r cc) : EReal)
      = ∑ k : Fin 8192, actArr V c n k * wtArr V c k h := by
  have hN : cfg2.N = 128 := N_2
  have ht : t.val < 128 := lt_of_lt_of_eq t.isLt hN
  rw [acc_eq V c t.val t.isLt r cc, h3]
  show ∑ s ∈ Finset.range 8, addend V c (t.val - 7 + s) r cc = _
  refine sum_blocks 8 1024 8192 rfl
    (fun k : Fin 8192 => actArr V c n k * wtArr V c k h)
    (fun s => addend V c (t.val - 7 + s) r cc)
    (fun s kk => ⟨s.val * 1024 + kk.val, by have := s.isLt; have := kk.isLt; omega⟩) (fun _ _ => rfl) (fun s => ?_)
  have hs : s.val < 8 := s.isLt
  have hp : t.val - 7 + s.val < cfg2.N := lt_of_lt_of_eq (by omega : t.val - 7 + s.val < 128) hN.symm
  show addend V c (t.val - 7 + s.val) r cc = _
  rw [addend_of_lt V c _ hp]
  unfold blockProd
  refine Finset.sum_congr rfl fun kk _ => ?_
  have hkk : kk.val < 1024 := kk.isLt
  exact congrArg₂ (fun a b : EReal => a * b)
    (iblk0_apply V c ⟨t.val - 7 + s.val, hp⟩ r kk n ⟨s.val * 1024 + kk.val, by omega⟩ (by dsimp only; omega) (by dsimp only; omega))
    (iblk1_apply V c ⟨t.val - 7 + s.val, hp⟩ kk cc ⟨s.val * 1024 + kk.val, by omega⟩ h (by dsimp only; omega) (by dsimp only; omega))

end Cert.KernelIdeal.Reg2Val

end
-- ==== Proof.KI2ValFinal.lean ====
/-
  Region 2 (layer 3): the value of the region, over the extended reals.

  A point writes its output block back exactly on a last reduction block. There the output buffer holds, at entry
  (r, cc), the finished accumulator's entry times the scale, plus the bias entry; the finished accumulator
  is the full contraction of row 2048 i + r of the activations with column 1024 j + cc of the weight table. That is
  the specification's unrectified layer at (2048 i + r, 1024 j + cc), which is where entry (r, cc) of output block
  (i, j) sits in the output array. Every entry of the output array lies in the block of exactly such a point (row n,
  column h: i = n / 2048, j = h / 1024, k = 7), so after the region the output array is the layer, entry by entry.
-/
import proofs.«109880_j20693152432262_2_alg».proof.Proof.KI2ValAcc
import proofs.«109880_j20693152432262_2_alg».proof.Proof.Spec

set_option maxRecDepth 16384

noncomputable section

namespace Cert.KernelIdeal.Reg2Val

open Cert.KernelIdeal Cert.KernelIdeal.Gen Cert.KernelIdeal.Reg2
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- The scale and the bias row as the region finds them. -/
def scaleVal (c : Dev nD) : EReal := V c main_call0_v54 (ix2 (0 : Fin 1) (0 : Fin 1))
def biasArr (c : Dev nD) : Fin 4096 → EReal := fun h => V c main_call0_v56 (ix2 (0 : Fin 1) h)

/-- The layer's result as one function of the arrays the region finds: the unrectified layer of the specification. -/
def G (c : Dev nD) : S8192x4096.Idx → EReal := fun j =>
  Cert.Spec.layer false (actArr V c) (wtArr V c) (scaleVal V c) (biasArr V c) (j 0) (j 1)

/-! ## What a last reduction block leaves in the output buffer -/

/-- On a last reduction block the output buffer holds the output store's value of the finished accumulator. -/
theorem out_eq (c : Dev nD) (t : Fin cfg2.N) (h3 : t.val % 8 = 7) :
    (outsAt V c t.val t.isLt).1 = k2_pay3 (outsAt V c t.val t.isLt).2 (iblk V c 3 t) (iblk V c 2 t) := by
  have h0 : ¬t.val % 8 = 0 := by omega
  have hz : t.val ≠ 0 := fun e => by rw [e] at h3; exact absurd h3 (by decide)
  rw [outsAt_pos V c t hz, stepAt_C V c t _ h0 h3]
  dsimp only
  rw [outC_eq, soutC_eq]

/-- Entry (r, cc) of that block is the layer at row `2048 i + r`, column `1024 j + cc`. -/
theorem out_apply (c : Dev nD) (t : Fin cfg2.N) (h3 : t.val % 8 = 7) (r : Fin 2048) (cc : Fin 1024) (n : Fin 8192) (h : Fin 4096)
    (hn : n.val = t.val / 32 * 2048 + r.val) (hh : h.val = t.val / 8 % 4 * 1024 + cc.val) :
    (((outsAt V c t.val t.isLt).1 : Vec Ideal S2048x1024 .f32) (ix2 r cc) : EReal)
      = Cert.Spec.layer false (actArr V c) (wtArr V c) (scaleVal V c) (biasArr V c) n h := by
  refine (congrFun (out_eq V c t h3) (ix2 r cc)).trans ?_
  refine (pay3_apply (outsAt V c t.val t.isLt).2 (iblk V c 3 t) (iblk V c 2 t) r cc).trans ?_
  rw [acc_last V c t h3 r cc n h hn hh, iblk3_apply V c t, iblk2_apply V c t cc h hh]
  unfold Cert.Spec.layer Cert.Spec.affine
  rw [if_neg Bool.false_ne_true]
  rfl

/-- The same at any index of the block, the array index being where the block's index sits in the array. -/
theorem out_at (c : Dev nD) (t : Fin cfg2.N) (h3 : t.val % 8 = 7) (y : S2048x1024.Idx) :
    (((outsAt V c t.val t.isLt).1 : Vec Ideal S2048x1024 .f32) y : EReal) = G V c (((cfg2.win 4).blk t).view.emb y) := by
  obtain ⟨-, -, -, -, -, -, -, -, e8, e9⟩ := idx_facts t
  obtain ⟨r, cc, rfl⟩ : ∃ (r : Fin 2048) (cc : Fin 1024), y = ix2 r cc := ⟨y 0, y 1, eq_ix2 y⟩
  unfold G
  refine out_apply V c t h3 r cc _ _ ?_ ?_
  · show win2_4.index t (0 : Fin 2) * 2048 + 1 * r.val = t.val / 32 * 2048 + r.val
    rw [e8]; omega
  · show win2_4.index t (1 : Fin 2) * 1024 + 1 * cc.val = t.val / 8 % 4 * 1024 + cc.val
    rw [e9]; omega

/-! ## From blocks to the array -/

/-- What a point that writes back writes is its block of `G`. -/
theorem flushed_eq (c : Dev nD) (t : Fin cfg2.N) (hf : (cfg2.win 4).flush t = true) :
    (dat V c).flushed 4 t = ((cfg2.win 4).blk t).view.read (Elt Ideal) (G V c) := by
  have h3 : t.val % 8 = 7 := (flush2_4 t).mp hf
  show (cfg2.win 4).cut (grid2.coords t) ((dat V c).after 4 t) = _
  rw [after_4]
  funext y
  exact out_at V c t h3 y

/-- An index of the array is in point `t`'s block iff each coordinate is in the block's range on its axis. -/
theorem mem_blk (t : Fin cfg2.N) (i : S8192x4096.Idx) :
    i ∈ ((cfg2.win 4).blk t).view.set ↔ ∀ a : Fin 2, win2_4.index t a * S2048x1024.size a ≤ (i a).val ∧ (i a).val < win2_4.index t a * S2048x1024.size a + S2048x1024.size a := by
  show i ∈ ((View.whole main_v0).slice (win2_4.rect t)).set ↔ _
  rw [View.set_slice_whole, Rect.mem_set_unit]
  exact Iff.rfl

/-- Every entry of the output array is in the block of a point that writes back: row `n`, column `h` in the block of the
    last reduction block of row block `n / 2048` and column block `h / 1024`. -/
theorem cover (i : S8192x4096.Idx) : ∃ t : Fin cfg2.N, (cfg2.win 4).flush t = true ∧ i ∈ ((cfg2.win 4).blk t).view.set := by
  have hN : cfg2.N = 128 := N_2
  have hi0 : (i 0).val < 8192 := (i 0).isLt
  have hi1 : (i 1).val < 4096 := (i 1).isLt
  have hp : (i 0).val / 2048 * 32 + (i 1).val / 1024 * 8 + 7 < cfg2.N :=
    lt_of_lt_of_eq (by omega : (i 0).val / 2048 * 32 + (i 1).val / 1024 * 8 + 7 < 128) hN.symm
  obtain ⟨-, -, -, -, -, -, -, -, e8, e9⟩ := idx_facts ⟨(i 0).val / 2048 * 32 + (i 1).val / 1024 * 8 + 7, hp⟩
  dsimp only at e8 e9
  refine ⟨⟨(i 0).val / 2048 * 32 + (i 1).val / 1024 * 8 + 7, hp⟩, (flush2_4 _).mpr (by dsimp only; omega), ?_⟩
  rw [mem_blk]
  intro a
  match a with
  | ⟨0, _⟩ =>
    show win2_4.index ⟨(i 0).val / 2048 * 32 + (i 1).val / 1024 * 8 + 7, hp⟩ (0 : Fin 2) * 2048 ≤ (i 0).val
      ∧ (i 0).val < win2_4.index ⟨(i 0).val / 2048 * 32 + (i 1).val / 1024 * 8 + 7, hp⟩ (0 : Fin 2) * 2048 + 2048
    rw [e8]; omega
  | ⟨1, _⟩ =>
    show win2_4.index ⟨(i 0).val / 2048 * 32 + (i 1).val / 1024 * 8 + 7, hp⟩ (1 : Fin 2) * 1024 ≤ (i 1).val
      ∧ (i 1).val < win2_4.index ⟨(i 0).val / 2048 * 32 + (i 1).val / 1024 * 8 + 7, hp⟩ (1 : Fin 2) * 1024 + 1024
    rw [e9]; omega

/-- The output array after the region is `G`. -/
theorem final_G (c : Dev nD) : (dat V c).arrAt 4 cfg2.N = G V c :=
  (dat V c).arrAt_eq_of_cover 4 (G V c) (fun t hf => flushed_eq V c t hf) cover

/-- THE VALUE OF THE REGION: after it the output array holds, at row `n` and column `h`, the unrectified layer of the
    specification of the activations, the weight table, the scale and the bias row the region found. -/
theorem final (c : Dev nD) :
    ((dat (F := Ideal) V c).arrAt 4 cfg2.N : S8192x4096.Idx → EReal)
      = fun j => Cert.Spec.layer false (fun (n : Fin 8192) (k : Fin 8192) => V c main_call0_v38 (ix2 n k))
          (fun (k : Fin 8192) (h : Fin 4096) => V c main_call0_v55 (ix2 k h)) (V c main_call0_v54 (ix2 (0 : Fin 1) (0 : Fin 1)))
          (fun (h : Fin 4096) => V c main_call0_v56 (ix2 (0 : Fin 1) h)) (j 0) (j 1) :=
  final_G V c

end Cert.KernelIdeal.Reg2Val

end
-- ==== Proof.KIBridge.lean ====
/-
  The kernel's program computes the specification's network: after every run the result buffer holds the three
  layers of the launch contents of the arguments.

  Each region's output is one layer of what it is handed; the first host stretch hands region 0 the activations, the
  first ternary table transposed, the first scale and the first bias row; the later stretches hand the later regions
  the later tables, scales and bias rows, computed from arguments that nothing has overwritten, and the previous
  region's output untouched. Chained, the result buffer is the network of the arguments; and since the kernel side's
  and the reference side's ternarization terms are the same operations, it is the array the reference side names.
-/
import proofs.«109880_j20693152432262_2_alg».proof.Proof.KIBridgeChain
import proofs.«109880_j20693152432262_2_alg».proof.Proof.KIBridgeTerms
import proofs.«109880_j20693152432262_2_alg».proof.Proof.KHost1
import proofs.«109880_j20693152432262_2_alg».proof.Proof.KHost2
import proofs.«109880_j20693152432262_2_alg».proof.Proof.KHost3
import proofs.«109880_j20693152432262_2_alg».proof.Proof.KI0ValFinal
import proofs.«109880_j20693152432262_2_alg».proof.Proof.KI1ValFinal
import proofs.«109880_j20693152432262_2_alg».proof.Proof.KI2ValFinal

noncomputable section

namespace Cert.KernelIdeal.Bridge

open Cert.KernelIdeal Cert.KernelIdeal.Gen Cert.KernelIdeal.Whole
open Idealize.ShloMosaic Idealize.ShloMosaic.TcCoe Idealize.SL.Sem Idealize.ShloMosaic.ValueIdx

/-- After the last region the result buffer holds, entry by entry, the specification's network of the launch contents
    of the seven arguments. -/
theorem value (m : (ℓ : Loc nD τ sig) → Buf (Elt Ideal) ℓ) (c : Dev nD) :
    (W6 m c (Proc.devRef .tc main_v0) : S8192x4096.Idx → EReal) = fun j =>
      Cert.Spec.mlp (fun (n : Fin 8192) (k : Fin 4096) => (m ((c : Thread nD τ).loc main_arg0) : S8192x4096.Idx → EReal) (ix2 n k))
        (fun (k : Fin 4096) (h : Fin 8192) => Host.tern1 (F := Ideal) (m ((c : Thread nD τ).loc main_arg1)) (ix2 h k))
        (Host.alpha1 (F := Ideal) (m ((c : Thread nD τ).loc main_arg1)) ix0)
        (fun (h : Fin 8192) => (m ((c : Thread nD τ).loc main_arg2) : S8192.Idx → EReal) (ix1 h))
        (fun (k : Fin 8192) (h : Fin 8192) => Host.tern2 (F := Ideal) (m ((c : Thread nD τ).loc main_arg3)) (ix2 h k))
        (Host.alpha2 (F := Ideal) (m ((c : Thread nD τ).loc main_arg3)) ix0)
        (fun (h : Fin 8192) => (m ((c : Thread nD τ).loc main_arg4) : S8192.Idx → EReal) (ix1 h))
        (fun (k : Fin 8192) (h : Fin 4096) => Host.tern3 (F := Ideal) (m ((c : Thread nD τ).loc main_arg5)) (ix2 h k))
        (Host.alpha3 (F := Ideal) (m ((c : Thread nD τ).loc main_arg5)) ix0)
        (fun (h : Fin 4096) => (m ((c : Thread nD τ).loc main_arg6) : S4096.Idx → EReal) (ix1 h)) (j 0) (j 1) := by
  have a3 : W2 m c (Proc.devRef .tc main_arg3) = m ((c : Thread nD τ).loc main_arg3) := W2_kept m c main_arg3 (by decide) (by decide)
  have a4 : W2 m c (Proc.devRef .tc main_arg4) = m ((c : Thread nD τ).loc main_arg4) := W2_kept m c main_arg4 (by decide) (by decide)
  have a5 : W4 m c (Proc.devRef .tc main_arg5) = m ((c : Thread nD τ).loc main_arg5) :=
    W4_kept m c main_arg5 (by decide) (by decide) (by decide) (by decide)
  have a6 : W4 m c (Proc.devRef .tc main_arg6) = m ((c : Thread nD τ).loc main_arg6) :=
    W4_kept m c main_arg6 (by decide) (by decide) (by decide) (by decide)
  exact (value_of m c (Reg0Val.final (U1 m) c) (Reg1Val.final (U3 m) c) (Reg2Val.final (U5 m) c)
    (Host.V1_v0_apply m c) (Host.V1_v17_apply m c) (Host.V1_v16_apply m c) (Host.V1_v18_apply m c)
    (Host.after1_v36_apply m c (W2 m c) a3) (Host.after1_v35_apply m c (W2 m c) a3) (Host.after1_v37_apply m c (W2 m c) a4)
    (Host.after2_v55_apply m c (W4 m c) a5) (Host.after2_v54_apply m c (W4 m c) a5) (Host.after2_v56_apply m c (W4 m c) a6)).trans
    (L3_eq_mlp m c)

/-- That network, written with the kernel side's terms, is the array the reference side names `result`. -/
theorem value_result (m : (ℓ : Loc nD τ sig) → Buf (Elt Ideal) ℓ) (c : Dev nD) :
    (fun j : S8192x4096.Idx => Cert.Spec.mlp (fun (n : Fin 8192) (k : Fin 4096) => (m ((c : Thread nD τ).loc main_arg0) : S8192x4096.Idx → EReal) (ix2 n k))
        (fun (k : Fin 4096) (h : Fin 8192) => Host.tern1 (F := Ideal) (m ((c : Thread nD τ).loc main_arg1)) (ix2 h k))
        (Host.alpha1 (F := Ideal) (m ((c : Thread nD τ).loc main_arg1)) ix0)
        (fun (h : Fin 8192) => (m ((c : Thread nD τ).loc main_arg2) : S8192.Idx → EReal) (ix1 h))
        (fun (k : Fin 8192) (h : Fin 8192) => Host.tern2 (F := Ideal) (m ((c : Thread nD τ).loc main_arg3)) (ix2 h k))
        (Host.alpha2 (F := Ideal) (m ((c : Thread nD τ).loc main_arg3)) ix0)
        (fun (h : Fin 8192) => (m ((c : Thread nD τ).loc main_arg4) : S8192.Idx → EReal) (ix1 h))
        (fun (k : Fin 8192) (h : Fin 4096) => Host.tern3 (F := Ideal) (m ((c : Thread nD τ).loc main_arg5)) (ix2 h k))
        (Host.alpha3 (F := Ideal) (m ((c : Thread nD τ).loc main_arg5)) ix0)
        (fun (h : Fin 4096) => (m ((c : Thread nD τ).loc main_arg6) : S4096.Idx → EReal) (ix1 h)) (j 0) (j 1))
      = Cert.RefSide.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  spec_result _ _ _ _ _ _ _

/-- Every run of the kernel's program ends with the result buffer at the specification's network of the arguments, in
    the reference side's spelling, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.RefSide.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono
    (fun r h c => ⟨(h c).1.trans ((value m c).trans (value_result m c)), (h c).2⟩) (Whole.run_result m ρ)

end Cert.KernelIdeal.Bridge

end
-- ==== Proof.RefRead.lean ====
import proofs.«109880_j20693152432262_2_alg».proof.Proof.Gen.ReferenceIdeal.Read
-- ==== Proof.RefAlgebra.lean ====
/-
  The algebra that joins the two arrangements of a ternary-weight layer, over abstract finite index sets.

  A reference that scales every weight before the product computes, at entry (n, h),
  `∑ k, x n k * ((a * s k h) * m k h) + b h`, where `s` is the table of signs, `m` the 0/1 mask and `a` the one
  scale of the layer. The specification computes `(∑ k, x n k * (s k h * m k h)) * a + b h`. On the extended reals
  the factors of each product rearrange by commutativity and associativity alone, but taking the common factor `a`
  out of the sum is distributivity, which fails at the infinities; it holds wherever every number involved is
  real, and that is the hypothesis carried here, in the form `∃ r : ℝ, z = ↑r`. A layer of real data is again
  real (a finite sum of products of reals, one more product, one more sum, and a maximum with zero), so the
  argument repeats from one layer to the next.
-/
import proofs.«109880_j20693152432262_2_alg».proof.Proof.Spec
import Mathlib.Tactic.Ring

noncomputable section

open scoped BigOperators

namespace Cert.RefSide

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A finite sum of reals is real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A product of reals is real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two reals is real. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The larger of two reals is real. -/
theorem max_real {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- Zero is real. -/
theorem zero_real : ∃ r : ℝ, (0 : EReal) = (r : EReal) := ⟨0, rfl⟩

/-- Among reals a common factor leaves the sum: the row-by-column sum against weights scaled one by one is the
    sum against the unscaled weights, scaled once. -/
theorem sum_scale {K : ℕ} (x s m : Fin K → EReal) (a : EReal)
    (hx : ∀ k, ∃ r : ℝ, x k = (r : EReal)) (hs : ∀ k, ∃ r : ℝ, s k = (r : EReal))
    (hm : ∀ k, ∃ r : ℝ, m k = (r : EReal)) (ha : ∃ r : ℝ, a = (r : EReal)) :
    ∑ k, x k * ((a * s k) * m k) = (∑ k, x k * (s k * m k)) * a := by
  choose xr hxr using hx
  choose sr hsr using hs
  choose mr hmr using hm
  obtain ⟨ar, rfl⟩ := ha
  have e1 : ∀ k, x k * (((ar : EReal) * s k) * m k) = ((xr k * ((ar * sr k) * mr k) : ℝ) : EReal) := fun k => by
    rw [hxr k, hsr k, hmr k, EReal.coe_mul, EReal.coe_mul, EReal.coe_mul]
  have e2 : ∀ k, x k * (s k * m k) = ((xr k * (sr k * mr k) : ℝ) : EReal) := fun k => by
    rw [hxr k, hsr k, hmr k, EReal.coe_mul, EReal.coe_mul]
  rw [Finset.sum_congr rfl fun k _ => e1 k, Finset.sum_congr rfl fun k _ => e2 k, ← coe_sum, ← coe_sum,
    ← EReal.coe_mul, EReal.coe_eq_coe_iff, Finset.sum_mul]
  exact Finset.sum_congr rfl fun k _ => by ring

/-- The affine part of a layer as a reference that scales every weight first arranges it is the
    specification's, for real data: `s` the signs, `m` the mask, `a` the scale, all laid out K by H. -/
theorem affine_of_scaled {N K H : ℕ} (x : Fin N → Fin K → EReal) (s m : Fin K → Fin H → EReal) (a : EReal)
    (b : Fin H → EReal) (hx : ∀ n k, ∃ r : ℝ, x n k = (r : EReal)) (hs : ∀ k h, ∃ r : ℝ, s k h = (r : EReal))
    (hm : ∀ k h, ∃ r : ℝ, m k h = (r : EReal)) (ha : ∃ r : ℝ, a = (r : EReal)) (n : Fin N) (h : Fin H) :
    (∑ k, x n k * ((a * s k h) * m k h)) + b h = Cert.Spec.affine x (fun k h => s k h * m k h) a b n h := by
  unfold Cert.Spec.affine
  rw [sum_scale (x n) (fun k => s k h) (fun k => m k h) a (hx n) (fun k => hs k h) (fun k => hm k h) ha]

/-- The affine part of a layer of real data is real. -/
theorem affine_real {N K H : ℕ} (x : Fin N → Fin K → EReal) (tw : Fin K → Fin H → EReal) (a : EReal)
    (b : Fin H → EReal) (hx : ∀ n k, ∃ r : ℝ, x n k = (r : EReal)) (htw : ∀ k h, ∃ r : ℝ, tw k h = (r : EReal))
    (ha : ∃ r : ℝ, a = (r : EReal)) (hb : ∀ h, ∃ r : ℝ, b h = (r : EReal)) (n : Fin N) (h : Fin H) :
    ∃ r : ℝ, Cert.Spec.affine x tw a b n h = (r : EReal) := by
  unfold Cert.Spec.affine
  exact add_real (mul_real (sum_real _ _ fun k => mul_real (hx n k) (htw k h)) ha) (hb h)

/-- A layer of real data is real, with or without the rectifier. -/
theorem layer_real (relu : Bool) {N K H : ℕ} (x : Fin N → Fin K → EReal) (tw : Fin K → Fin H → EReal) (a : EReal)
    (b : Fin H → EReal) (hx : ∀ n k, ∃ r : ℝ, x n k = (r : EReal)) (htw : ∀ k h, ∃ r : ℝ, tw k h = (r : EReal))
    (ha : ∃ r : ℝ, a = (r : EReal)) (hb : ∀ h, ∃ r : ℝ, b h = (r : EReal)) (n : Fin N) (h : Fin H) :
    ∃ r : ℝ, Cert.Spec.layer relu x tw a b n h = (r : EReal) := by
  unfold Cert.Spec.layer
  cases relu
  · simpa using affine_real x tw a b hx htw ha hb n h
  · simpa using max_real (affine_real x tw a b hx htw ha hb n h) zero_real

/-- One layer as the reference arranges it — every weight scaled first, the bias added, the rectifier applied
    when the layer has one — is the specification's layer, for real data. -/
theorem layer_of_scaled (relu : Bool) {N K H : ℕ} (x : Fin N → Fin K → EReal) (s m : Fin K → Fin H → EReal)
    (a : EReal) (b : Fin H → EReal) (hx : ∀ n k, ∃ r : ℝ, x n k = (r : EReal))
    (hs : ∀ k h, ∃ r : ℝ, s k h = (r : EReal)) (hm : ∀ k h, ∃ r : ℝ, m k h = (r : EReal))
    (ha : ∃ r : ℝ, a = (r : EReal)) (n : Fin N) (h : Fin H) :
    (if relu then max ((∑ k, x n k * ((a * s k h) * m k h)) + b h) 0 else (∑ k, x n k * ((a * s k h) * m k h)) + b h)
      = Cert.Spec.layer relu x (fun k h => s k h * m k h) a b n h := by
  unfold Cert.Spec.layer
  rw [affine_of_scaled x s m a b hx hs hm ha n h]

/-- The rectified case, with the conditional resolved. -/
theorem relu_of_scaled {N K H : ℕ} (x : Fin N → Fin K → EReal) (s m : Fin K → Fin H → EReal)
    (a : EReal) (b : Fin H → EReal) (hx : ∀ n k, ∃ r : ℝ, x n k = (r : EReal))
    (hs : ∀ k h, ∃ r : ℝ, s k h = (r : EReal)) (hm : ∀ k h, ∃ r : ℝ, m k h = (r : EReal))
    (ha : ∃ r : ℝ, a = (r : EReal)) (n : Fin N) (h : Fin H) :
    max ((∑ k, x n k * ((a * s k h) * m k h)) + b h) 0 = Cert.Spec.layer true x (fun k h => s k h * m k h) a b n h :=
  (if_pos rfl).symm.trans (layer_of_scaled true x s m a b hx hs hm ha n h)

/-- The case without a rectifier, with the conditional resolved. -/
theorem plain_of_scaled {N K H : ℕ} (x : Fin N → Fin K → EReal) (s m : Fin K → Fin H → EReal)
    (a : EReal) (b : Fin H → EReal) (hx : ∀ n k, ∃ r : ℝ, x n k = (r : EReal))
    (hs : ∀ k h, ∃ r : ℝ, s k h = (r : EReal)) (hm : ∀ k h, ∃ r : ℝ, m k h = (r : EReal))
    (ha : ∃ r : ℝ, a = (r : EReal)) (n : Fin N) (h : Fin H) :
    (∑ k, x n k * ((a * s k h) * m k h)) + b h = Cert.Spec.layer false x (fun k h => s k h * m k h) a b n h :=
  (if_neg Bool.false_ne_true).symm.trans (layer_of_scaled false x s m a b hx hs hm ha n h)

end Cert.RefSide

end
-- ==== Proof.RefFinite.lean ====
/-
  Finiteness: what the precondition gives, and what the reference's ternarization keeps.

  The precondition says of each of the seven argument arrays that every entry's magnitude is below +∞; on the
  extended reals that makes every entry a real number. From real weights the ternarization stays among reals:
  a mask entry is 0 or 1, a sign is -1, 0 or 1, a ternary weight their product, and the scale is a quotient of two
  finite sums of reals whose divisor, a maximum with one, is at least one and so not zero. These are the facts
  the distributive step of the layer algebra asks for.
-/
import proofs.«109880_j20693152432262_2_alg».proof.Proof.RefTerms
import proofs.«109880_j20693152432262_2_alg».proof.Proof.RefAlgebra
import proofs.«109880_j20693152432262_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.ValueIdx

/-- The scalar shape has one index. -/
instance subsingleton_scalar_idx : Subsingleton (⟨0, ![]⟩ : Shape).Idx := ⟨fun _ _ => funext fun d => d.elim0⟩

/-- The pattern of +∞ denotes the top element. -/
theorem ofBits_inf_f32 : Ideal.ofBits .f32 0x7F800000#32 = ⊤ := by simp [Ideal.ofBits, Ideal.ieee]

/-- The pattern of 1.0 denotes one. -/
theorem ofBits_one_f32 : Ideal.ofBits .f32 0x3F800000#32 = 1 := IdealRules.sign_bit.ideal_onePat .f32

/-- An extended real whose magnitude is below +∞ is a real number. -/
theorem real_of_abs_lt_top (z : EReal) (h : Ideal.cmp .olt (max z (-z)) ⊤ = 1#1) : ∃ r : ℝ, z = (r : EReal) := by
  induction z using EReal.rec with
  | bot => simp [Ideal.cmp] at h
  | top => simp [Ideal.cmp] at h
  | coe r => exact ⟨r, rfl⟩

/-- One conjunct of the precondition, for an array of any shape: if "every magnitude is below +∞" reduces to 1,
    every entry is real. -/
theorem all_real_of_reduce {S : Shape} {axes : List (Fin S.rank)}
    (hb : (⟨0, ![]⟩ : Shape).BroadcastsInDim S (![] : Fin 0 → Fin S.rank)) (hr : S.ReducesTo axes ⟨0, ![]⟩)
    (h0 : 0 < (⟨0, ![]⟩ : Shape).numel) (x : FVec Ideal S .f32)
    (h : Host.reduce IntOp.andi (cmpf .olt (Host.absf x) (broadcastInDim S ![] hb (constant (F := Ideal) ⟨0, ![]⟩ .f32 0x7F800000#32)))
      (constantI ⟨0, ![]⟩ 1 1#1) hr h0 ix0 = 1#1) (i : S.Idx) : ∃ r : ℝ, x i = (r : EReal) := by
  have e := Host.reduce_andi_all _ _ hr h0 ix0 h i
  have eb : broadcastInDim S ![] hb (constant (F := Ideal) ⟨0, ![]⟩ .f32 0x7F800000#32) i = ⊤ := by
    rw [broadcastInDim_apply _ hb _ i ix0 (fun a => a.elim0)]; exact ofBits_inf_f32
  have e' : Ideal.cmp .olt (max (x i) (-(x i))) ⊤ = 1#1 := by rw [← eb]; exact e
  exact real_of_abs_lt_top _ e'

/-- The precondition makes every entry of each of the seven argument arrays a real number. -/
theorem finite_of_pre (x : FVec Ideal S8192x4096 .f32) (w1 : FVec Ideal S8192x4096 .f32) (b1 : FVec Ideal S8192 .f32)
    (w2 : FVec Ideal S8192x8192 .f32) (b2 : FVec Ideal S8192 .f32) (w3 : FVec Ideal S4096x8192 .f32)
    (b3 : FVec Ideal S4096 .f32)
    (h : Cert.Pre_finite_inputs.fn (F := Ideal) x w1 b1 w2 b2 w3 b3 = (fun _ => 1#1)) :
    (∀ i, ∃ r : ℝ, x i = (r : EReal)) ∧ (∀ i, ∃ r : ℝ, w1 i = (r : EReal)) ∧ (∀ i, ∃ r : ℝ, b1 i = (r : EReal))
      ∧ (∀ i, ∃ r : ℝ, w2 i = (r : EReal)) ∧ (∀ i, ∃ r : ℝ, b2 i = (r : EReal))
      ∧ (∀ i, ∃ r : ℝ, w3 i = (r : EReal)) ∧ (∀ i, ∃ r : ℝ, b3 i = (r : EReal)) := by
  have h0 := congrFun h ix0
  dsimp only [Cert.Pre_finite_inputs.fn, Cert.Pre_finite_inputs.fn_part1] at h0
  simp only [andi, IntOp.andi_eq_one] at h0
  obtain ⟨⟨⟨⟨⟨⟨hx, hw1⟩, hb1⟩, hw2⟩, hb2⟩, hw3⟩, hb3⟩ := h0
  exact ⟨all_real_of_reduce _ _ _ x hx, all_real_of_reduce _ _ _ w1 hw1, all_real_of_reduce _ _ _ b1 hb1,
    all_real_of_reduce _ _ _ w2 hw2, all_real_of_reduce _ _ _ b2 hb2, all_real_of_reduce _ _ _ w3 hw3,
    all_real_of_reduce _ _ _ b3 hb3⟩

/-- A bit read as a number is real. -/
theorem uitofp_apply_real {S : Shape} (c : IVec S 1) (i : S.Idx) :
    ∃ r : ℝ, (uitofp (F := Ideal) .f32 c) i = (r : EReal) := ⟨((c i).toNat : ℝ), rfl⟩

/-- A sign is real, whatever its argument. -/
theorem sign_real (z : EReal) : ∃ r : ℝ, Ideal.sign z = (r : EReal) := by
  induction z using EReal.rec with
  | bot => exact ⟨-1, by rw [Ideal.sign_bot, EReal.coe_neg, EReal.coe_one]⟩
  | top => exact ⟨1, by rw [Ideal.sign_top, EReal.coe_one]⟩
  | coe r => exact ⟨(SignType.sign r : ℝ), rfl⟩

/-- The magnitude of a real is real. -/
theorem abs_real {S : Shape} {w : FVec Ideal S .f32} {i : S.Idx} (hw : ∃ r : ℝ, w i = (r : EReal)) :
    ∃ r : ℝ, Host.absf w i = (r : EReal) := by
  obtain ⟨r, hr⟩ := hw
  show ∃ r : ℝ, max (w i) (-(w i)) = (r : EReal)
  rw [hr]
  exact max_real ⟨r, rfl⟩ ⟨-r, (EReal.coe_neg r).symm⟩

/-- The host's sum of a whole array of reals, from a real initial value, is real. -/
theorem reduceAdd_real {S : Shape} {axes : List (Fin S.rank)} (hr : S.ReducesTo axes ⟨0, ![]⟩)
    (h0 : 0 < (⟨0, ![]⟩ : Shape).numel) (v : FVec Ideal S .f32) (init : FVec Ideal ⟨0, ![]⟩ .f32)
    (hv : ∀ j, ∃ r : ℝ, v j = (r : EReal)) (hi : ∀ j, ∃ r : ℝ, init j = (r : EReal)) (i : (⟨0, ![]⟩ : Shape).Idx) :
    ∃ r : ℝ, Host.reduceAdd (F := Ideal) v init hr h0 i = (r : EReal) := by
  have e : Host.reduceAdd (F := Ideal) v init hr h0 i = init (Shape.Idx.first h0) + ∑ j : S.Idx, v j := by
    simp only [Host.reduceAdd, Ideal.hostReduceAdd_def]
    exact Ideal.hostReduceAdd_total hr (fun b => b.elim0) v _ i
  rw [e]
  exact add_real (hi _) (sum_real _ _ hv)

/-- The host's quotient at an index is the ideal quotient of the entries. -/
theorem hostDivf_apply {S : Shape} (a b : FVec Ideal S .f32) (i : S.Idx) : Host.divf a b i = Ideal.div (a i) (b i) :=
  Ideal.hostDivf_def (a i) (b i)

/-- A real over the larger of a real and one is real: the divisor is at least one, so it is not zero and the
    quotient is the product with its reciprocal. -/
theorem div_max_one_real {num den : EReal} (hn : ∃ r : ℝ, num = (r : EReal)) (hd : ∃ r : ℝ, den = (r : EReal)) :
    ∃ r : ℝ, Ideal.div num (max den (Ideal.ofBits .f32 0x3F800000#32)) = (r : EReal) := by
  obtain ⟨a, rfl⟩ := hn
  obtain ⟨d, rfl⟩ := hd
  have hmax : max (d : EReal) (Ideal.ofBits .f32 0x3F800000#32) = ((max d 1 : ℝ) : EReal) := by
    rw [ofBits_one_f32, ← EReal.coe_one]
    rcases le_total d 1 with h | h
    · rw [max_eq_right h, max_eq_right (EReal.coe_le_coe_iff.2 h)]
    · rw [max_eq_left h, max_eq_left (EReal.coe_le_coe_iff.2 h)]
  have hne : (max d 1 : ℝ) ≠ 0 := ne_of_gt (lt_of_lt_of_le one_pos (le_max_right d 1))
  rw [hmax, Ideal.div_coe hne, ← EReal.coe_mul]
  exact ⟨_, rfl⟩

/-- Every entry of layer 1's mask is real (it is 0 or 1). -/
theorem mask1_real (w : FVec Ideal S8192x4096 .f32) (i : S8192x4096.Idx) : ∃ r : ℝ, mask1 w i = (r : EReal) :=
  uitofp_apply_real _ i

/-- An entry of layer 1's ternary weights is the sign of the weight times the mask's entry. -/
theorem tern1_apply (w : FVec Ideal S8192x4096 .f32) (i : S8192x4096.Idx) : tern1 w i = Ideal.sign (w i) * mask1 w i := rfl

/-- Every entry of layer 1's ternary weights is real. -/
theorem tern1_real (w : FVec Ideal S8192x4096 .f32) (i : S8192x4096.Idx) : ∃ r : ℝ, tern1 w i = (r : EReal) := by
  rw [tern1_apply]; exact mul_real (sign_real _) (mask1_real w i)

/-- Layer 1's scale is real when the weights are: a quotient of two finite sums of reals whose divisor is at least one. -/
theorem alpha1_real (w : FVec Ideal S8192x4096 .f32) (hw : ∀ i, ∃ r : ℝ, w i = (r : EReal)) :
    ∃ r : ℝ, alpha1 w ix0 = (r : EReal) := by
  unfold alpha1
  rw [hostDivf_apply, maximumf_apply, constant_apply]
  exact div_max_one_real
    (reduceAdd_real _ _ _ _ (fun j => mul_real (abs_real (hw j)) (mask1_real w j)) (fun _ => ⟨0, Ideal.ofBits_zero_f32⟩) ix0)
    (reduceAdd_real _ _ _ _ (mask1_real w) (fun _ => ⟨0, Ideal.ofBits_zero_f32⟩) ix0)

/-- Every entry of layer 2's mask is real (it is 0 or 1). -/
theorem mask2_real (w : FVec Ideal S8192x8192 .f32) (i : S8192x8192.Idx) : ∃ r : ℝ, mask2 w i = (r : EReal) :=
  uitofp_apply_real _ i

/-- An entry of layer 2's ternary weights is the sign of the weight times the mask's entry. -/
theorem tern2_apply (w : FVec Ideal S8192x8192 .f32) (i : S8192x8192.Idx) : tern2 w i = Ideal.sign (w i) * mask2 w i := rfl

/-- Every entry of layer 2's ternary weights is real. -/
theorem tern2_real (w : FVec Ideal S8192x8192 .f32) (i : S8192x8192.Idx) : ∃ r : ℝ, tern2 w i = (r : EReal) := by
  rw [tern2_apply]; exact mul_real (sign_real _) (mask2_real w i)

/-- Layer 2's scale is real when the weights are: a quotient of two finite sums of reals whose divisor is at least one. -/
theorem alpha2_real (w : FVec Ideal S8192x8192 .f32) (hw : ∀ i, ∃ r : ℝ, w i = (r : EReal)) :
    ∃ r : ℝ, alpha2 w ix0 = (r : EReal) := by
  unfold alpha2
  rw [hostDivf_apply, maximumf_apply, constant_apply]
  exact div_max_one_real
    (reduceAdd_real _ _ _ _ (fun j => mul_real (abs_real (hw j)) (mask2_real w j)) (fun _ => ⟨0, Ideal.ofBits_zero_f32⟩) ix0)
    (reduceAdd_real _ _ _ _ (mask2_real w) (fun _ => ⟨0, Ideal.ofBits_zero_f32⟩) ix0)

/-- Every entry of layer 3's mask is real (it is 0 or 1). -/
theorem mask3_real (w : FVec Ideal S4096x8192 .f32) (i : S4096x8192.Idx) : ∃ r : ℝ, mask3 w i = (r : EReal) :=
  uitofp_apply_real _ i

/-- An entry of layer 3's ternary weights is the sign of the weight times the mask's entry. -/
theorem tern3_apply (w : FVec Ideal S4096x8192 .f32) (i : S4096x8192.Idx) : tern3 w i = Ideal.sign (w i) * mask3 w i := rfl

/-- Every entry of layer 3's ternary weights is real. -/
theorem tern3_real (w : FVec Ideal S4096x8192 .f32) (i : S4096x8192.Idx) : ∃ r : ℝ, tern3 w i = (r : EReal) := by
  rw [tern3_apply]; exact mul_real (sign_real _) (mask3_real w i)

/-- Layer 3's scale is real when the weights are: a quotient of two finite sums of reals whose divisor is at least one. -/
theorem alpha3_real (w : FVec Ideal S4096x8192 .f32) (hw : ∀ i, ∃ r : ℝ, w i = (r : EReal)) :
    ∃ r : ℝ, alpha3 w ix0 = (r : EReal) := by
  unfold alpha3
  rw [hostDivf_apply, maximumf_apply, constant_apply]
  exact div_max_one_real
    (reduceAdd_real _ _ _ _ (fun j => mul_real (abs_real (hw j)) (mask3_real w j)) (fun _ => ⟨0, Ideal.ofBits_zero_f32⟩) ix0)
    (reduceAdd_real _ _ _ _ (mask3_real w) (fun _ => ⟨0, Ideal.ofBits_zero_f32⟩) ix0)

end Cert.RefSide

end
-- ==== Proof.RefLayer1.lean ====
/-
  Layer 1 of the reference, read entry by entry, is the specification's layer.

  Entry (p, q) of the layer's output is the sum over k of the input at (p, k) times the effective weight at (k, q) — the weight array
  read transposed, each entry scale × sign × mask — plus the bias at q, rectified against a zero array. With every number real the
  scale leaves the sum, which is the specification's arrangement.
-/
import proofs.«109880_j20693152432262_2_alg».proof.Proof.RefRead
import proofs.«109880_j20693152432262_2_alg».proof.Proof.RefArgs
import proofs.«109880_j20693152432262_2_alg».proof.Proof.RefFinite
import proofs.«109880_j20693152432262_2_alg».proof.Proof.RefAlgebra

noncomputable section

open scoped BigOperators

namespace Cert.RefSide

open Cert.ReferenceIdeal Cert.ReferenceIdeal.Gen Cert.ReferenceIdeal.Read Idealize.ShloMosaic Idealize.ShloMosaic.ValueIdx

/-- The mask the program computes for this layer is the named term. -/
theorem mask1_read (w : FVec Ideal S8192x4096 .f32) : val_main_v6 (F := Ideal) w = mask1 w := rfl

/-- The scale the program computes for this layer is the named term. -/
theorem alpha1_read (w : FVec Ideal S8192x4096 .f32) : val_main_v11 (F := Ideal) w = alpha1 w := rfl

/-- The effective weight read through the transpose at (k, q): scale × sign × mask of the weight at (q, k). -/
theorem weight1_at (w : FVec Ideal S8192x4096 .f32) (k : Fin 4096) (q : Fin 8192) :
    val_main_v16 (F := Ideal) w (ix2 k q) = (A1 w * Ideal.sign (w (ix2 q k))) * mask1 w (ix2 q k) := by
  have e : idx_main_v16 (ix2 k q) = ix2 q k := funext fun a => Fin.ext (by match a with | ⟨0, _⟩ => rfl | ⟨1, _⟩ => rfl)
  rw [val_main_v16_apply, e, val_main_v15_apply, val_main_v14_apply, val_main_v13_apply, val_main_v12_apply, mask1_read, alpha1_read]
  rfl

/-- Entry (p, q) of layer 1: the input is the first argument array. -/
theorem layer1_at (x w1 : FVec Ideal S8192x4096 .f32) (b1 : FVec Ideal S8192 .f32)
    (hx : ∀ i, ∃ r : ℝ, x i = (r : EReal)) (hw : ∀ i, ∃ r : ℝ, w1 i = (r : EReal))
    (p : Fin 8192) (q : Fin 8192) :
    val_main_v21 (F := Ideal) x w1 b1 (ix2 p q) = Cert.Spec.layer true (X x) (TW1 w1) (A1 w1) (B1 b1) p q := by
  have el : ∀ k : Fin 4096, lidx_main_v17 (ix2 p q) k = ix2 p k := fun k => funext fun a => Fin.ext (by match a with | ⟨0, _⟩ => rfl | ⟨1, _⟩ => rfl)
  have er : ∀ k : Fin 4096, ridx_main_v17 (ix2 p q) k = ix2 k q := fun k => funext fun a => Fin.ext (by match a with | ⟨0, _⟩ => rfl | ⟨1, _⟩ => rfl)
  have eb : idx_main_v18 (idx_main_v19 (ix2 p q)) = ix1 q := funext fun a => Fin.ext (by match a with | ⟨0, _⟩ => rfl)
  have es : ∑ k : Fin 4096, x (lidx_main_v17 (ix2 p q) k) * val_main_v16 (F := Ideal) w1 (ridx_main_v17 (ix2 p q) k)
      = ∑ k : Fin 4096, (X x) p k * ((A1 w1 * Ideal.sign (w1 (ix2 q k))) * mask1 w1 (ix2 q k)) :=
    Finset.sum_congr rfl fun k _ => by rw [el k, er k, weight1_at]
  rw [val_main_v21_apply, val_main_v20_apply, val_main_v17_apply, es, val_main_v19_apply, val_main_v18_apply, eb, val_main_call0_v0_apply, val_main_call0_cst_apply, Ideal.maximumf_def, Ideal.addf_def, Ideal.ofBits_def, Ideal.ofBits_zero_f32]
  exact relu_of_scaled (X x) (fun k h => Ideal.sign (w1 (ix2 h k))) (fun k h => mask1 w1 (ix2 h k)) (A1 w1) (B1 b1)
    (fun _ _ => hx _) (fun _ _ => sign_real _) (fun _ _ => mask1_real w1 _) (alpha1_real w1 hw) p q

end Cert.RefSide

end
-- ==== Proof.RefLayer2.lean ====
/-
  Layer 2 of the reference, read entry by entry, is the specification's layer.

  Entry (p, q) of the layer's output is the sum over k of the input at (p, k) times the effective weight at (k, q) — the weight array
  read transposed, each entry scale × sign × mask — plus the bias at q, rectified against a zero array. With every number real the
  scale leaves the sum, which is the specification's arrangement.
-/
import proofs.«109880_j20693152432262_2_alg».proof.Proof.RefRead
import proofs.«109880_j20693152432262_2_alg».proof.Proof.RefArgs
import proofs.«109880_j20693152432262_2_alg».proof.Proof.RefFinite
import proofs.«109880_j20693152432262_2_alg».proof.Proof.RefAlgebra

noncomputable section

open scoped BigOperators

namespace Cert.RefSide

open Cert.ReferenceIdeal Cert.ReferenceIdeal.Gen Cert.ReferenceIdeal.Read Idealize.ShloMosaic Idealize.ShloMosaic.ValueIdx

/-- The mask the program computes for this layer is the named term. -/
theorem mask2_read (w : FVec Ideal S8192x8192 .f32) : val_main_v28 (F := Ideal) w = mask2 w := rfl

/-- The scale the program computes for this layer is the named term. -/
theorem alpha2_read (w : FVec Ideal S8192x8192 .f32) : val_main_v33 (F := Ideal) w = alpha2 w := rfl

/-- The effective weight read through the transpose at (k, q): scale × sign × mask of the weight at (q, k). -/
theorem weight2_at (w : FVec Ideal S8192x8192 .f32) (k : Fin 8192) (q : Fin 8192) :
    val_main_v38 (F := Ideal) w (ix2 k q) = (A2 w * Ideal.sign (w (ix2 q k))) * mask2 w (ix2 q k) := by
  have e : idx_main_v38 (ix2 k q) = ix2 q k := funext fun a => Fin.ext (by match a with | ⟨0, _⟩ => rfl | ⟨1, _⟩ => rfl)
  rw [val_main_v38_apply, e, val_main_v37_apply, val_main_v36_apply, val_main_v35_apply, val_main_v34_apply, mask2_read, alpha2_read]
  rfl

/-- Entry (p, q) of layer 2: the input is layer 1's output, here any table `L` of reals that the first layer's array is known to hold. -/
theorem layer2_at (x w1 : FVec Ideal S8192x4096 .f32) (b1 : FVec Ideal S8192 .f32) (w2 : FVec Ideal S8192x8192 .f32)
    (b2 : FVec Ideal S8192 .f32) (L : Fin 8192 → Fin 8192 → EReal)
    (hL : ∀ p k, val_main_v21 (F := Ideal) x w1 b1 (ix2 p k) = L p k) (hLr : ∀ p k, ∃ r : ℝ, L p k = (r : EReal)) (hw : ∀ i, ∃ r : ℝ, w2 i = (r : EReal))
    (p : Fin 8192) (q : Fin 8192) :
    val_main_v43 (F := Ideal) x w1 b1 w2 b2 (ix2 p q) = Cert.Spec.layer true L (TW2 w2) (A2 w2) (B2 b2) p q := by
  have el : ∀ k : Fin 8192, lidx_main_v39 (ix2 p q) k = ix2 p k := fun k => funext fun a => Fin.ext (by match a with | ⟨0, _⟩ => rfl | ⟨1, _⟩ => rfl)
  have er : ∀ k : Fin 8192, ridx_main_v39 (ix2 p q) k = ix2 k q := fun k => funext fun a => Fin.ext (by match a with | ⟨0, _⟩ => rfl | ⟨1, _⟩ => rfl)
  have eb : idx_main_v40 (idx_main_v41 (ix2 p q)) = ix1 q := funext fun a => Fin.ext (by match a with | ⟨0, _⟩ => rfl)
  have es : ∑ k : Fin 8192, val_main_v21 (F := Ideal) x w1 b1 (lidx_main_v39 (ix2 p q) k) * val_main_v38 (F := Ideal) w2 (ridx_main_v39 (ix2 p q) k)
      = ∑ k : Fin 8192, L p k * ((A2 w2 * Ideal.sign (w2 (ix2 q k))) * mask2 w2 (ix2 q k)) :=
    Finset.sum_congr rfl fun k _ => by rw [el k, er k, weight2_at, hL]
  rw [val_main_v43_apply, val_main_v42_apply, val_main_v39_apply, es, val_main_v41_apply, val_main_v40_apply, eb, val_main_call1_v0_apply, val_main_call1_cst_apply, Ideal.maximumf_def, Ideal.addf_def, Ideal.ofBits_def, Ideal.ofBits_zero_f32]
  exact relu_of_scaled L (fun k h => Ideal.sign (w2 (ix2 h k))) (fun k h => mask2 w2 (ix2 h k)) (A2 w2) (B2 b2)
    hLr (fun _ _ => sign_real _) (fun _ _ => mask2_real w2 _) (alpha2_real w2 hw) p q

end Cert.RefSide

end
-- ==== Proof.RefLayer3.lean ====
/-
  Layer 3 of the reference, read entry by entry, is the specification's layer.

  Entry (p, q) of the result is the sum over k of the input at (p, k) times the effective weight at (k, q) — the weight array
  read transposed, each entry scale × sign × mask — plus the bias at q. With every number real the
  scale leaves the sum, which is the specification's arrangement.
-/
import proofs.«109880_j20693152432262_2_alg».proof.Proof.RefRead
import proofs.«109880_j20693152432262_2_alg».proof.Proof.RefArgs
import proofs.«109880_j20693152432262_2_alg».proof.Proof.RefFinite
import proofs.«109880_j20693152432262_2_alg».proof.Proof.RefAlgebra

noncomputable section

open scoped BigOperators

namespace Cert.RefSide

open Cert.ReferenceIdeal Cert.ReferenceIdeal.Gen Cert.ReferenceIdeal.Read Idealize.ShloMosaic Idealize.ShloMosaic.ValueIdx

/-- The mask the program computes for this layer is the named term. -/
theorem mask3_read (w : FVec Ideal S4096x8192 .f32) : val_main_v50 (F := Ideal) w = mask3 w := rfl

/-- The scale the program computes for this layer is the named term. -/
theorem alpha3_read (w : FVec Ideal S4096x8192 .f32) : val_main_v55 (F := Ideal) w = alpha3 w := rfl

/-- The effective weight read through the transpose at (k, q): scale × sign × mask of the weight at (q, k). -/
theorem weight3_at (w : FVec Ideal S4096x8192 .f32) (k : Fin 8192) (q : Fin 4096) :
    val_main_v60 (F := Ideal) w (ix2 k q) = (A3 w * Ideal.sign (w (ix2 q k))) * mask3 w (ix2 q k) := by
  have e : idx_main_v60 (ix2 k q) = ix2 q k := funext fun a => Fin.ext (by match a with | ⟨0, _⟩ => rfl | ⟨1, _⟩ => rfl)
  rw [val_main_v60_apply, e, val_main_v59_apply, val_main_v58_apply, val_main_v57_apply, val_main_v56_apply, mask3_read, alpha3_read]
  rfl

/-- Entry (p, q) of layer 3: the input is layer 2's output, here any table `L` of reals that the second layer's array is known to hold. -/
theorem layer3_at (x w1 : FVec Ideal S8192x4096 .f32) (b1 : FVec Ideal S8192 .f32) (w2 : FVec Ideal S8192x8192 .f32)
    (b2 : FVec Ideal S8192 .f32) (w3 : FVec Ideal S4096x8192 .f32) (b3 : FVec Ideal S4096 .f32) (L : Fin 8192 → Fin 8192 → EReal)
    (hL : ∀ p k, val_main_v43 (F := Ideal) x w1 b1 w2 b2 (ix2 p k) = L p k) (hLr : ∀ p k, ∃ r : ℝ, L p k = (r : EReal)) (hw : ∀ i, ∃ r : ℝ, w3 i = (r : EReal))
    (p : Fin 8192) (q : Fin 4096) :
    val_main_v64 (F := Ideal) x w1 b1 w2 b2 w3 b3 (ix2 p q) = Cert.Spec.layer false L (TW3 w3) (A3 w3) (B3 b3) p q := by
  have el : ∀ k : Fin 8192, lidx_main_v61 (ix2 p q) k = ix2 p k := fun k => funext fun a => Fin.ext (by match a with | ⟨0, _⟩ => rfl | ⟨1, _⟩ => rfl)
  have er : ∀ k : Fin 8192, ridx_main_v61 (ix2 p q) k = ix2 k q := fun k => funext fun a => Fin.ext (by match a with | ⟨0, _⟩ => rfl | ⟨1, _⟩ => rfl)
  have eb : idx_main_v62 (idx_main_v63 (ix2 p q)) = ix1 q := funext fun a => Fin.ext (by match a with | ⟨0, _⟩ => rfl)
  have es : ∑ k : Fin 8192, val_main_v43 (F := Ideal) x w1 b1 w2 b2 (lidx_main_v61 (ix2 p q) k) * val_main_v60 (F := Ideal) w3 (ridx_main_v61 (ix2 p q) k)
      = ∑ k : Fin 8192, L p k * ((A3 w3 * Ideal.sign (w3 (ix2 q k))) * mask3 w3 (ix2 q k)) :=
    Finset.sum_congr rfl fun k _ => by rw [el k, er k, weight3_at, hL]
  rw [val_main_v64_apply, val_main_v61_apply, es, val_main_v63_apply, val_main_v62_apply, eb, Ideal.addf_def]
  exact plain_of_scaled L (fun k h => Ideal.sign (w3 (ix2 h k))) (fun k h => mask3 w3 (ix2 h k)) (A3 w3) (B3 b3)
    hLr (fun _ _ => sign_real _) (fun _ _ => mask3_real w3 _) (alpha3_real w3 hw) p q

end Cert.RefSide

end
-- ==== Proof.RefSide.lean ====
/-
  The reference side: every run of the reference program ends with its result array holding the specification's
  three-layer network of the argument arrays, and the arguments unchanged.

  The generated run of the program states the result array as the composed term of its operations. Read entry by
  entry, layer after layer, that term is the specification's layer applied three times: each layer's output is a
  table of reals (the arguments are real by the precondition, and a layer of reals is real), so the next layer's
  distributive step applies to it in turn. The frame claim is the same run with the result dropped.
-/
import proofs.«109880_j20693152432262_2_alg».proof.Defs
import proofs.«109880_j20693152432262_2_alg».proof.Proof.RefLayer1
import proofs.«109880_j20693152432262_2_alg».proof.Proof.RefLayer2
import proofs.«109880_j20693152432262_2_alg».proof.Proof.RefLayer3

noncomputable section

namespace Cert.RefSide

open Cert.ReferenceIdeal Cert.ReferenceIdeal.Gen Cert.ReferenceIdeal.Read Idealize.ShloMosaic Idealize.ShloMosaic.TcCoe
  Idealize.SL.Sem Idealize.ShloMosaic.ValueIdx

/-- The reference's last stage, as a function of the seven argument arrays, is the specification's network of them,
    when every entry of the arrays is real. -/
theorem value_eq (x w1 : FVec Ideal S8192x4096 .f32) (b1 : FVec Ideal S8192 .f32) (w2 : FVec Ideal S8192x8192 .f32)
    (b2 : FVec Ideal S8192 .f32) (w3 : FVec Ideal S4096x8192 .f32) (b3 : FVec Ideal S4096 .f32)
    (hx : ∀ i, ∃ r : ℝ, x i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) (hw3 : ∀ i, ∃ r : ℝ, w3 i = (r : EReal))
    (hb3 : ∀ i, ∃ r : ℝ, b3 i = (r : EReal)) :
    val_main_v64 (F := Ideal) x w1 b1 w2 b2 w3 b3
      = fun j => Cert.Spec.mlp (X x) (TW1 w1) (A1 w1) (B1 b1) (TW2 w2) (A2 w2) (B2 b2) (TW3 w3) (A3 w3) (B3 b3) (j 0) (j 1) := by
  funext j
  obtain ⟨p, q, rfl⟩ : ∃ (p : Fin 8192) (q : Fin 4096), j = ix2 p q := ⟨j 0, j 1, eq_ix2 j⟩
  have h1r := layer_real true (X x) (TW1 w1) (A1 w1) (B1 b1) (fun _ _ => hx _) (fun _ _ => tern1_real w1 _)
    (alpha1_real w1 hw1) (fun _ => hb1 _)
  have h2r := layer_real true _ (TW2 w2) (A2 w2) (B2 b2) h1r (fun _ _ => tern2_real w2 _) (alpha2_real w2 hw2)
    (fun _ => hb2 _)
  exact layer3_at x w1 b1 w2 b2 w3 b3 _
    (fun p k => layer2_at x w1 b1 w2 b2 _ (fun p k => layer1_at x w1 b1 hx hw1 p k) h1r hw2 p k) h2r hw3 p q

/-- The same with the network's result named as an array. -/
theorem value_eq_result (x w1 : FVec Ideal S8192x4096 .f32) (b1 : FVec Ideal S8192 .f32) (w2 : FVec Ideal S8192x8192 .f32)
    (b2 : FVec Ideal S8192 .f32) (w3 : FVec Ideal S4096x8192 .f32) (b3 : FVec Ideal S4096 .f32)
    (hx : ∀ i, ∃ r : ℝ, x i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) (hw3 : ∀ i, ∃ r : ℝ, w3 i = (r : EReal))
    (hb3 : ∀ i, ∃ r : ℝ, b3 i = (r : EReal)) :
    val_main_v64 (F := Ideal) x w1 b1 w2 b2 w3 b3 = result x w1 b1 w2 b2 w3 b3 :=
  value_eq x w1 b1 w2 b2 w3 b3 hx hw1 hb1 hw2 hb2 hw3 hb3

/-- From a memory whose seven argument arrays hold reals on every device, every run of the reference ends with
    the result array at the specification's network of the arguments, and the arguments unchanged. -/
theorem run_spec_of_real (m' : (ℓ : Loc nD τ sig) → Buf (Elt Ideal) ℓ) (ρ' : Dev nD → PrngReg)
    (hfin : ∀ c : Dev nD,
      (∀ i : S8192x4096.Idx, ∃ r : ℝ, (m' ((c.tc : Thread nD τ).loc main_arg0) : FVec Ideal S8192x4096 .f32) i = (r : EReal))
      ∧ (∀ i : S8192x4096.Idx, ∃ r : ℝ, (m' ((c.tc : Thread nD τ).loc main_arg1) : FVec Ideal S8192x4096 .f32) i = (r : EReal))
      ∧ (∀ i : S8192.Idx, ∃ r : ℝ, (m' ((c.tc : Thread nD τ).loc main_arg2) : FVec Ideal S8192 .f32) i = (r : EReal))
      ∧ (∀ i : S8192x8192.Idx, ∃ r : ℝ, (m' ((c.tc : Thread nD τ).loc main_arg3) : FVec Ideal S8192x8192 .f32) i = (r : EReal))
      ∧ (∀ i : S8192.Idx, ∃ r : ℝ, (m' ((c.tc : Thread nD τ).loc main_arg4) : FVec Ideal S8192 .f32) i = (r : EReal))
      ∧ (∀ i : S4096x8192.Idx, ∃ r : ℝ, (m' ((c.tc : Thread nD τ).loc main_arg5) : FVec Ideal S4096x8192 .f32) i = (r : EReal))
      ∧ (∀ i : S4096.Idx, ∃ r : ℝ, (m' ((c.tc : Thread nD τ).loc main_arg6) : FVec Ideal S4096 .f32) i = (r : EReal))) :
    θ_run (defs (F := Ideal)) (onTc (τ := τ) (main (F := Ideal))) ⟨m', fun _ => 0, ρ'⟩ (fun r => ∀ c : Dev nD,
      r.2.mem ((c.tc : Thread nD τ).loc main_v64) = result
        (m' ((c.tc : Thread nD τ).loc main_arg0) : FVec Ideal S8192x4096 .f32)
        (m' ((c.tc : Thread nD τ).loc main_arg1) : FVec Ideal S8192x4096 .f32)
        (m' ((c.tc : Thread nD τ).loc main_arg2) : FVec Ideal S8192 .f32)
        (m' ((c.tc : Thread nD τ).loc main_arg3) : FVec Ideal S8192x8192 .f32)
        (m' ((c.tc : Thread nD τ).loc main_arg4) : FVec Ideal S8192 .f32)
        (m' ((c.tc : Thread nD τ).loc main_arg5) : FVec Ideal S4096x8192 .f32)
        (m' ((c.tc : Thread nD τ).loc main_arg6) : FVec Ideal S4096 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run (defs (F := Ideal)) _ _).mono (fun _ h c => by
      obtain ⟨h0, h1, h2, h3, h4, h5, h6⟩ := hfin c
      exact ⟨(h c).1.trans ((val_main_v64_eq m' c).trans (value_eq_result _ _ _ _ _ _ _ h0 h1 h2 h3 h4 h5 h6)), (h c).2⟩)
    (Cert.ReferenceIdeal.Value.run (F := Ideal) m' ρ')

/-- The same from the reference's precondition: finite inputs are real inputs. -/
theorem run_spec (m' : (ℓ : Loc nD τ sig) → Buf (Elt Ideal) ℓ) (ρ' : Dev nD → PrngReg)
    (hpre : Cert.Pre_ReferenceIdeal m') :
    θ_run (defs (F := Ideal)) (onTc (τ := τ) (main (F := Ideal))) ⟨m', fun _ => 0, ρ'⟩ (fun r => ∀ c : Dev nD,
      r.2.mem ((c.tc : Thread nD τ).loc main_v64) = result
        (m' ((c.tc : Thread nD τ).loc main_arg0) : FVec Ideal S8192x4096 .f32)
        (m' ((c.tc : Thread nD τ).loc main_arg1) : FVec Ideal S8192x4096 .f32)
        (m' ((c.tc : Thread nD τ).loc main_arg2) : FVec Ideal S8192 .f32)
        (m' ((c.tc : Thread nD τ).loc main_arg3) : FVec Ideal S8192x8192 .f32)
        (m' ((c.tc : Thread nD τ).loc main_arg4) : FVec Ideal S8192 .f32)
        (m' ((c.tc : Thread nD τ).loc main_arg5) : FVec Ideal S4096x8192 .f32)
        (m' ((c.tc : Thread nD τ).loc main_arg6) : FVec Ideal S4096 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  run_spec_of_real m' ρ' (fun c => finite_of_pre _ _ _ _ _ _ _ (hpre c))

/-- The reference runs and leaves its arguments unchanged: its generated run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.RefAgree.lean ====
/-
  The reference's run stated over the kernel's memory: when the reference's argument arrays are the kernel's, and the
  kernel's satisfy the precondition, every run of the reference ends with its result array at the specification's
  network of the KERNEL's argument arrays.
-/
import proofs.«109880_j20693152432262_2_alg».proof.Proof.RefSide

noncomputable section

namespace Cert.RefSide

open Idealize.ShloMosaic Idealize.ShloMosaic.TcCoe Idealize.SL.Sem

/-- Agreement on the arguments carries the precondition from the kernel's memory to the reference's. -/
theorem pre_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Pre_ReferenceIdeal m' := fun c => by
  obtain ⟨h0, h1, h2, h3, h4, h5, h6⟩ := hagree c
  rw [h0, h1, h2, h3, h4, h5, h6]
  exact hpre c

/-- The reference's half of the algebraic claim, with the common result the specification's network of the kernel's
    argument arrays. -/
theorem run_spec_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v64) = result
        (m ((c.tc : Thread Cert.KernelIdeal.nD Cert.KernelIdeal.τ).loc Cert.KernelIdeal.main_arg0) : FVec Ideal Cert.ReferenceIdeal.S8192x4096 .f32)
        (m ((c.tc : Thread Cert.KernelIdeal.nD Cert.KernelIdeal.τ).loc Cert.KernelIdeal.main_arg1) : FVec Ideal Cert.ReferenceIdeal.S8192x4096 .f32)
        (m ((c.tc : Thread Cert.KernelIdeal.nD Cert.KernelIdeal.τ).loc Cert.KernelIdeal.main_arg2) : FVec Ideal Cert.ReferenceIdeal.S8192 .f32)
        (m ((c.tc : Thread Cert.KernelIdeal.nD Cert.KernelIdeal.τ).loc Cert.KernelIdeal.main_arg3) : FVec Ideal Cert.ReferenceIdeal.S8192x8192 .f32)
        (m ((c.tc : Thread Cert.KernelIdeal.nD Cert.KernelIdeal.τ).loc Cert.KernelIdeal.main_arg4) : FVec Ideal Cert.ReferenceIdeal.S8192 .f32)
        (m ((c.tc : Thread Cert.KernelIdeal.nD Cert.KernelIdeal.τ).loc Cert.KernelIdeal.main_arg5) : FVec Ideal Cert.ReferenceIdeal.S4096x8192 .f32)
        (m ((c.tc : Thread Cert.KernelIdeal.nD Cert.KernelIdeal.τ).loc Cert.KernelIdeal.main_arg6) : FVec Ideal Cert.ReferenceIdeal.S4096 .f32)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono (fun _ h c => by
      obtain ⟨h0, h1, h2, h3, h4, h5, h6⟩ := hagree c
      refine ⟨?_, (h c).2⟩
      rw [← h0, ← h1, ← h2, ← h3, ← h4, ← h5, ← h6]
      exact (h c).1)
    (run_spec m' g' (pre_of_agree m m' hpre hagree))

end Cert.RefSide

end
-- ==== Proof.lean ====
/-
  The kernel is a three-layer network with ternary weights. Per layer, with `aw = |w|`, the threshold is three quarters of
  the mean of `aw`, the mask keeps the entries above it, the scale `a` is the mean of the kept entries (their sum over
  their number, at least one), and the ternary weight is `sign w` on the kept entries and zero elsewhere. The reference
  multiplies every weight by `a` before the matrix product; the kernel multiplies the finished product by `a`, block by
  block of the reduction axis into an accumulator that lives from one grid point to the next. Over the extended reals
  the two agree because every number involved is real: the inputs by the precondition, the scale as a quotient of real
  sums by a real that is at least one, each layer's output as a finite sum of products of reals — so the scale moves
  across the sum by distributivity.

  Both idealized programs are proved equal, entry by entry, to one function of the argument arrays, `Cert.Spec.mlp`
  of the ternary weights, the scales and the biases. The kernel's side: each region's output array is one layer of its
  region-entry arrays (the accumulation over reduction blocks regrouped into one sum), the host operations between the
  regions hand each region the ternary weights, the scale and the bias row, and the regions chain. The reference's side:
  its run read operation by operation. The three frame claims come from the same runs: the kernel programs' from the
  whole-program run (at either instance), the reference's from its run with the result dropped. The idealization
  rewrote nothing, so there is nothing to preserve.
-/
import proofs.«109880_j20693152432262_2_alg».proof.Defs
import proofs.«109880_j20693152432262_2_alg».proof.Proof.Gen.Kernel
import proofs.«109880_j20693152432262_2_alg».proof.Proof.Gen.KernelIdeal
import proofs.«109880_j20693152432262_2_alg».proof.Proof.Gen.ReferenceIdeal
import proofs.«109880_j20693152432262_2_alg».proof.Proof.Gen.Pre_finite_inputs
import proofs.«109880_j20693152432262_2_alg».proof.Proof.KWhole
import proofs.«109880_j20693152432262_2_alg».proof.Proof.KIWhole
import proofs.«109880_j20693152432262_2_alg».proof.Proof.KIBridge
import proofs.«109880_j20693152432262_2_alg».proof.Proof.RefAgree
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_kernel : Cert.frame_Kernel := fun m ρ _ => Cert.Kernel.Whole.frame m ρ

/-- So does the idealized one: the same proof at the other instance. -/
theorem frame_kernelIdeal : Cert.frame_KernelIdeal := fun m ρ _ => Cert.KernelIdeal.Whole.frame m ρ

/-- The reference's frame is its run with the result dropped. -/
theorem frame_reference : Cert.frame_ReferenceIdeal := Cert.RefSide.frame

/-- The idealization rewrote no operation. -/
theorem preserves : Cert.preserves_Kernel_KernelIdeal := trivial

/-- From memories that agree on the arguments, both idealized programs end with the result array at the same
    function of the kernel's argument arrays. -/
theorem algebraic : Cert.algebraic_KernelIdeal_ReferenceIdeal := by
  intro m ρ m' ρ' hpre hagree
  exact ⟨_, Cert.KernelIdeal.Bridge.run m ρ, Cert.RefSide.run_spec_agree m m' ρ' hpre hagree⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
